-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S10000x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S128x128 : Shape := ⟨2, ![128, 128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S1000000x128 .f32) (main_arg1 : FVec F S128x128 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S1000000x128 : Shape := ⟨2, ![1000000, 128]⟩
abbrev S128x128 : Shape := ⟨2, ![128, 128]⟩
abbrev S_ : Shape := ⟨0, ![]⟩
abbrev S2x1x1 : Shape := ⟨3, ![2, 1, 1]⟩
abbrev S10000x128 : Shape := ⟨2, ![10000, 128]⟩
abbrev S1x1x1 : Shape := ⟨3, ![1, 1, 1]⟩
abbrev S1x10000x128 : Shape := ⟨3, ![1, 10000, 128]⟩
abbrev S1 : Shape := ⟨1, ![1]⟩

abbrev nBuf : Space → Nat
  | .hbm => 183
  | .vmem => 6
  | .smem => 0
  | _ => 0

abbrev hbmTy0_0 (i : Nat) : BufTy := match i % 128 with
  | 0 => ⟨S1000000x128, .f32⟩
  | 1 => ⟨S128x128, .f32⟩
  | 2 => ⟨S128x128, .i32⟩
  | 3 => ⟨S128x128, .i32⟩
  | 4 => ⟨S_, .i32⟩
  | 5 => ⟨S128x128, .i32⟩
  | 6 => ⟨S128x128, .i32⟩
  | 7 => ⟨S128x128, .i1⟩
  | 8 => ⟨S128x128, .f32⟩
  | 9 => ⟨S_, .f32⟩
  | 10 => ⟨S128x128, .f32⟩
  | 11 => ⟨S128x128, .f32⟩
  | 12 => ⟨S128x128, .f32⟩
  | 13 => ⟨S128x128, .i32⟩
  | 14 => ⟨S128x128, .i32⟩
  | 15 => ⟨S_, .i32⟩
  | 16 => ⟨S128x128, .i32⟩
  | 17 => ⟨S128x128, .i32⟩
  | 18 => ⟨S128x128, .i1⟩
  | 19 => ⟨S128x128, .f32⟩
  | 20 => ⟨S128x128, .f32⟩
  | 21 => ⟨S128x128, .f32⟩
  | 22 => ⟨S128x128, .bf16⟩
  | 23 => ⟨S128x128, .f32⟩
  | 24 => ⟨S128x128, .f32⟩
  | 25 => ⟨S128x128, .bf16⟩
  | 26 => ⟨S2x1x1, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S128x128, .f32⟩
  | 34 => ⟨S128x128, .i32⟩
  | 35 => ⟨S128x128, .i32⟩
  | 36 => ⟨S_, .i32⟩
  | 37 => ⟨S128x128, .i32⟩
  | 38 => ⟨S128x128, .i32⟩
  | 39 => ⟨S128x128, .i1⟩
  | 40 => ⟨S_, .f32⟩
  | 41 => ⟨S128x128, .f32⟩
  | 42 => ⟨S128x128, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S128x128, .f32⟩
  | 50 => ⟨S128x128, .i32⟩
  | 51 => ⟨S128x128, .i32⟩
  | 52 => ⟨S_, .i32⟩
  | 53 => ⟨S128x128, .i32⟩
  | 54 => ⟨S128x128, .i32⟩
  | 55 => ⟨S128x128, .i1⟩
  | 56 => ⟨S_, .f32⟩
  | 57 => ⟨S128x128, .f32⟩
  | 58 => ⟨S128x128, .f32⟩
  | 59 => ⟨S_, .f32⟩
  | 60 => ⟨S_, .f32⟩
  | 61 => ⟨S_, .f32⟩
  | 62 => ⟨S_, .f32⟩
  | 63 => ⟨S_, .f32⟩
  | 64 => ⟨S128x128, .f32⟩
  | 65 => ⟨S128x128, .i32⟩
  | 66 => ⟨S128x128, .i32⟩
  | 67 => ⟨S_, .i32⟩
  | 68 => ⟨S128x128, .i32⟩
  | 69 => ⟨S128x128, .i32⟩
  | 70 => ⟨S128x128, .i1⟩
  | 71 => ⟨S_, .f32⟩
  | 72 => ⟨S128x128, .f32⟩
  | 73 => ⟨S128x128, .f32⟩
  | 74 => ⟨S_, .f32⟩
  | 75 => ⟨S_, .f32⟩
  | 76 => ⟨S_, .f32⟩
  | 77 => ⟨S_, .f32⟩
  | 78 => ⟨S_, .f32⟩
  | 79 => ⟨S128x128, .f32⟩
  | 80 => ⟨S128x128, .i32⟩
  | 81 => ⟨S128x128, .i32⟩
  | 82 => ⟨S_, .i32⟩
  | 83 => ⟨S128x128, .i32⟩
  | 84 => ⟨S128x128, .i32⟩
  | 85 => ⟨S128x128, .i1⟩
  | 86 => ⟨S_, .f32⟩
  | 87 => ⟨S128x128, .f32⟩
  | 88 => ⟨S128x128, .f32⟩
  | 89 => ⟨S_, .f32⟩
  | 90 => ⟨S_, .f32⟩
  | 91 => ⟨S_, .f32⟩
  | 92 => ⟨S_, .f32⟩
  | 93 => ⟨S_, .f32⟩
  | 94 => ⟨S128x128, .f32⟩
  | 95 => ⟨S128x128, .i32⟩
  | 96 => ⟨S128x128, .i32⟩
  | 97 => ⟨S_, .i32⟩
  | 98 => ⟨S128x128, .i32⟩
  | 99 => ⟨S128x128, .i32⟩
  | 100 => ⟨S128x128, .i1⟩
  | 101 => ⟨S_, .f32⟩
  | 102 => ⟨S128x128, .f32⟩
  | 103 => ⟨S128x128, .f32⟩
  | 104 => ⟨S_, .f32⟩
  | 105 => ⟨S_, .f32⟩
  | 106 => ⟨S_, .f32⟩
  | 107 => ⟨S_, .f32⟩
  | 108 => ⟨S_, .f32⟩
  | 109 => ⟨S128x128, .f32⟩
  | 110 => ⟨S128x128, .i32⟩
  | 111 => ⟨S128x128, .i32⟩
  | 112 => ⟨S_, .i32⟩
  | 113 => ⟨S128x128, .i32⟩
  | 114 => ⟨S128x128, .i32⟩
  | 115 => ⟨S128x128, .i1⟩
  | 116 => ⟨S_, .f32⟩
  | 117 => ⟨S128x128, .f32⟩
  | 118 => ⟨S128x128, .f32⟩
  | 119 => ⟨S_, .f32⟩
  | 120 => ⟨S_, .f32⟩
  | 121 => ⟨S_, .f32⟩
  | 122 => ⟨S_, .f32⟩
  | 123 => ⟨S_, .f32⟩
  | 124 => ⟨S128x128, .f32⟩
  | 125 => ⟨S128x128, .i32⟩
  | 126 => ⟨S128x128, .i32⟩
  | 127 => ⟨S_, .i32⟩
  | _ => ⟨S1000000x128, .f32⟩

abbrev hbmTy0_1 (i : Nat) : BufTy := match i % 128 with
  | 0 => ⟨S128x128, .i32⟩
  | 1 => ⟨S128x128, .i32⟩
  | 2 => ⟨S128x128, .i1⟩
  | 3 => ⟨S_, .f32⟩
  | 4 => ⟨S128x128, .f32⟩
  | 5 => ⟨S128x128, .f32⟩
  | 6 => ⟨S_, .f32⟩
  | 7 => ⟨S_, .f32⟩
  | 8 => ⟨S_, .f32⟩
  | 9 => ⟨S_, .f32⟩
  | 10 => ⟨S_, .f32⟩
  | 11 => ⟨S128x128, .f32⟩
  | 12 => ⟨S128x128, .i32⟩
  | 13 => ⟨S128x128, .i32⟩
  | 14 => ⟨S_, .i32⟩
  | 15 => ⟨S128x128, .i32⟩
  | 16 => ⟨S128x128, .i32⟩
  | 17 => ⟨S128x128, .i1⟩
  | 18 => ⟨S_, .f32⟩
  | 19 => ⟨S128x128, .f32⟩
  | 20 => ⟨S128x128, .f32⟩
  | 21 => ⟨S_, .f32⟩
  | 22 => ⟨S_, .f32⟩
  | 23 => ⟨S_, .f32⟩
  | 24 => ⟨S_, .f32⟩
  | 25 => ⟨S_, .f32⟩
  | 26 => ⟨S128x128, .f32⟩
  | 27 => ⟨S128x128, .i32⟩
  | 28 => ⟨S128x128, .i32⟩
  | 29 => ⟨S_, .i32⟩
  | 30 => ⟨S128x128, .i32⟩
  | 31 => ⟨S128x128, .i32⟩
  | 32 => ⟨S128x128, .i1⟩
  | 33 => ⟨S_, .f32⟩
  | 34 => ⟨S128x128, .f32⟩
  | 35 => ⟨S128x128, .f32⟩
  | 36 => ⟨S_, .f32⟩
  | 37 => ⟨S_, .f32⟩
  | 38 => ⟨S_, .f32⟩
  | 39 => ⟨S_, .f32⟩
  | 40 => ⟨S_, .f32⟩
  | 41 => ⟨S128x128, .f32⟩
  | 42 => ⟨S128x128, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | _ => ⟨S1000000x128, .f32⟩

abbrev hbmTy (i : Nat) : BufTy := match i / 128 with
  | 0 => hbmTy0_0 i
  | 1 => hbmTy0_1 i
  | _ => ⟨S1000000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .bf16⟩
  | .local _ .vmem, ⟨3, _⟩ => ⟨S128x128, .bf16⟩
  | .local _ .vmem, ⟨4, _⟩ => ⟨S1x1x1, .f32⟩
  | .local _ .vmem, ⟨5, _⟩ => ⟨S1x1x1, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_call0_v0 : Ref sig .tc := ⟨.hbm, 34, rfl⟩
abbrev main_call0_v1 : Ref sig .tc := ⟨.hbm, 35, rfl⟩
abbrev main_call0_c : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_cst : Ref sig .tc := ⟨.hbm, 40, rfl⟩
abbrev main_call0_v5 : Ref sig .tc := ⟨.hbm, 41, rfl⟩
abbrev main_call0_v6 : Ref sig .tc := ⟨.hbm, 42, rfl⟩
abbrev main_call0_cst_0 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_call1_v0 : Ref sig .tc := ⟨.hbm, 50, rfl⟩
abbrev main_call1_v1 : Ref sig .tc := ⟨.hbm, 51, rfl⟩
abbrev main_call1_c : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_cst : Ref sig .tc := ⟨.hbm, 56, rfl⟩
abbrev main_call1_v5 : Ref sig .tc := ⟨.hbm, 57, rfl⟩
abbrev main_call1_v6 : Ref sig .tc := ⟨.hbm, 58, rfl⟩
abbrev main_call1_cst_0 : Ref sig .tc := ⟨.hbm, 59, rfl⟩
abbrev main_v30 : Ref sig .tc := ⟨.hbm, 60, rfl⟩
abbrev main_cst_6 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_call2_v0 : Ref sig .tc := ⟨.hbm, 65, rfl⟩
abbrev main_call2_v1 : Ref sig .tc := ⟨.hbm, 66, rfl⟩
abbrev main_call2_c : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_cst : Ref sig .tc := ⟨.hbm, 71, rfl⟩
abbrev main_call2_v5 : Ref sig .tc := ⟨.hbm, 72, rfl⟩
abbrev main_call2_v6 : Ref sig .tc := ⟨.hbm, 73, rfl⟩
abbrev main_call2_cst_0 : Ref sig .tc := ⟨.hbm, 74, rfl⟩
abbrev main_v34 : Ref sig .tc := ⟨.hbm, 75, rfl⟩
abbrev main_cst_7 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_call3_v0 : Ref sig .tc := ⟨.hbm, 80, rfl⟩
abbrev main_call3_v1 : Ref sig .tc := ⟨.hbm, 81, rfl⟩
abbrev main_call3_c : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_cst : Ref sig .tc := ⟨.hbm, 86, rfl⟩
abbrev main_call3_v5 : Ref sig .tc := ⟨.hbm, 87, rfl⟩
abbrev main_call3_v6 : Ref sig .tc := ⟨.hbm, 88, rfl⟩
abbrev main_call3_cst_0 : Ref sig .tc := ⟨.hbm, 89, rfl⟩
abbrev main_v38 : Ref sig .tc := ⟨.hbm, 90, rfl⟩
abbrev main_cst_8 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_call4_v0 : Ref sig .tc := ⟨.hbm, 95, rfl⟩
abbrev main_call4_v1 : Ref sig .tc := ⟨.hbm, 96, rfl⟩
abbrev main_call4_c : Ref sig .tc := ⟨.hbm, 97, rfl⟩
abbrev main_call4_v2 : Ref sig .tc := ⟨.hbm, 98, rfl⟩
abbrev main_call4_v3 : Ref sig .tc := ⟨.hbm, 99, rfl⟩
abbrev main_call4_v4 : Ref sig .tc := ⟨.hbm, 100, rfl⟩
abbrev main_call4_cst : Ref sig .tc := ⟨.hbm, 101, rfl⟩
abbrev main_call4_v5 : Ref sig .tc := ⟨.hbm, 102, rfl⟩
abbrev main_call4_v6 : Ref sig .tc := ⟨.hbm, 103, rfl⟩
abbrev main_call4_cst_0 : Ref sig .tc := ⟨.hbm, 104, rfl⟩
abbrev main_v42 : Ref sig .tc := ⟨.hbm, 105, rfl⟩
abbrev main_cst_9 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_call5_v0 : Ref sig .tc := ⟨.hbm, 110, rfl⟩
abbrev main_call5_v1 : Ref sig .tc := ⟨.hbm, 111, rfl⟩
abbrev main_call5_c : Ref sig .tc := ⟨.hbm, 112, rfl⟩
abbrev main_call5_v2 : Ref sig .tc := ⟨.hbm, 113, rfl⟩
abbrev main_call5_v3 : Ref sig .tc := ⟨.hbm, 114, rfl⟩
abbrev main_call5_v4 : Ref sig .tc := ⟨.hbm, 115, rfl⟩
abbrev main_call5_cst : Ref sig .tc := ⟨.hbm, 116, rfl⟩
abbrev main_call5_v5 : Ref sig .tc := ⟨.hbm, 117, rfl⟩
abbrev main_call5_v6 : Ref sig .tc := ⟨.hbm, 118, rfl⟩
abbrev main_call5_cst_0 : Ref sig .tc := ⟨.hbm, 119, rfl⟩
abbrev main_v46 : Ref sig .tc := ⟨.hbm, 120, rfl⟩
abbrev main_cst_10 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_call6_v0 : Ref sig .tc := ⟨.hbm, 125, rfl⟩
abbrev main_call6_v1 : Ref sig .tc := ⟨.hbm, 126, rfl⟩
abbrev main_call6_c : Ref sig .tc := ⟨.hbm, 127, rfl⟩
abbrev main_call6_v2 : Ref sig .tc := ⟨.hbm, 128, rfl⟩
abbrev main_call6_v3 : Ref sig .tc := ⟨.hbm, 129, rfl⟩
abbrev main_call6_v4 : Ref sig .tc := ⟨.hbm, 130, rfl⟩
abbrev main_call6_cst : Ref sig .tc := ⟨.hbm, 131, rfl⟩
abbrev main_call6_v5 : Ref sig .tc := ⟨.hbm, 132, rfl⟩
abbrev main_call6_v6 : Ref sig .tc := ⟨.hbm, 133, rfl⟩
abbrev main_call6_cst_0 : Ref sig .tc := ⟨.hbm, 134, rfl⟩
abbrev main_v50 : Ref sig .tc := ⟨.hbm, 135, rfl⟩
abbrev main_cst_11 : Ref sig .tc := ⟨.hbm, 136, rfl⟩
abbrev main_v51 : Ref sig .tc := ⟨.hbm, 137, rfl⟩
abbrev main_v52 : Ref sig .tc := ⟨.hbm, 138, rfl⟩
abbrev main_v53 : Ref sig .tc := ⟨.hbm, 139, rfl⟩
abbrev main_call7_v0 : Ref sig .tc := ⟨.hbm, 140, rfl⟩
abbrev main_call7_v1 : Ref sig .tc := ⟨.hbm, 141, rfl⟩
abbrev main_call7_c : Ref sig .tc := ⟨.hbm, 142, rfl⟩
abbrev main_call7_v2 : Ref sig .tc := ⟨.hbm, 143, rfl⟩
abbrev main_call7_v3 : Ref sig .tc := ⟨.hbm, 144, rfl⟩
abbrev main_call7_v4 : Ref sig .tc := ⟨.hbm, 145, rfl⟩
abbrev main_call7_cst : Ref sig .tc := ⟨.hbm, 146, rfl⟩
abbrev main_call7_v5 : Ref sig .tc := ⟨.hbm, 147, rfl⟩
abbrev main_call7_v6 : Ref sig .tc := ⟨.hbm, 148, rfl⟩
abbrev main_call7_cst_0 : Ref sig .tc := ⟨.hbm, 149, rfl⟩
abbrev main_v54 : Ref sig .tc := ⟨.hbm, 150, rfl⟩
abbrev main_cst_12 : Ref sig .tc := ⟨.hbm, 151, rfl⟩
abbrev main_v55 : Ref sig .tc := ⟨.hbm, 152, rfl⟩
abbrev main_v56 : Ref sig .tc := ⟨.hbm, 153, rfl⟩
abbrev main_v57 : Ref sig .tc := ⟨.hbm, 154, rfl⟩
abbrev main_call8_v0 : Ref sig .tc := ⟨.hbm, 155, rfl⟩
abbrev main_call8_v1 : Ref sig .tc := ⟨.hbm, 156, rfl⟩
abbrev main_call8_c : Ref sig .tc := ⟨.hbm, 157, rfl⟩
abbrev main_call8_v2 : Ref sig .tc := ⟨.hbm, 158, rfl⟩
abbrev main_call8_v3 : Ref sig .tc := ⟨.hbm, 159, rfl⟩
abbrev main_call8_v4 : Ref sig .tc := ⟨.hbm, 160, rfl⟩
abbrev main_call8_cst : Ref sig .tc := ⟨.hbm, 161, rfl⟩
abbrev main_call8_v5 : Ref sig .tc := ⟨.hbm, 162, rfl⟩
abbrev main_call8_v6 : Ref sig .tc := ⟨.hbm, 163, rfl⟩
abbrev main_call8_cst_0 : Ref sig .tc := ⟨.hbm, 164, rfl⟩
abbrev main_v58 : Ref sig .tc := ⟨.hbm, 165, rfl⟩
abbrev main_cst_13 : Ref sig .tc := ⟨.hbm, 166, rfl⟩
abbrev main_v59 : Ref sig .tc := ⟨.hbm, 167, rfl⟩
abbrev main_v60 : Ref sig .tc := ⟨.hbm, 168, rfl⟩
abbrev main_v61 : Ref sig .tc := ⟨.hbm, 169, rfl⟩
abbrev main_v62 : Ref sig .tc := ⟨.hbm, 170, rfl⟩
abbrev main_cst_14 : Ref sig .tc := ⟨.hbm, 171, rfl⟩
abbrev main_v63 : Ref sig .tc := ⟨.hbm, 172, rfl⟩
abbrev main_cst_15 : Ref sig .tc := ⟨.hbm, 173, rfl⟩
abbrev main_v64 : Ref sig .tc := ⟨.hbm, 174, rfl⟩
abbrev main_cst_16 : Ref sig .tc := ⟨.hbm, 175, rfl⟩
abbrev main_v65 : Ref sig .tc := ⟨.hbm, 176, rfl⟩
abbrev main_cst_17 : Ref sig .tc := ⟨.hbm, 177, rfl⟩
abbrev main_v66 : Ref sig .tc := ⟨.hbm, 178, rfl⟩
abbrev main_v67 : Ref sig .tc := ⟨.hbm, 179, rfl⟩
abbrev main_v68 : Ref sig .tc := ⟨.hbm, 180, rfl⟩
abbrev main_v69 : Ref sig .tc := ⟨.hbm, 181, rfl⟩
abbrev main_v70 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 50], ![false, false]⟩

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S128x128 : S_.BroadcastsInDim S128x128 (![] : Fin 0 → Fin S128x128.rank)
  transposes_S128x128_S128x128_1_0 : S128x128.Transposes [1, 0] S128x128
  bitsLt_bf16_f32 : FTy.bits .bf16 < FTy.bits .f32
  inb_S1x1x1_S1x1x1_0_0_0 : ∀ a, (![0, 0, 0] : Fin 3 → Nat) a + S1x1x1.size a ≤ S1x1x1.size a
  h_S1x1x1 : 0 < S1x1x1.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x1x1_S1x1x1 : S1x1x1.ShapeCasts S1x1x1
  shapeCasts_S10000x128_S1x10000x128 : S10000x128.ShapeCasts S1x10000x128
  reduces_S1x10000x128_S1 : S1x10000x128.Reduces [1, 2] S1
  shapeCasts_S1_S1x1x1 : S1.ShapeCasts S1x1x1
  inpos_S1x1x1_p0_0_0 : ∀ a, (![0, 0, 0] : Fin 3 → Nat) a < S1x1x1.size a
  reducesTo_S2x1x1_S_d0_1_2 : S2x1x1.ReducesTo [0, 1, 2] S_
  h_S_ : 0 < S_.numel
  reducesTo_S128x128_S_d0_1 : S128x128.ReducesTo [0, 1] S_
  dot_S10000x128_S128x128_S10000x128_1_0_0_1_n_n_wf : DotDims.WF S10000x128 S128x128 S10000x128 [1] [0] [0] [1] [] []
  dot_S128x128_S128x128_S128x128_1_0_0_1_n_n_wf : DotDims.WF S128x128 S128x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S1000000x128.size a
  hwx0_0 : ∀ i : grid0.Coords, EltTy.bits .f32 = 32 ∨ (Rect.block (s := S1000000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1000000x128 : Shape := ⟨2, ![1000000, 128]⟩
abbrev S128x128 : Shape := ⟨2, ![128, 128]⟩
abbrev S_ : Shape := ⟨0, ![]⟩

abbrev nBuf : Space → Nat
  | .hbm => 173
  | .vmem => 0
  | .smem => 0
  | _ => 0

abbrev hbmTy0_0 (i : Nat) : BufTy := match i % 128 with
  | 0 => ⟨S1000000x128, .f32⟩
  | 1 => ⟨S128x128, .f32⟩
  | 2 => ⟨S128x128, .i32⟩
  | 3 => ⟨S128x128, .i32⟩
  | 4 => ⟨S_, .i32⟩
  | 5 => ⟨S128x128, .i32⟩
  | 6 => ⟨S128x128, .i32⟩
  | 7 => ⟨S128x128, .i1⟩
  | 8 => ⟨S128x128, .f32⟩
  | 9 => ⟨S_, .f32⟩
  | 10 => ⟨S128x128, .f32⟩
  | 11 => ⟨S128x128, .f32⟩
  | 12 => ⟨S128x128, .f32⟩
  | 13 => ⟨S128x128, .f32⟩
  | 14 => ⟨S1000000x128, .f32⟩
  | 15 => ⟨S1000000x128, .f32⟩
  | 16 => ⟨S1000000x128, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S128x128, .f32⟩
  | 24 => ⟨S128x128, .i32⟩
  | 25 => ⟨S128x128, .i32⟩
  | 26 => ⟨S_, .i32⟩
  | 27 => ⟨S128x128, .i32⟩
  | 28 => ⟨S128x128, .i32⟩
  | 29 => ⟨S128x128, .i1⟩
  | 30 => ⟨S_, .f32⟩
  | 31 => ⟨S128x128, .f32⟩
  | 32 => ⟨S128x128, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S128x128, .f32⟩
  | 40 => ⟨S128x128, .i32⟩
  | 41 => ⟨S128x128, .i32⟩
  | 42 => ⟨S_, .i32⟩
  | 43 => ⟨S128x128, .i32⟩
  | 44 => ⟨S128x128, .i32⟩
  | 45 => ⟨S128x128, .i1⟩
  | 46 => ⟨S_, .f32⟩
  | 47 => ⟨S128x128, .f32⟩
  | 48 => ⟨S128x128, .f32⟩
  | 49 => ⟨S_, .f32⟩
  | 50 => ⟨S_, .f32⟩
  | 51 => ⟨S_, .f32⟩
  | 52 => ⟨S_, .f32⟩
  | 53 => ⟨S_, .f32⟩
  | 54 => ⟨S128x128, .f32⟩
  | 55 => ⟨S128x128, .i32⟩
  | 56 => ⟨S128x128, .i32⟩
  | 57 => ⟨S_, .i32⟩
  | 58 => ⟨S128x128, .i32⟩
  | 59 => ⟨S128x128, .i32⟩
  | 60 => ⟨S128x128, .i1⟩
  | 61 => ⟨S_, .f32⟩
  | 62 => ⟨S128x128, .f32⟩
  | 63 => ⟨S128x128, .f32⟩
  | 64 => ⟨S_, .f32⟩
  | 65 => ⟨S_, .f32⟩
  | 66 => ⟨S_, .f32⟩
  | 67 => ⟨S_, .f32⟩
  | 68 => ⟨S_, .f32⟩
  | 69 => ⟨S128x128, .f32⟩
  | 70 => ⟨S128x128, .i32⟩
  | 71 => ⟨S128x128, .i32⟩
  | 72 => ⟨S_, .i32⟩
  | 73 => ⟨S128x128, .i32⟩
  | 74 => ⟨S128x128, .i32⟩
  | 75 => ⟨S128x128, .i1⟩
  | 76 => ⟨S_, .f32⟩
  | 77 => ⟨S128x128, .f32⟩
  | 78 => ⟨S128x128, .f32⟩
  | 79 => ⟨S_, .f32⟩
  | 80 => ⟨S_, .f32⟩
  | 81 => ⟨S_, .f32⟩
  | 82 => ⟨S_, .f32⟩
  | 83 => ⟨S_, .f32⟩
  | 84 => ⟨S128x128, .f32⟩
  | 85 => ⟨S128x128, .i32⟩
  | 86 => ⟨S128x128, .i32⟩
  | 87 => ⟨S_, .i32⟩
  | 88 => ⟨S128x128, .i32⟩
  | 89 => ⟨S128x128, .i32⟩
  | 90 => ⟨S128x128, .i1⟩
  | 91 => ⟨S_, .f32⟩
  | 92 => ⟨S128x128, .f32⟩
  | 93 => ⟨S128x128, .f32⟩
  | 94 => ⟨S_, .f32⟩
  | 95 => ⟨S_, .f32⟩
  | 96 => ⟨S_, .f32⟩
  | 97 => ⟨S_, .f32⟩
  | 98 => ⟨S_, .f32⟩
  | 99 => ⟨S128x128, .f32⟩
  | 100 => ⟨S128x128, .i32⟩
  | 101 => ⟨S128x128, .i32⟩
  | 102 => ⟨S_, .i32⟩
  | 103 => ⟨S128x128, .i32⟩
  | 104 => ⟨S128x128, .i32⟩
  | 105 => ⟨S128x128, .i1⟩
  | 106 => ⟨S_, .f32⟩
  | 107 => ⟨S128x128, .f32⟩
  | 108 => ⟨S128x128, .f32⟩
  | 109 => ⟨S_, .f32⟩
  | 110 => ⟨S_, .f32⟩
  | 111 => ⟨S_, .f32⟩
  | 112 => ⟨S_, .f32⟩
  | 113 => ⟨S_, .f32⟩
  | 114 => ⟨S128x128, .f32⟩
  | 115 => ⟨S128x128, .i32⟩
  | 116 => ⟨S128x128, .i32⟩
  | 117 => ⟨S_, .i32⟩
  | 118 => ⟨S128x128, .i32⟩
  | 119 => ⟨S128x128, .i32⟩
  | 120 => ⟨S128x128, .i1⟩
  | 121 => ⟨S_, .f32⟩
  | 122 => ⟨S128x128, .f32⟩
  | 123 => ⟨S128x128, .f32⟩
  | 124 => ⟨S_, .f32⟩
  | 125 => ⟨S_, .f32⟩
  | 126 => ⟨S_, .f32⟩
  | 127 => ⟨S_, .f32⟩
  | _ => ⟨S1000000x128, .f32⟩

abbrev hbmTy0_1 (i : Nat) : BufTy := match i % 128 with
  | 0 => ⟨S_, .f32⟩
  | 1 => ⟨S128x128, .f32⟩
  | 2 => ⟨S128x128, .i32⟩
  | 3 => ⟨S128x128, .i32⟩
  | 4 => ⟨S_, .i32⟩
  | 5 => ⟨S128x128, .i32⟩
  | 6 => ⟨S128x128, .i32⟩
  | 7 => ⟨S128x128, .i1⟩
  | 8 => ⟨S_, .f32⟩
  | 9 => ⟨S128x128, .f32⟩
  | 10 => ⟨S128x128, .f32⟩
  | 11 => ⟨S_, .f32⟩
  | 12 => ⟨S_, .f32⟩
  | 13 => ⟨S_, .f32⟩
  | 14 => ⟨S_, .f32⟩
  | 15 => ⟨S_, .f32⟩
  | 16 => ⟨S128x128, .f32⟩
  | 17 => ⟨S128x128, .i32⟩
  | 18 => ⟨S128x128, .i32⟩
  | 19 => ⟨S_, .i32⟩
  | 20 => ⟨S128x128, .i32⟩
  | 21 => ⟨S128x128, .i32⟩
  | 22 => ⟨S128x128, .i1⟩
  | 23 => ⟨S_, .f32⟩
  | 24 => ⟨S128x128, .f32⟩
  | 25 => ⟨S128x128, .f32⟩
  | 26 => ⟨S_, .f32⟩
  | 27 => ⟨S_, .f32⟩
  | 28 => ⟨S_, .f32⟩
  | 29 => ⟨S_, .f32⟩
  | 30 => ⟨S_, .f32⟩
  | 31 => ⟨S128x128, .f32⟩
  | 32 => ⟨S128x128, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | _ => ⟨S1000000x128, .f32⟩

abbrev hbmTy (i : Nat) : BufTy := match i / 128 with
  | 0 => hbmTy0_0 i
  | 1 => hbmTy0_1 i
  | _ => ⟨S1000000x128, .f32⟩

abbrev bufTy : (tb : Table) → Fin (tcTables nBuf tb) → BufTy
  | .hbm, ⟨i, _⟩ => hbmTy i
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_c : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_cst : Ref sig .tc := ⟨.hbm, 30, rfl⟩
abbrev main_call0_v5 : Ref sig .tc := ⟨.hbm, 31, rfl⟩
abbrev main_call0_v6 : Ref sig .tc := ⟨.hbm, 32, rfl⟩
abbrev main_call0_cst_0 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_call1_v0 : Ref sig .tc := ⟨.hbm, 40, rfl⟩
abbrev main_call1_v1 : Ref sig .tc := ⟨.hbm, 41, rfl⟩
abbrev main_call1_c : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_cst : Ref sig .tc := ⟨.hbm, 46, rfl⟩
abbrev main_call1_v5 : Ref sig .tc := ⟨.hbm, 47, rfl⟩
abbrev main_call1_v6 : Ref sig .tc := ⟨.hbm, 48, rfl⟩
abbrev main_call1_cst_0 : Ref sig .tc := ⟨.hbm, 49, rfl⟩
abbrev main_v21 : Ref sig .tc := ⟨.hbm, 50, rfl⟩
abbrev main_cst_5 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_call2_v0 : Ref sig .tc := ⟨.hbm, 55, rfl⟩
abbrev main_call2_v1 : Ref sig .tc := ⟨.hbm, 56, rfl⟩
abbrev main_call2_c : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_cst : Ref sig .tc := ⟨.hbm, 61, rfl⟩
abbrev main_call2_v5 : Ref sig .tc := ⟨.hbm, 62, rfl⟩
abbrev main_call2_v6 : Ref sig .tc := ⟨.hbm, 63, rfl⟩
abbrev main_call2_cst_0 : Ref sig .tc := ⟨.hbm, 64, rfl⟩
abbrev main_v25 : Ref sig .tc := ⟨.hbm, 65, rfl⟩
abbrev main_cst_6 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_call3_v0 : Ref sig .tc := ⟨.hbm, 70, rfl⟩
abbrev main_call3_v1 : Ref sig .tc := ⟨.hbm, 71, rfl⟩
abbrev main_call3_c : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_call3_cst : Ref sig .tc := ⟨.hbm, 76, rfl⟩
abbrev main_call3_v5 : Ref sig .tc := ⟨.hbm, 77, rfl⟩
abbrev main_call3_v6 : Ref sig .tc := ⟨.hbm, 78, rfl⟩
abbrev main_call3_cst_0 : Ref sig .tc := ⟨.hbm, 79, rfl⟩
abbrev main_v29 : Ref sig .tc := ⟨.hbm, 80, rfl⟩
abbrev main_cst_7 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_call4_v0 : Ref sig .tc := ⟨.hbm, 85, rfl⟩
abbrev main_call4_v1 : Ref sig .tc := ⟨.hbm, 86, rfl⟩
abbrev main_call4_c : Ref sig .tc := ⟨.hbm, 87, rfl⟩
abbrev main_call4_v2 : Ref sig .tc := ⟨.hbm, 88, rfl⟩
abbrev main_call4_v3 : Ref sig .tc := ⟨.hbm, 89, rfl⟩
abbrev main_call4_v4 : Ref sig .tc := ⟨.hbm, 90, rfl⟩
abbrev main_call4_cst : Ref sig .tc := ⟨.hbm, 91, rfl⟩
abbrev main_call4_v5 : Ref sig .tc := ⟨.hbm, 92, rfl⟩
abbrev main_call4_v6 : Ref sig .tc := ⟨.hbm, 93, rfl⟩
abbrev main_call4_cst_0 : Ref sig .tc := ⟨.hbm, 94, rfl⟩
abbrev main_v33 : Ref sig .tc := ⟨.hbm, 95, rfl⟩
abbrev main_cst_8 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_call5_v0 : Ref sig .tc := ⟨.hbm, 100, rfl⟩
abbrev main_call5_v1 : Ref sig .tc := ⟨.hbm, 101, rfl⟩
abbrev main_call5_c : Ref sig .tc := ⟨.hbm, 102, rfl⟩
abbrev main_call5_v2 : Ref sig .tc := ⟨.hbm, 103, rfl⟩
abbrev main_call5_v3 : Ref sig .tc := ⟨.hbm, 104, rfl⟩
abbrev main_call5_v4 : Ref sig .tc := ⟨.hbm, 105, rfl⟩
abbrev main_call5_cst : Ref sig .tc := ⟨.hbm, 106, rfl⟩
abbrev main_call5_v5 : Ref sig .tc := ⟨.hbm, 107, rfl⟩
abbrev main_call5_v6 : Ref sig .tc := ⟨.hbm, 108, rfl⟩
abbrev main_call5_cst_0 : Ref sig .tc := ⟨.hbm, 109, rfl⟩
abbrev main_v37 : Ref sig .tc := ⟨.hbm, 110, rfl⟩
abbrev main_cst_9 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_call6_v0 : Ref sig .tc := ⟨.hbm, 115, rfl⟩
abbrev main_call6_v1 : Ref sig .tc := ⟨.hbm, 116, rfl⟩
abbrev main_call6_c : Ref sig .tc := ⟨.hbm, 117, rfl⟩
abbrev main_call6_v2 : Ref sig .tc := ⟨.hbm, 118, rfl⟩
abbrev main_call6_v3 : Ref sig .tc := ⟨.hbm, 119, rfl⟩
abbrev main_call6_v4 : Ref sig .tc := ⟨.hbm, 120, rfl⟩
abbrev main_call6_cst : Ref sig .tc := ⟨.hbm, 121, rfl⟩
abbrev main_call6_v5 : Ref sig .tc := ⟨.hbm, 122, rfl⟩
abbrev main_call6_v6 : Ref sig .tc := ⟨.hbm, 123, rfl⟩
abbrev main_call6_cst_0 : Ref sig .tc := ⟨.hbm, 124, rfl⟩
abbrev main_v41 : Ref sig .tc := ⟨.hbm, 125, rfl⟩
abbrev main_cst_10 : Ref sig .tc := ⟨.hbm, 126, rfl⟩
abbrev main_v42 : Ref sig .tc := ⟨.hbm, 127, rfl⟩
abbrev main_v43 : Ref sig .tc := ⟨.hbm, 128, rfl⟩
abbrev main_v44 : Ref sig .tc := ⟨.hbm, 129, rfl⟩
abbrev main_call7_v0 : Ref sig .tc := ⟨.hbm, 130, rfl⟩
abbrev main_call7_v1 : Ref sig .tc := ⟨.hbm, 131, rfl⟩
abbrev main_call7_c : Ref sig .tc := ⟨.hbm, 132, rfl⟩
abbrev main_call7_v2 : Ref sig .tc := ⟨.hbm, 133, rfl⟩
abbrev main_call7_v3 : Ref sig .tc := ⟨.hbm, 134, rfl⟩
abbrev main_call7_v4 : Ref sig .tc := ⟨.hbm, 135, rfl⟩
abbrev main_call7_cst : Ref sig .tc := ⟨.hbm, 136, rfl⟩
abbrev main_call7_v5 : Ref sig .tc := ⟨.hbm, 137, rfl⟩
abbrev main_call7_v6 : Ref sig .tc := ⟨.hbm, 138, rfl⟩
abbrev main_call7_cst_0 : Ref sig .tc := ⟨.hbm, 139, rfl⟩
abbrev main_v45 : Ref sig .tc := ⟨.hbm, 140, rfl⟩
abbrev main_cst_11 : Ref sig .tc := ⟨.hbm, 141, rfl⟩
abbrev main_v46 : Ref sig .tc := ⟨.hbm, 142, rfl⟩
abbrev main_v47 : Ref sig .tc := ⟨.hbm, 143, rfl⟩
abbrev main_v48 : Ref sig .tc := ⟨.hbm, 144, rfl⟩
abbrev main_call8_v0 : Ref sig .tc := ⟨.hbm, 145, rfl⟩
abbrev main_call8_v1 : Ref sig .tc := ⟨.hbm, 146, rfl⟩
abbrev main_call8_c : Ref sig .tc := ⟨.hbm, 147, rfl⟩
abbrev main_call8_v2 : Ref sig .tc := ⟨.hbm, 148, rfl⟩
abbrev main_call8_v3 : Ref sig .tc := ⟨.hbm, 149, rfl⟩
abbrev main_call8_v4 : Ref sig .tc := ⟨.hbm, 150, rfl⟩
abbrev main_call8_cst : Ref sig .tc := ⟨.hbm, 151, rfl⟩
abbrev main_call8_v5 : Ref sig .tc := ⟨.hbm, 152, rfl⟩
abbrev main_call8_v6 : Ref sig .tc := ⟨.hbm, 153, rfl⟩
abbrev main_call8_cst_0 : Ref sig .tc := ⟨.hbm, 154, rfl⟩
abbrev main_v49 : Ref sig .tc := ⟨.hbm, 155, rfl⟩
abbrev main_cst_12 : Ref sig .tc := ⟨.hbm, 156, rfl⟩
abbrev main_v50 : Ref sig .tc := ⟨.hbm, 157, rfl⟩
abbrev main_v51 : Ref sig .tc := ⟨.hbm, 158, rfl⟩
abbrev main_v52 : Ref sig .tc := ⟨.hbm, 159, rfl⟩
abbrev main_v53 : Ref sig .tc := ⟨.hbm, 160, rfl⟩
abbrev main_cst_13 : Ref sig .tc := ⟨.hbm, 161, rfl⟩
abbrev main_v54 : Ref sig .tc := ⟨.hbm, 162, rfl⟩
abbrev main_cst_14 : Ref sig .tc := ⟨.hbm, 163, rfl⟩
abbrev main_v55 : Ref sig .tc := ⟨.hbm, 164, rfl⟩
abbrev main_cst_15 : Ref sig .tc := ⟨.hbm, 165, rfl⟩
abbrev main_v56 : Ref sig .tc := ⟨.hbm, 166, rfl⟩
abbrev main_cst_16 : Ref sig .tc := ⟨.hbm, 167, rfl⟩
abbrev main_v57 : Ref sig .tc := ⟨.hbm, 168, rfl⟩
abbrev main_v58 : Ref sig .tc := ⟨.hbm, 169, rfl⟩
abbrev main_v59 : Ref sig .tc := ⟨.hbm, 170, rfl⟩
abbrev main_v60 : Ref sig .tc := ⟨.hbm, 171, rfl⟩
abbrev main_v61 : Ref sig .tc := ⟨.hbm, 172, rfl⟩

abbrev nD : Nat := 1
abbrev τ : Topo := Topo.v7x

variable {F : FTy → Type} [FloatOps F]

class Facts₀ : Prop where
  bcast_S_S128x128 : S_.BroadcastsInDim S128x128 (![] : Fin 0 → Fin S128x128.rank)
  transposes_S128x128_S128x128_1_0 : S128x128.Transposes [1, 0] S128x128
  reducesTo_S1000000x128_S_d0_1 : S1000000x128.ReducesTo [0, 1] S_
  h_S_ : 0 < S_.numel
  reducesTo_S128x128_S_d0_1 : S128x128.ReducesTo [0, 1] S_
  dot_S1000000x128_S128x128_S1000000x128_1_0_0_1_n_n_wf : DotDims.WF S1000000x128 S128x128 S1000000x128 [1] [0] [0] [1] [] []
  dot_S128x128_S128x128_S128x128_1_0_0_1_n_n_wf : DotDims.WF S128x128 S128x128 S128x128 [1] [0] [0] [1] [] []

variable [Facts₀]

def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

class Facts : Prop extends Facts₀ where

variable [Facts]
-- ==== Proof.K.Entry.lean ====
/-
  The host program around the one kernel launch.  Before the launch twenty-four host operations build the masked
  weight matrix Wm = W ∘ (1 − I), the matrix A = I − Wmᵀ and its two bf16 parts; after it nineteen stretches of host
  operations sum the two per-core partial sums, scale them, and add the acyclicity penalty and the L1 term, all of
  which read only Wm.  This module names the buffer contents when the launch is entered, records that the later
  stretches allocate nothing, touch only unscoped TensorCore buffers and never write one of the launch's four
  arrays, and reduces the whole program to "the launch, continued by the later stretches".
-/
import proofs.«177308_j21492016349912_2_alg».proof.Proof.Gen.Kernel.Launch
import proofs.«177308_j21492016349912_2_alg».proof.Proof.Gen.Kernel.Skeleton
import proofs.«177308_j21492016349912_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Contents at the launch's entry, and the stretches after it -/

/-- The stretches of host operations after the launch, in program order. -/
abbrev tailOps : List (List (HloOp τ sig (Elt F))) := [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18]

/-- Core `c`'s buffer contents when the launch is entered: the launch memory after the operations before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem head_fresh : (hostOps0 : List (HloOp τ sig (Elt F))).Forall fun op => op.fresh = ∅ := by
  simp only [List.Forall]; repeat' constructor

theorem fresh_0 : (hostOps1 : List (HloOp τ sig (Elt F))).Forall fun op => op.fresh = ∅ := by
  simp only [List.Forall]; repeat' constructor
/-- No operation of this stretch writes one of the launch's arrays (X, the two bf16 parts of A, the partial sums). -/
theorem keeps_0 : (hostOps1 : List (HloOp τ sig (Elt F))).Forall fun op => ∀ w : Fin 4, Proc.devRef .tc (Pipeline.arrRef spec0 w) ∉ op.writes := by
  simp only [hostOps1, List.Forall, StableHlo.nullary_writes, StableHlo.unary_writes, StableHlo.binary_writes, StableHlo.ternary_writes, StableHlo.quaternary_writes, Finset.mem_singleton]
  repeat' apply And.intro
  all_goals (intro w; fin_cases w <;> exact StableHlo.devRef_ne_of_ne (by decide))
theorem fresh_1 : (hostOps1_1 : List (HloOp τ sig (Elt F))).Forall fun op => op.fresh = ∅ := by
  simp only [List.Forall]; repeat' constructor
/-- No operation of this stretch writes one of the launch's arrays (X, the two bf16 parts of A, the partial sums). -/
theorem keeps_1 : (hostOps1_1 : List (HloOp τ sig (Elt F))).Forall fun op => ∀ w : Fin 4, Proc.devRef .tc (Pipeline.arrRef spec0 w) ∉ op.writes := by
  simp only [hostOps1_1, List.Forall, StableHlo.nullary_writes, StableHlo.unary_writes, StableHlo.binary_writes, StableHlo.ternary_writes, StableHlo.quaternary_writes, Finset.mem_singleton]
  repeat' apply And.intro
  all_goals (intro w; fin_cases w <;> exact StableHlo.devRef_ne_of_ne (by decide))
theorem fresh_2 : (hostOps1_2 : List (HloOp τ sig (Elt F))).Forall fun op => op.fresh = ∅ := by
  simp only [List.Forall]; repeat' constructor
/-- No operation of this stretch writes one of the launch's arrays (X, the two bf16 parts of A, the partial sums). -/
theorem keeps_2 : (hostOps1_2 : List (HloOp τ sig (Elt F))).Forall fun op => ∀ w : Fin 4, Proc.devRef .tc (Pipeline.arrRef spec0 w) ∉ op.writes := by
  simp only [hostOps1_2, List.Forall, StableHlo.nullary_writes, StableHlo.unary_writes, StableHlo.binary_writes, StableHlo.ternary_writes, StableHlo.quaternary_writes, Finset.mem_singleton]
  repeat' apply And.intro
  all_goals (intro w; fin_cases w <;> exact StableHlo.devRef_ne_of_ne (by decide))
theorem fresh_3 : (hostOps1_3 : List (HloOp τ sig (Elt F))).Forall fun op => op.fresh = ∅ := by
  simp only [List.Forall]; repeat' constructor
/-- No operation of this stretch writes one of the launch's arrays (X, the two bf16 parts of A, the partial sums). -/
theorem keeps_3 : (hostOps1_3 : List (HloOp τ sig (Elt F))).Forall fun op => ∀ w : Fin 4, Proc.devRef .tc (Pipeline.arrRef spec0 w) ∉ op.writes := by
  simp only [hostOps1_3, List.Forall, StableHlo.nullary_writes, StableHlo.unary_writes, StableHlo.binary_writes, StableHlo.ternary_writes, StableHlo.quaternary_writes, Finset.mem_singleton]
  repeat' apply And.intro
  all_goals (intro w; fin_cases w <;> exact StableHlo.devRef_ne_of_ne (by decide))
theorem fresh_4 : (hostOps1_4 : List (HloOp τ sig (Elt F))).Forall fun op => op.fresh = ∅ := by
  simp only [List.Forall]; repeat' constructor
/-- No operation of this stretch writes one of the launch's arrays (X, the two bf16 parts of A, the partial sums). -/
theorem keeps_4 : (hostOps1_4 : List (HloOp τ sig (Elt F))).Forall fun op => ∀ w : Fin 4, Proc.devRef .tc (Pipeline.arrRef spec0 w) ∉ op.writes := by
  simp only [hostOps1_4, List.Forall, StableHlo.nullary_writes, StableHlo.unary_writes, StableHlo.binary_writes, StableHlo.ternary_writes, StableHlo.quaternary_writes, Finset.mem_singleton]
  repeat' apply And.intro
  all_goals (intro w; fin_cases w <;> exact StableHlo.devRef_ne_of_ne (by decide))
theorem fresh_5 : (hostOps1_5 : List (HloOp τ sig (Elt F))).Forall fun op => op.fresh = ∅ := by
  simp only [List.Forall]; repeat' constructor
/-- No operation of this stretch writes one of the launch's arrays (X, the two bf16 parts of A, the partial sums). -/
theorem keeps_5 : (hostOps1_5 : List (HloOp τ sig (Elt F))).Forall fun op => ∀ w : Fin 4, Proc.devRef .tc (Pipeline.arrRef spec0 w) ∉ op.writes := by
  simp only [hostOps1_5, List.Forall, StableHlo.nullary_writes, StableHlo.unary_writes, StableHlo.binary_writes, StableHlo.ternary_writes, StableHlo.quaternary_writes, Finset.mem_singleton]
  repeat' apply And.intro
  all_goals (intro w; fin_cases w <;> exact StableHlo.devRef_ne_of_ne (by decide))
theorem fresh_6 : (hostOps1_6 : List (HloOp τ sig (Elt F))).Forall fun op => op.fresh = ∅ := by
  simp only [List.Forall]; repeat' constructor
/-- No operation of this stretch writes one of the launch's arrays (X, the two bf16 parts of A, the partial sums). -/
theorem keeps_6 : (hostOps1_6 : List (HloOp τ sig (Elt F))).Forall fun op => ∀ w : Fin 4, Proc.devRef .tc (Pipeline.arrRef spec0 w) ∉ op.writes := by
  simp only [hostOps1_6, List.Forall, StableHlo.nullary_writes, StableHlo.unary_writes, StableHlo.binary_writes, StableHlo.ternary_writes, StableHlo.quaternary_writes, Finset.mem_singleton]
  repeat' apply And.intro
  all_goals (intro w; fin_cases w <;> exact StableHlo.devRef_ne_of_ne (by decide))
theorem fresh_7 : (hostOps1_7 : List (HloOp τ sig (Elt F))).Forall fun op => op.fresh = ∅ := by
  simp only [List.Forall]; repeat' constructor
/-- No operation of this stretch writes one of the launch's arrays (X, the two bf16 parts of A, the partial sums). -/
theorem keeps_7 : (hostOps1_7 : List (HloOp τ sig (Elt F))).Forall fun op => ∀ w : Fin 4, Proc.devRef .tc (Pipeline.arrRef spec0 w) ∉ op.writes := by
  simp only [hostOps1_7, List.Forall, StableHlo.nullary_writes, StableHlo.unary_writes, StableHlo.binary_writes, StableHlo.ternary_writes, StableHlo.quaternary_writes, Finset.mem_singleton]
  repeat' apply And.intro
  all_goals (intro w; fin_cases w <;> exact StableHlo.devRef_ne_of_ne (by decide))
theorem fresh_8 : (hostOps1_8 : List (HloOp τ sig (Elt F))).Forall fun op => op.fresh = ∅ := by
  simp only [List.Forall]; repeat' constructor
/-- No operation of this stretch writes one of the launch's arrays (X, the two bf16 parts of A, the partial sums). -/
theorem keeps_8 : (hostOps1_8 : List (HloOp τ sig (Elt F))).Forall fun op => ∀ w : Fin 4, Proc.devRef .tc (Pipeline.arrRef spec0 w) ∉ op.writes := by
  simp only [hostOps1_8, List.Forall, StableHlo.nullary_writes, StableHlo.unary_writes, StableHlo.binary_writes, StableHlo.ternary_writes, StableHlo.quaternary_writes, Finset.mem_singleton]
  repeat' apply And.intro
  all_goals (intro w; fin_cases w <;> exact StableHlo.devRef_ne_of_ne (by decide))
theorem fresh_9 : (hostOps1_9 : List (HloOp τ sig (Elt F))).Forall fun op => op.fresh = ∅ := by
  simp only [List.Forall]; repeat' constructor
/-- No operation of this stretch writes one of the launch's arrays (X, the two bf16 parts of A, the partial sums). -/
theorem keeps_9 : (hostOps1_9 : List (HloOp τ sig (Elt F))).Forall fun op => ∀ w : Fin 4, Proc.devRef .tc (Pipeline.arrRef spec0 w) ∉ op.writes := by
  simp only [hostOps1_9, List.Forall, StableHlo.nullary_writes, StableHlo.unary_writes, StableHlo.binary_writes, StableHlo.ternary_writes, StableHlo.quaternary_writes, Finset.mem_singleton]
  repeat' apply And.intro
  all_goals (intro w; fin_cases w <;> exact StableHlo.devRef_ne_of_ne (by decide))
theorem fresh_10 : (hostOps1_10 : List (HloOp τ sig (Elt F))).Forall fun op => op.fresh = ∅ := by
  simp only [List.Forall]; repeat' constructor
/-- No operation of this stretch writes one of the launch's arrays (X, the two bf16 parts of A, the partial sums). -/
theorem keeps_10 : (hostOps1_10 : List (HloOp τ sig (Elt F))).Forall fun op => ∀ w : Fin 4, Proc.devRef .tc (Pipeline.arrRef spec0 w) ∉ op.writes := by
  simp only [hostOps1_10, List.Forall, StableHlo.nullary_writes, StableHlo.unary_writes, StableHlo.binary_writes, StableHlo.ternary_writes, StableHlo.quaternary_writes, Finset.mem_singleton]
  repeat' apply And.intro
  all_goals (intro w; fin_cases w <;> exact StableHlo.devRef_ne_of_ne (by decide))
theorem fresh_11 : (hostOps1_11 : List (HloOp τ sig (Elt F))).Forall fun op => op.fresh = ∅ := by
  simp only [List.Forall]; repeat' constructor
/-- No operation of this stretch writes one of the launch's arrays (X, the two bf16 parts of A, the partial sums). -/
theorem keeps_11 : (hostOps1_11 : List (HloOp τ sig (Elt F))).Forall fun op => ∀ w : Fin 4, Proc.devRef .tc (Pipeline.arrRef spec0 w) ∉ op.writes := by
  simp only [hostOps1_11, List.Forall, StableHlo.nullary_writes, StableHlo.unary_writes, StableHlo.binary_writes, StableHlo.ternary_writes, StableHlo.quaternary_writes, Finset.mem_singleton]
  repeat' apply And.intro
  all_goals (intro w; fin_cases w <;> exact StableHlo.devRef_ne_of_ne (by decide))
theorem fresh_12 : (hostOps1_12 : List (HloOp τ sig (Elt F))).Forall fun op => op.fresh = ∅ := by
  simp only [List.Forall]; repeat' constructor
/-- No operation of this stretch writes one of the launch's arrays (X, the two bf16 parts of A, the partial sums). -/
theorem keeps_12 : (hostOps1_12 : List (HloOp τ sig (Elt F))).Forall fun op => ∀ w : Fin 4, Proc.devRef .tc (Pipeline.arrRef spec0 w) ∉ op.writes := by
  simp only [hostOps1_12, List.Forall, StableHlo.nullary_writes, StableHlo.unary_writes, StableHlo.binary_writes, StableHlo.ternary_writes, StableHlo.quaternary_writes, Finset.mem_singleton]
  repeat' apply And.intro
  all_goals (intro w; fin_cases w <;> exact StableHlo.devRef_ne_of_ne (by decide))
theorem fresh_13 : (hostOps1_13 : List (HloOp τ sig (Elt F))).Forall fun op => op.fresh = ∅ := by
  simp only [List.Forall]; repeat' constructor
/-- No operation of this stretch writes one of the launch's arrays (X, the two bf16 parts of A, the partial sums). -/
theorem keeps_13 : (hostOps1_13 : List (HloOp τ sig (Elt F))).Forall fun op => ∀ w : Fin 4, Proc.devRef .tc (Pipeline.arrRef spec0 w) ∉ op.writes := by
  simp only [hostOps1_13, List.Forall, StableHlo.nullary_writes, StableHlo.unary_writes, StableHlo.binary_writes, StableHlo.ternary_writes, StableHlo.quaternary_writes, Finset.mem_singleton]
  repeat' apply And.intro
  all_goals (intro w; fin_cases w <;> exact StableHlo.devRef_ne_of_ne (by decide))
theorem fresh_14 : (hostOps1_14 : List (HloOp τ sig (Elt F))).Forall fun op => op.fresh = ∅ := by
  simp only [List.Forall]; repeat' constructor
/-- No operation of this stretch writes one of the launch's arrays (X, the two bf16 parts of A, the partial sums). -/
theorem keeps_14 : (hostOps1_14 : List (HloOp τ sig (Elt F))).Forall fun op => ∀ w : Fin 4, Proc.devRef .tc (Pipeline.arrRef spec0 w) ∉ op.writes := by
  simp only [hostOps1_14, List.Forall, StableHlo.nullary_writes, StableHlo.unary_writes, StableHlo.binary_writes, StableHlo.ternary_writes, StableHlo.quaternary_writes, Finset.mem_singleton]
  repeat' apply And.intro
  all_goals (intro w; fin_cases w <;> exact StableHlo.devRef_ne_of_ne (by decide))
theorem fresh_15 : (hostOps1_15 : List (HloOp τ sig (Elt F))).Forall fun op => op.fresh = ∅ := by
  simp only [List.Forall]; repeat' constructor
/-- No operation of this stretch writes one of the launch's arrays (X, the two bf16 parts of A, the partial sums). -/
theorem keeps_15 : (hostOps1_15 : List (HloOp τ sig (Elt F))).Forall fun op => ∀ w : Fin 4, Proc.devRef .tc (Pipeline.arrRef spec0 w) ∉ op.writes := by
  simp only [hostOps1_15, List.Forall, StableHlo.nullary_writes, StableHlo.unary_writes, StableHlo.binary_writes, StableHlo.ternary_writes, StableHlo.quaternary_writes, Finset.mem_singleton]
  repeat' apply And.intro
  all_goals (intro w; fin_cases w <;> exact StableHlo.devRef_ne_of_ne (by decide))
theorem fresh_16 : (hostOps1_16 : List (HloOp τ sig (Elt F))).Forall fun op => op.fresh = ∅ := by
  simp only [List.Forall]; repeat' constructor
/-- No operation of this stretch writes one of the launch's arrays (X, the two bf16 parts of A, the partial sums). -/
theorem keeps_16 : (hostOps1_16 : List (HloOp τ sig (Elt F))).Forall fun op => ∀ w : Fin 4, Proc.devRef .tc (Pipeline.arrRef spec0 w) ∉ op.writes := by
  simp only [hostOps1_16, List.Forall, StableHlo.nullary_writes, StableHlo.unary_writes, StableHlo.binary_writes, StableHlo.ternary_writes, StableHlo.quaternary_writes, Finset.mem_singleton]
  repeat' apply And.intro
  all_goals (intro w; fin_cases w <;> exact StableHlo.devRef_ne_of_ne (by decide))
theorem fresh_17 : (hostOps1_17 : List (HloOp τ sig (Elt F))).Forall fun op => op.fresh = ∅ := by
  simp only [List.Forall]; repeat' constructor
/-- No operation of this stretch writes one of the launch's arrays (X, the two bf16 parts of A, the partial sums). -/
theorem keeps_17 : (hostOps1_17 : List (HloOp τ sig (Elt F))).Forall fun op => ∀ w : Fin 4, Proc.devRef .tc (Pipeline.arrRef spec0 w) ∉ op.writes := by
  simp only [hostOps1_17, List.Forall, StableHlo.nullary_writes, StableHlo.unary_writes, StableHlo.binary_writes, StableHlo.ternary_writes, StableHlo.quaternary_writes, Finset.mem_singleton]
  repeat' apply And.intro
  all_goals (intro w; fin_cases w <;> exact StableHlo.devRef_ne_of_ne (by decide))
theorem fresh_18 : (hostOps1_18 : List (HloOp τ sig (Elt F))).Forall fun op => op.fresh = ∅ := by
  simp only [List.Forall]; repeat' constructor
/-- No operation of this stretch writes one of the launch's arrays (X, the two bf16 parts of A, the partial sums). -/
theorem keeps_18 : (hostOps1_18 : List (HloOp τ sig (Elt F))).Forall fun op => ∀ w : Fin 4, Proc.devRef .tc (Pipeline.arrRef spec0 w) ∉ op.writes := by
  simp only [hostOps1_18, List.Forall, StableHlo.nullary_writes, StableHlo.unary_writes, StableHlo.binary_writes, StableHlo.ternary_writes, StableHlo.quaternary_writes, Finset.mem_singleton]
  repeat' apply And.intro
  all_goals (intro w; fin_cases w <;> exact StableHlo.devRef_ne_of_ne (by decide))

/-- Membership in the list of later stretches, as a disjunction over the nineteen. -/
theorem mem_tailOps {ops : List (HloOp τ sig (Elt F))} (h : ops ∈ (tailOps : List (List (HloOp τ sig (Elt F))))) :
    ops = hostOps1 ∨ ops = hostOps1_1 ∨ ops = hostOps1_2 ∨ ops = hostOps1_3 ∨ ops = hostOps1_4 ∨ ops = hostOps1_5 ∨ ops = hostOps1_6 ∨ ops = hostOps1_7 ∨ ops = hostOps1_8 ∨ ops = hostOps1_9 ∨ ops = hostOps1_10 ∨ ops = hostOps1_11 ∨ ops = hostOps1_12 ∨ ops = hostOps1_13 ∨ ops = hostOps1_14 ∨ ops = hostOps1_15 ∨ ops = hostOps1_16 ∨ ops = hostOps1_17 ∨ ops = hostOps1_18 := by
  simpa only [tailOps, List.mem_cons, List.mem_nil_iff, or_false] using h

theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  rcases mem_tailOps hops with rfl | rfl | rfl | rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)
  · exact Pipeline.sub_ucRefs op ((List.forall_iff_forall_mem.mp hostOps1_16_sub) op hop)
  · exact Pipeline.sub_ucRefs op ((List.forall_iff_forall_mem.mp hostOps1_17_sub) op hop)
  · exact Pipeline.sub_ucRefs op ((List.forall_iff_forall_mem.mp hostOps1_18_sub) op hop)

theorem tail_fresh : ∀ ops ∈ (tailOps : List (List (HloOp τ sig (Elt F)))), ∀ op ∈ ops, op.fresh = ∅ := by
  intro ops hops op hop
  rcases mem_tailOps hops with rfl | rfl | rfl | rfl | rfl | rfl | rfl | rfl | rfl | rfl | rfl | rfl | rfl | rfl | rfl | rfl | rfl | rfl | rfl
  · exact (List.forall_iff_forall_mem.mp fresh_0) op hop
  · exact (List.forall_iff_forall_mem.mp fresh_1) op hop
  · exact (List.forall_iff_forall_mem.mp fresh_2) op hop
  · exact (List.forall_iff_forall_mem.mp fresh_3) op hop
  · exact (List.forall_iff_forall_mem.mp fresh_4) op hop
  · exact (List.forall_iff_forall_mem.mp fresh_5) op hop
  · exact (List.forall_iff_forall_mem.mp fresh_6) op hop
  · exact (List.forall_iff_forall_mem.mp fresh_7) op hop
  · exact (List.forall_iff_forall_mem.mp fresh_8) op hop
  · exact (List.forall_iff_forall_mem.mp fresh_9) op hop
  · exact (List.forall_iff_forall_mem.mp fresh_10) op hop
  · exact (List.forall_iff_forall_mem.mp fresh_11) op hop
  · exact (List.forall_iff_forall_mem.mp fresh_12) op hop
  · exact (List.forall_iff_forall_mem.mp fresh_13) op hop
  · exact (List.forall_iff_forall_mem.mp fresh_14) op hop
  · exact (List.forall_iff_forall_mem.mp fresh_15) op hop
  · exact (List.forall_iff_forall_mem.mp fresh_16) op hop
  · exact (List.forall_iff_forall_mem.mp fresh_17) op hop
  · exact (List.forall_iff_forall_mem.mp fresh_18) op hop

theorem tail_keeps : ∀ ops ∈ (tailOps : List (List (HloOp τ sig (Elt F)))), ∀ op ∈ ops,
    ∀ w, Proc.devRef .tc (Pipeline.arrRef spec0 w) ∉ op.writes := by
  intro ops hops op hop
  rcases mem_tailOps hops with rfl | rfl | rfl | rfl | rfl | rfl | rfl | rfl | rfl | rfl | rfl | rfl | rfl | rfl | rfl | rfl | rfl | rfl | rfl
  · exact (List.forall_iff_forall_mem.mp keeps_0) op hop
  · exact (List.forall_iff_forall_mem.mp keeps_1) op hop
  · exact (List.forall_iff_forall_mem.mp keeps_2) op hop
  · exact (List.forall_iff_forall_mem.mp keeps_3) op hop
  · exact (List.forall_iff_forall_mem.mp keeps_4) op hop
  · exact (List.forall_iff_forall_mem.mp keeps_5) op hop
  · exact (List.forall_iff_forall_mem.mp keeps_6) op hop
  · exact (List.forall_iff_forall_mem.mp keeps_7) op hop
  · exact (List.forall_iff_forall_mem.mp keeps_8) op hop
  · exact (List.forall_iff_forall_mem.mp keeps_9) op hop
  · exact (List.forall_iff_forall_mem.mp keeps_10) op hop
  · exact (List.forall_iff_forall_mem.mp keeps_11) op hop
  · exact (List.forall_iff_forall_mem.mp keeps_12) op hop
  · exact (List.forall_iff_forall_mem.mp keeps_13) op hop
  · exact (List.forall_iff_forall_mem.mp keeps_14) op hop
  · exact (List.forall_iff_forall_mem.mp keeps_15) op hop
  · exact (List.forall_iff_forall_mem.mp keeps_16) op hop
  · exact (List.forall_iff_forall_mem.mp keeps_17) op hop
  · exact (List.forall_iff_forall_mem.mp keeps_18) op hop

/-- The program is: the operations before the launch, the launch, then the later stretches — so from the launch
    memory it reduces to the launch entered at `V` and continued by those stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps : List (List (HloOp τ sig (Elt F)))).map StableHlo.seq)) :=
  Pipeline.hmain_around cfgs 0 defs₀ 𝒱₀ m main [hostOps0] tailOps (by simp only [List.Forall]; exact hostOps0_sub)
    (by simp only [List.Forall]; exact head_fresh) main_chain

end Cert.Kernel.Hand

end
-- ==== Proof.K.Reset.lean ====
/-
  When the accumulator is reset.  The grid is 2 × 50: the first coordinate is the core's share, the second runs over
  that share's fifty row tiles.  The body zeroes its one-element output exactly when the second coordinate is 0,
  that is at the flattened points 0 and 50.  This module states that condition from the printed scalar chain and
  decides it over the grid, and names the staging buffers the body is called with at a point.
-/
import proofs.«177308_j21492016349912_2_alg».proof.Proof.K.Entry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's reset condition, from the grid coordinates (the printed scalar chain). -/
abbrev rowStart (i : grid0.Coords) : Prop :=
  (Scalar.cmpi .ne (Scalar.extui (Scalar.cmpi .eq (BitVec.ofNat 32 (i 1).val) 0#32)) 0#32) = 1#1

/-- It holds exactly at the first tile of each core's share. -/
theorem rowStart_iff : ∀ t : Fin cfg0.N, rowStart (grid0.coords t) ↔ t.val % 50 = 0 :=
  (by decide +kernel : ∀ t : Fin grid0.N, rowStart (grid0.coords t) ↔ t.val % 50 = 0)

/-- One staging buffer of the output window, through which its contents are stated. -/
abbrev outView : View sig .tc .vmem S1x1x1 .f32 := (Memref.whole cc0_stg3_0 : Memref sig .tc .vmem S1x1x1 .f32).view

/-- Each window's current staging buffer at point `t`, as the pipeline passes it, and its wholeness. -/
abbrev sx (t : Fin cfg0.N) : Memref sig .tc .vmem S10000x128 .f32 := win0_0.stage (cfg0.slots t 0)
abbrev hsx (t : Fin cfg0.N) : (sx t).IsWhole := hstage0_0 ((cfg0.slots t 0).cast nbuf0_0)
abbrev sa (t : Fin cfg0.N) : Memref sig .tc .vmem S128x128 .bf16 := win0_1.stage (cfg0.slots t 1)
abbrev hsa (t : Fin cfg0.N) : (sa t).IsWhole := hstage0_1 ((cfg0.slots t 1).cast nbuf0_1)
abbrev sb (t : Fin cfg0.N) : Memref sig .tc .vmem S128x128 .bf16 := win0_2.stage (cfg0.slots t 2)
abbrev hsb (t : Fin cfg0.N) : (sb t).IsWhole := hstage0_2 ((cfg0.slots t 2).cast nbuf0_2)
abbrev so (t : Fin cfg0.N) : Memref sig .tc .vmem S1x1x1 .f32 := win0_3.stage (cfg0.slots t 3)
abbrev hso (t : Fin cfg0.N) : (so t).IsWhole := hstage0_3 ((cfg0.slots t 3).cast nbuf0_3)

end Cert.Kernel.Hand

end
-- ==== Proof.K.BodyFirst.lean ====
/-
  The body at the first tile of a core's share.  There the one-element output is first overwritten with zero and then
  with zero plus the tile's sum of squared residuals, so whatever the staging buffer held before is irrelevant.  The
  run is stated on arbitrary whole staging buffers: the three inputs are handed back unchanged and the output buffer
  ends as a list of stored pieces, found while the body is executed symbolically.
-/
import proofs.«177308_j21492016349912_2_alg».proof.Proof.K.Reset

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output's staging buffer when the accumulator is reset, with the proof
    that the body runs to its continuation from whole buffers: the inputs at their contents, the output at anything. -/
noncomputable def runFirst (c : Dev nD) (i : grid0.Coords) (arg2 : Memref sig .tc .vmem S10000x128 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S1x1x1 .f32) (harg5 : arg5.IsWhole) (hc : rowStart i)
    (x0 : Vec F S10000x128 .f32) (x1 : Vec F S128x128 .bf16) (x2 : Vec F S128x128 .bf16) :
    { L : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L)) -∗ K ⟨⟩))
          ⊢ wp frame (wpE (defs₀ (F := F)) Variants.none c none) E (cc0__sqresid_kernel i arg2 harg2 arg3 harg3 arg4 harg4 arg5 harg5) K } := by
  refine ⟨?_, fun E K => ?run⟩
  case run =>
    simp only [cc0__sqresid_kernel_eq_skeleton]; unfold cc0__sqresid_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0
    obtain rfl := harg3.eq_unread hf1
    obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Hand

end
-- ==== Proof.K.BodyLater.lean ====
/-
  The body at a later tile of a core's share.  The accumulator is not reset: the body reads the running sum the
  previous tile left in the output's staging buffer and stores it back increased by this tile's sum of squared
  residuals.  So here the output buffer's contents on entry matter, and the run is stated at given contents.
-/
import proofs.«177308_j21492016349912_2_alg».proof.Proof.K.Reset

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output's staging buffer when the accumulator is carried, with the proof
    that the body runs to its continuation from whole buffers: the inputs and the running sum at their contents. -/
noncomputable def runLater (c : Dev nD) (i : grid0.Coords) (arg2 : Memref sig .tc .vmem S10000x128 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S1x1x1 .f32) (harg5 : arg5.IsWhole) (hc : ¬rowStart i)
    (x0 : Vec F S10000x128 .f32) (x1 : Vec F S128x128 .bf16) (x2 : Vec F S128x128 .bf16) (xo : Vec F S1x1x1 .f32) :
    { L : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L)) -∗ K ⟨⟩))
          ⊢ wp frame (wpE (defs₀ (F := F)) Variants.none c none) E (cc0__sqresid_kernel i arg2 harg2 arg3 harg3 arg4 harg4 arg5 harg5) K } := by
  refine ⟨?_, fun E K => ?run⟩
  case run =>
    simp only [cc0__sqresid_kernel_eq_skeleton]; unfold cc0__sqresid_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0
    obtain rfl := harg3.eq_unread hf1
    obtain rfl := harg4.eq_unread hf2
    obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Hand

end
-- ==== Proof.K.Args.lean ====
/-
  The two argument arrays are never written.  X is the launch's first array; W is read by the host operations only.
  No host operation, before or after the launch, has either as its result buffer, so both hold their launch
  contents when the launch is entered and again when the program ends.
-/
import proofs.«177308_j21492016349912_2_alg».proof.Proof.K.Entry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem nw_main_arg0_0 : (hostOps1 : List (HloOp τ sig (Elt F))).Forall fun op => Proc.devRef .tc main_arg0 ∉ op.writes := by
  simp only [hostOps1, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg0_1 : (hostOps1_1 : List (HloOp τ sig (Elt F))).Forall fun op => Proc.devRef .tc main_arg0 ∉ op.writes := by
  simp only [hostOps1_1, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg0_2 : (hostOps1_2 : List (HloOp τ sig (Elt F))).Forall fun op => Proc.devRef .tc main_arg0 ∉ op.writes := by
  simp only [hostOps1_2, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg0_3 : (hostOps1_3 : List (HloOp τ sig (Elt F))).Forall fun op => Proc.devRef .tc main_arg0 ∉ op.writes := by
  simp only [hostOps1_3, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg0_4 : (hostOps1_4 : List (HloOp τ sig (Elt F))).Forall fun op => Proc.devRef .tc main_arg0 ∉ op.writes := by
  simp only [hostOps1_4, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg0_5 : (hostOps1_5 : List (HloOp τ sig (Elt F))).Forall fun op => Proc.devRef .tc main_arg0 ∉ op.writes := by
  simp only [hostOps1_5, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg0_6 : (hostOps1_6 : List (HloOp τ sig (Elt F))).Forall fun op => Proc.devRef .tc main_arg0 ∉ op.writes := by
  simp only [hostOps1_6, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg0_7 : (hostOps1_7 : List (HloOp τ sig (Elt F))).Forall fun op => Proc.devRef .tc main_arg0 ∉ op.writes := by
  simp only [hostOps1_7, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg0_8 : (hostOps1_8 : List (HloOp τ sig (Elt F))).Forall fun op => Proc.devRef .tc main_arg0 ∉ op.writes := by
  simp only [hostOps1_8, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg0_9 : (hostOps1_9 : List (HloOp τ sig (Elt F))).Forall fun op => Proc.devRef .tc main_arg0 ∉ op.writes := by
  simp only [hostOps1_9, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg0_10 : (hostOps1_10 : List (HloOp τ sig (Elt F))).Forall fun op => Proc.devRef .tc main_arg0 ∉ op.writes := by
  simp only [hostOps1_10, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg0_11 : (hostOps1_11 : List (HloOp τ sig (Elt F))).Forall fun op => Proc.devRef .tc main_arg0 ∉ op.writes := by
  simp only [hostOps1_11, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg0_12 : (hostOps1_12 : List (HloOp τ sig (Elt F))).Forall fun op => Proc.devRef .tc main_arg0 ∉ op.writes := by
  simp only [hostOps1_12, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg0_13 : (hostOps1_13 : List (HloOp τ sig (Elt F))).Forall fun op => Proc.devRef .tc main_arg0 ∉ op.writes := by
  simp only [hostOps1_13, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg0_14 : (hostOps1_14 : List (HloOp τ sig (Elt F))).Forall fun op => Proc.devRef .tc main_arg0 ∉ op.writes := by
  simp only [hostOps1_14, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg0_15 : (hostOps1_15 : List (HloOp τ sig (Elt F))).Forall fun op => Proc.devRef .tc main_arg0 ∉ op.writes := by
  simp only [hostOps1_15, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg0_16 : (hostOps1_16 : List (HloOp τ sig (Elt F))).Forall fun op => Proc.devRef .tc main_arg0 ∉ op.writes := by
  simp only [hostOps1_16, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg0_17 : (hostOps1_17 : List (HloOp τ sig (Elt F))).Forall fun op => Proc.devRef .tc main_arg0 ∉ op.writes := by
  simp only [hostOps1_17, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg0_18 : (hostOps1_18 : List (HloOp τ sig (Elt F))).Forall fun op => Proc.devRef .tc main_arg0 ∉ op.writes := by
  simp only [hostOps1_18, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
/-- No operation after the launch writes `main_arg0`. -/
theorem tail_nw_main_arg0 : ∀ op ∈ (tailOps : List (List (HloOp τ sig (Elt F)))).flatten, Proc.devRef .tc main_arg0 ∉ op.writes := by
  intro op hop
  obtain ⟨ops, hops, hop⟩ := List.mem_flatten.mp hop
  rcases mem_tailOps hops with rfl | rfl | rfl | rfl | rfl | rfl | rfl | rfl | rfl | rfl | rfl | rfl | rfl | rfl | rfl | rfl | rfl | rfl | rfl
  · exact (List.forall_iff_forall_mem.mp nw_main_arg0_0) op hop
  · exact (List.forall_iff_forall_mem.mp nw_main_arg0_1) op hop
  · exact (List.forall_iff_forall_mem.mp nw_main_arg0_2) op hop
  · exact (List.forall_iff_forall_mem.mp nw_main_arg0_3) op hop
  · exact (List.forall_iff_forall_mem.mp nw_main_arg0_4) op hop
  · exact (List.forall_iff_forall_mem.mp nw_main_arg0_5) op hop
  · exact (List.forall_iff_forall_mem.mp nw_main_arg0_6) op hop
  · exact (List.forall_iff_forall_mem.mp nw_main_arg0_7) op hop
  · exact (List.forall_iff_forall_mem.mp nw_main_arg0_8) op hop
  · exact (List.forall_iff_forall_mem.mp nw_main_arg0_9) op hop
  · exact (List.forall_iff_forall_mem.mp nw_main_arg0_10) op hop
  · exact (List.forall_iff_forall_mem.mp nw_main_arg0_11) op hop
  · exact (List.forall_iff_forall_mem.mp nw_main_arg0_12) op hop
  · exact (List.forall_iff_forall_mem.mp nw_main_arg0_13) op hop
  · exact (List.forall_iff_forall_mem.mp nw_main_arg0_14) op hop
  · exact (List.forall_iff_forall_mem.mp nw_main_arg0_15) op hop
  · exact (List.forall_iff_forall_mem.mp nw_main_arg0_16) op hop
  · exact (List.forall_iff_forall_mem.mp nw_main_arg0_17) op hop
  · exact (List.forall_iff_forall_mem.mp nw_main_arg0_18) op hop
/-- No operation before the launch writes `main_arg0`: the launch finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, Finset.mem_singleton]
    repeat' apply And.intro
    all_goals exact StableHlo.devRef_ne_of_ne (by decide)))
theorem nw_main_arg1_0 : (hostOps1 : List (HloOp τ sig (Elt F))).Forall fun op => Proc.devRef .tc main_arg1 ∉ op.writes := by
  simp only [hostOps1, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg1_1 : (hostOps1_1 : List (HloOp τ sig (Elt F))).Forall fun op => Proc.devRef .tc main_arg1 ∉ op.writes := by
  simp only [hostOps1_1, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg1_2 : (hostOps1_2 : List (HloOp τ sig (Elt F))).Forall fun op => Proc.devRef .tc main_arg1 ∉ op.writes := by
  simp only [hostOps1_2, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg1_3 : (hostOps1_3 : List (HloOp τ sig (Elt F))).Forall fun op => Proc.devRef .tc main_arg1 ∉ op.writes := by
  simp only [hostOps1_3, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg1_4 : (hostOps1_4 : List (HloOp τ sig (Elt F))).Forall fun op => Proc.devRef .tc main_arg1 ∉ op.writes := by
  simp only [hostOps1_4, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg1_5 : (hostOps1_5 : List (HloOp τ sig (Elt F))).Forall fun op => Proc.devRef .tc main_arg1 ∉ op.writes := by
  simp only [hostOps1_5, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg1_6 : (hostOps1_6 : List (HloOp τ sig (Elt F))).Forall fun op => Proc.devRef .tc main_arg1 ∉ op.writes := by
  simp only [hostOps1_6, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg1_7 : (hostOps1_7 : List (HloOp τ sig (Elt F))).Forall fun op => Proc.devRef .tc main_arg1 ∉ op.writes := by
  simp only [hostOps1_7, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg1_8 : (hostOps1_8 : List (HloOp τ sig (Elt F))).Forall fun op => Proc.devRef .tc main_arg1 ∉ op.writes := by
  simp only [hostOps1_8, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg1_9 : (hostOps1_9 : List (HloOp τ sig (Elt F))).Forall fun op => Proc.devRef .tc main_arg1 ∉ op.writes := by
  simp only [hostOps1_9, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg1_10 : (hostOps1_10 : List (HloOp τ sig (Elt F))).Forall fun op => Proc.devRef .tc main_arg1 ∉ op.writes := by
  simp only [hostOps1_10, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg1_11 : (hostOps1_11 : List (HloOp τ sig (Elt F))).Forall fun op => Proc.devRef .tc main_arg1 ∉ op.writes := by
  simp only [hostOps1_11, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg1_12 : (hostOps1_12 : List (HloOp τ sig (Elt F))).Forall fun op => Proc.devRef .tc main_arg1 ∉ op.writes := by
  simp only [hostOps1_12, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg1_13 : (hostOps1_13 : List (HloOp τ sig (Elt F))).Forall fun op => Proc.devRef .tc main_arg1 ∉ op.writes := by
  simp only [hostOps1_13, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg1_14 : (hostOps1_14 : List (HloOp τ sig (Elt F))).Forall fun op => Proc.devRef .tc main_arg1 ∉ op.writes := by
  simp only [hostOps1_14, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg1_15 : (hostOps1_15 : List (HloOp τ sig (Elt F))).Forall fun op => Proc.devRef .tc main_arg1 ∉ op.writes := by
  simp only [hostOps1_15, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg1_16 : (hostOps1_16 : List (HloOp τ sig (Elt F))).Forall fun op => Proc.devRef .tc main_arg1 ∉ op.writes := by
  simp only [hostOps1_16, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg1_17 : (hostOps1_17 : List (HloOp τ sig (Elt F))).Forall fun op => Proc.devRef .tc main_arg1 ∉ op.writes := by
  simp only [hostOps1_17, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg1_18 : (hostOps1_18 : List (HloOp τ sig (Elt F))).Forall fun op => Proc.devRef .tc main_arg1 ∉ op.writes := by
  simp only [hostOps1_18, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
/-- No operation after the launch writes `main_arg1`. -/
theorem tail_nw_main_arg1 : ∀ op ∈ (tailOps : List (List (HloOp τ sig (Elt F)))).flatten, Proc.devRef .tc main_arg1 ∉ op.writes := by
  intro op hop
  obtain ⟨ops, hops, hop⟩ := List.mem_flatten.mp hop
  rcases mem_tailOps hops with rfl | rfl | rfl | rfl | rfl | rfl | rfl | rfl | rfl | rfl | rfl | rfl | rfl | rfl | rfl | rfl | rfl | rfl | rfl
  · exact (List.forall_iff_forall_mem.mp nw_main_arg1_0) op hop
  · exact (List.forall_iff_forall_mem.mp nw_main_arg1_1) op hop
  · exact (List.forall_iff_forall_mem.mp nw_main_arg1_2) op hop
  · exact (List.forall_iff_forall_mem.mp nw_main_arg1_3) op hop
  · exact (List.forall_iff_forall_mem.mp nw_main_arg1_4) op hop
  · exact (List.forall_iff_forall_mem.mp nw_main_arg1_5) op hop
  · exact (List.forall_iff_forall_mem.mp nw_main_arg1_6) op hop
  · exact (List.forall_iff_forall_mem.mp nw_main_arg1_7) op hop
  · exact (List.forall_iff_forall_mem.mp nw_main_arg1_8) op hop
  · exact (List.forall_iff_forall_mem.mp nw_main_arg1_9) op hop
  · exact (List.forall_iff_forall_mem.mp nw_main_arg1_10) op hop
  · exact (List.forall_iff_forall_mem.mp nw_main_arg1_11) op hop
  · exact (List.forall_iff_forall_mem.mp nw_main_arg1_12) op hop
  · exact (List.forall_iff_forall_mem.mp nw_main_arg1_13) op hop
  · exact (List.forall_iff_forall_mem.mp nw_main_arg1_14) op hop
  · exact (List.forall_iff_forall_mem.mp nw_main_arg1_15) op hop
  · exact (List.forall_iff_forall_mem.mp nw_main_arg1_16) op hop
  · exact (List.forall_iff_forall_mem.mp nw_main_arg1_17) op hop
  · exact (List.forall_iff_forall_mem.mp nw_main_arg1_18) op hop
/-- No operation before the launch writes `main_arg1`: the launch finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, Finset.mem_singleton]
    repeat' apply And.intro
    all_goals exact StableHlo.devRef_ne_of_ne (by decide)))

/-- After the later stretches `main_arg1` (which is none of the launch's arrays) still holds its launch contents. -/
theorem W_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (tail_nw_main_arg1),
    Pipeline.withArrays_of_ne _ c (V0 m c) _ main_arg1 (by exact (by decide : ∀ w, Pipeline.arrRef spec0 w ≠ main_arg1))]
  exact V_main_arg1 m c

end Cert.Kernel.Hand

end
-- ==== Proof.K.Frame.lean ====
/-
  The launch's proof data and the program's run.  At each grid point the three input windows hold their blocks of X
  and of the two bf16 parts of A.  The one-element output window holds, after the body at point t, the running sum of
  its core's share: reset at the share's first tile, and at every later tile the previous tile's value plus this
  tile's contribution — the buffer is written back only after the share's last tile, so between tiles it is kept.
  With that data the body's obligation holds at every point (by the two symbolic runs of the body), the launch
  theorem for a program with host operations on both sides applies, and the frame claim follows: X is a launch array
  that is only read, W a buffer no operation writes.
-/
import proofs.«177308_j21492016349912_2_alg».proof.Proof.K.BodyFirst
import proofs.«177308_j21492016349912_2_alg».proof.Proof.K.BodyLater
import proofs.«177308_j21492016349912_2_alg».proof.Proof.K.Args

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not (where it is not fetched
    its block index has not moved), for any proof data whose body leaves the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the output's staging buffer holds after the body -/

/-- The stores at a share's first tile cover the one-element block. -/
theorem coverFirst (c : Dev nD) (i : grid0.Coords) (arg2 : Memref sig .tc .vmem S10000x128 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S1x1x1 .f32) (harg5 : arg5.IsWhole) (hc : rowStart i)
    (x0 : Vec F S10000x128 .f32) (x1 : Vec F S128x128 .bf16) (x2 : Vec F S128x128 .bf16) (y : S1x1x1.Idx) :
    ∃ pc ∈ (runFirst c i arg2 harg2 arg3 harg3 arg4 harg4 arg5 harg5 hc x0 x1 x2).1, y ∈ pc.1.set :=
  View.cover_of_tiledL (runFirst c i arg2 harg2 arg3 harg3 arg4 harg4 arg5 harg5 hc x0 x1 x2).1 S1x1x1.size (by sl_kernel_rfl) y

/-- What the body leaves there at a share's first tile: its stored pieces read back. -/
def outFirst (c : Dev nD) (i : grid0.Coords) (arg2 : Memref sig .tc .vmem S10000x128 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S1x1x1 .f32) (harg5 : arg5.IsWhole) (hc : rowStart i)
    (x0 : Vec F S10000x128 .f32) (x1 : Vec F S128x128 .bf16) (x2 : Vec F S128x128 .bf16) : Vec F S1x1x1 .f32 :=
  outView.read (Elt F) (outView.writes (Elt F) outView.junk (runFirst c i arg2 harg2 arg3 harg3 arg4 harg4 arg5 harg5 hc x0 x1 x2).1)

/-- The stores at a later tile cover the one-element block. -/
theorem coverLater (c : Dev nD) (i : grid0.Coords) (arg2 : Memref sig .tc .vmem S10000x128 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S1x1x1 .f32) (harg5 : arg5.IsWhole) (hc : ¬rowStart i)
    (x0 : Vec F S10000x128 .f32) (x1 : Vec F S128x128 .bf16) (x2 : Vec F S128x128 .bf16) (xo : Vec F S1x1x1 .f32) (y : S1x1x1.Idx) :
    ∃ pc ∈ (runLater c i arg2 harg2 arg3 harg3 arg4 harg4 arg5 harg5 hc x0 x1 x2 xo).1, y ∈ pc.1.set :=
  View.cover_of_tiledL (runLater c i arg2 harg2 arg3 harg3 arg4 harg4 arg5 harg5 hc x0 x1 x2 xo).1 S1x1x1.size (by sl_kernel_rfl) y

/-- What the body leaves there at a later tile, given the running sum it found. -/
def outLater (c : Dev nD) (i : grid0.Coords) (arg2 : Memref sig .tc .vmem S10000x128 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S1x1x1 .f32) (harg5 : arg5.IsWhole) (hc : ¬rowStart i)
    (x0 : Vec F S10000x128 .f32) (x1 : Vec F S128x128 .bf16) (x2 : Vec F S128x128 .bf16) (xo : Vec F S1x1x1 .f32) : Vec F S1x1x1 .f32 :=
  outView.read (Elt F) (outView.writes (Elt F) outView.junk (runLater c i arg2 harg2 arg3 harg3 arg4 harg4 arg5 harg5 hc x0 x1 x2 xo).1)

/-- THE RUNNING SUM: what the output's staging buffer holds after the body at flattened position `n`. -/
def acc (c : Dev nD) : (n : ℕ) → n < cfg0.N → Vec F S1x1x1 .f32
  | 0, hn => outFirst c (grid0.coords ⟨0, hn⟩) (sx ⟨0, hn⟩) (hsx ⟨0, hn⟩) (sa ⟨0, hn⟩) (hsa ⟨0, hn⟩) (sb ⟨0, hn⟩) (hsb ⟨0, hn⟩) (so ⟨0, hn⟩) (hso ⟨0, hn⟩) ((rowStart_iff ⟨0, hn⟩).mpr (Nat.zero_mod _)) (iblk m c 0 ⟨0, hn⟩) (iblk m c 1 ⟨0, hn⟩) (iblk m c 2 ⟨0, hn⟩)
  | n + 1, hn =>
    if h0 : (n + 1) % 50 = 0 then
      outFirst c (grid0.coords ⟨n + 1, hn⟩) (sx ⟨n + 1, hn⟩) (hsx ⟨n + 1, hn⟩) (sa ⟨n + 1, hn⟩) (hsa ⟨n + 1, hn⟩) (sb ⟨n + 1, hn⟩) (hsb ⟨n + 1, hn⟩) (so ⟨n + 1, hn⟩) (hso ⟨n + 1, hn⟩) ((rowStart_iff ⟨n + 1, hn⟩).mpr h0) (iblk m c 0 ⟨n + 1, hn⟩) (iblk m c 1 ⟨n + 1, hn⟩) (iblk m c 2 ⟨n + 1, hn⟩)
    else
      outLater c (grid0.coords ⟨n + 1, hn⟩) (sx ⟨n + 1, hn⟩) (hsx ⟨n + 1, hn⟩) (sa ⟨n + 1, hn⟩) (hsa ⟨n + 1, hn⟩) (sb ⟨n + 1, hn⟩) (hsb ⟨n + 1, hn⟩) (so ⟨n + 1, hn⟩) (hso ⟨n + 1, hn⟩) (fun h => h0 ((rowStart_iff ⟨n + 1, hn⟩).mp h)) (iblk m c 0 ⟨n + 1, hn⟩) (iblk m c 1 ⟨n + 1, hn⟩) (iblk m c 2 ⟨n + 1, hn⟩) (acc c n (Nat.lt_of_succ_lt hn))

/-- At a share's first tile the running sum is the reset value. -/
theorem acc_first (c : Dev nD) (t : Fin cfg0.N) (h0 : t.val % 50 = 0) :
    acc m c t.val t.isLt = outFirst c (grid0.coords t) (sx t) (hsx t) (sa t) (hsa t) (sb t) (hsb t) (so t) (hso t) ((rowStart_iff t).mpr h0) (iblk m c 0 t) (iblk m c 1 t) (iblk m c 2 t) := by
  obtain ⟨n, hn⟩ := t
  cases n with
  | zero => exact rfl
  | succ n => exact (dif_pos h0).trans rfl

/-- At a later tile it is the carried value over what the tile before left. -/
theorem acc_later (c : Dev nD) (t : Fin cfg0.N) (h0 : ¬t.val % 50 = 0) :
    acc m c t.val t.isLt = outLater c (grid0.coords t) (sx t) (hsx t) (sa t) (hsa t) (sb t) (hsb t) (so t) (hso t) (fun h => h0 ((rowStart_iff t).mp h)) (iblk m c 0 t) (iblk m c 1 t) (iblk m c 2 t) (acc m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The launch's proof data on core `c`: the arrays as the launch finds them; after the body each input buffer at its
    block and the output buffer at the running sum; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (acc m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = (acc m c t.val t.isLt) := by dsimp only [dats]

theorem before_0 (c : Dev nD) (t : Fin cfg0.N) (d) : (dats m 0 c).before 0 t d = iblk m c 0 t :=
  before_in0_of m (dats m 0 c) (A_eq m c 0) (after_0 m c) t d
theorem before_1 (c : Dev nD) (t : Fin cfg0.N) (d) : (dats m 0 c).before 1 t d = iblk m c 1 t :=
  before_in1_of m (dats m 0 c) (A_eq m c 1) (after_1 m c) t d
theorem before_2 (c : Dev nD) (t : Fin cfg0.N) (d) : (dats m 0 c).before 2 t d = iblk m c 2 t :=
  before_in2_of m (dats m 0 c) (A_eq m c 2) (after_2 m c) t d

/-- At a later tile the output's buffer holds what the body left at the tile before: the buffer is written back only
    after a share's last tile, so it was not written back in between. -/
theorem before_3_later (c : Dev nD) (t : Fin cfg0.N) (h0 : ¬t.val % 50 = 0) (d) :
    (dats m 0 c).before 3 t d = (acc m c (t.val - 1) (Nat.lt_of_le_of_lt (Nat.sub_le _ _) t.isLt)) := by
  have hN : t.val < 100 := lt_of_lt_of_eq t.isLt (show cfg0.N = 100 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (sx t) fullShare ((dats m 0 c).before 0 t d))
    ∗ (∃ d, owns (c : Thread nD τ) (sa t) fullShare ((dats m 0 c).before 1 t d))
    ∗ (∃ d, owns (c : Thread nD τ) (sb t) fullShare ((dats m 0 c).before 2 t d))
    ∗ (∃ d, owns (c : Thread nD τ) (so t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (sx t) fullShare ((dats m 0 c).after 0 t)
    ∗ owns (c : Thread nD τ) (sa t) fullShare ((dats m 0 c).after 1 t)
    ∗ owns (c : Thread nD τ) (sb t) fullShare ((dats m 0 c).after 2 t)
    ∗ owns (c : Thread nD τ) (so t) fullShare ((dats m 0 c).after 3 t))

set_option maxHeartbeats 1600000 in
/-- The body at any point: the inputs' buffers hold their blocks; at a share's first tile the reset run applies, at a
    later tile the carried run over what the tile before left; the invariant passes through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  have hN : t.val < 100 := lt_of_lt_of_eq t.isLt (show cfg0.N = 100 from N_0)
  by_cases h0 : t.val % 50 = 0
  · rw [acc_first m c t h0]
    unfold outFirst
    iintro ⟨HΦ, Ho, ⟨%d0, H0⟩, ⟨%d1, H1⟩, ⟨%d2, H2⟩, ⟨%d3, H3⟩⟩
    iapply ((runFirst c (grid0.coords t) _ _ _ _ _ _ _ _ ((rowStart_iff t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverFirst c _ _ _ _ _ _ _ _ _ _ _ _ _)
  · rw [acc_later m c t h0]
    simp only [before_3_later m c t h0]
    unfold outLater
    iintro ⟨HΦ, Ho, ⟨%d0, H0⟩, ⟨%d1, H1⟩, ⟨%d2, H2⟩, ⟨%d3, H3⟩⟩
    iapply ((runLater c (grid0.coords t) _ _ _ _ _ _ _ _ (fun h => h0 ((rowStart_iff t).mp h)) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverLater c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, each of the launch's
    arrays ends at what the proof data computes and every other unscoped buffer as the later stretches leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The frame: the program runs to the end without a fault and both argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩) (run_main m ρ)

end Cert.Kernel.Hand

end
-- ==== Proof.KI.Entry.lean ====
/-
  The host program around the one kernel launch.  Before the launch twenty-four host operations build the masked
  weight matrix Wm = W ∘ (1 − I), the matrix A = I − Wmᵀ and its two bf16 parts; after it nineteen stretches of host
  operations sum the two per-core partial sums, scale them, and add the acyclicity penalty and the L1 term, all of
  which read only Wm.  This module names the buffer contents when the launch is entered, records that the later
  stretches allocate nothing, touch only unscoped TensorCore buffers and never write one of the launch's four
  arrays, and reduces the whole program to "the launch, continued by the later stretches".
-/
import proofs.«177308_j21492016349912_2_alg».proof.Proof.Gen.KernelIdeal.Launch
import proofs.«177308_j21492016349912_2_alg».proof.Proof.Gen.KernelIdeal.Skeleton
import proofs.«177308_j21492016349912_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Contents at the launch's entry, and the stretches after it -/

/-- The stretches of host operations after the launch, in program order. -/
abbrev tailOps : List (List (HloOp τ sig (Elt F))) := [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18]

/-- Core `c`'s buffer contents when the launch is entered: the launch memory after the operations before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem head_fresh : (hostOps0 : List (HloOp τ sig (Elt F))).Forall fun op => op.fresh = ∅ := by
  simp only [List.Forall]; repeat' constructor

theorem fresh_0 : (hostOps1 : List (HloOp τ sig (Elt F))).Forall fun op => op.fresh = ∅ := by
  simp only [List.Forall]; repeat' constructor
/-- No operation of this stretch writes one of the launch's arrays (X, the two bf16 parts of A, the partial sums). -/
theorem keeps_0 : (hostOps1 : List (HloOp τ sig (Elt F))).Forall fun op => ∀ w : Fin 4, Proc.devRef .tc (Pipeline.arrRef spec0 w) ∉ op.writes := by
  simp only [hostOps1, List.Forall, StableHlo.nullary_writes, StableHlo.unary_writes, StableHlo.binary_writes, StableHlo.ternary_writes, StableHlo.quaternary_writes, Finset.mem_singleton]
  repeat' apply And.intro
  all_goals (intro w; fin_cases w <;> exact StableHlo.devRef_ne_of_ne (by decide))
theorem fresh_1 : (hostOps1_1 : List (HloOp τ sig (Elt F))).Forall fun op => op.fresh = ∅ := by
  simp only [List.Forall]; repeat' constructor
/-- No operation of this stretch writes one of the launch's arrays (X, the two bf16 parts of A, the partial sums). -/
theorem keeps_1 : (hostOps1_1 : List (HloOp τ sig (Elt F))).Forall fun op => ∀ w : Fin 4, Proc.devRef .tc (Pipeline.arrRef spec0 w) ∉ op.writes := by
  simp only [hostOps1_1, List.Forall, StableHlo.nullary_writes, StableHlo.unary_writes, StableHlo.binary_writes, StableHlo.ternary_writes, StableHlo.quaternary_writes, Finset.mem_singleton]
  repeat' apply And.intro
  all_goals (intro w; fin_cases w <;> exact StableHlo.devRef_ne_of_ne (by decide))
theorem fresh_2 : (hostOps1_2 : List (HloOp τ sig (Elt F))).Forall fun op => op.fresh = ∅ := by
  simp only [List.Forall]; repeat' constructor
/-- No operation of this stretch writes one of the launch's arrays (X, the two bf16 parts of A, the partial sums). -/
theorem keeps_2 : (hostOps1_2 : List (HloOp τ sig (Elt F))).Forall fun op => ∀ w : Fin 4, Proc.devRef .tc (Pipeline.arrRef spec0 w) ∉ op.writes := by
  simp only [hostOps1_2, List.Forall, StableHlo.nullary_writes, StableHlo.unary_writes, StableHlo.binary_writes, StableHlo.ternary_writes, StableHlo.quaternary_writes, Finset.mem_singleton]
  repeat' apply And.intro
  all_goals (intro w; fin_cases w <;> exact StableHlo.devRef_ne_of_ne (by decide))
theorem fresh_3 : (hostOps1_3 : List (HloOp τ sig (Elt F))).Forall fun op => op.fresh = ∅ := by
  simp only [List.Forall]; repeat' constructor
/-- No operation of this stretch writes one of the launch's arrays (X, the two bf16 parts of A, the partial sums). -/
theorem keeps_3 : (hostOps1_3 : List (HloOp τ sig (Elt F))).Forall fun op => ∀ w : Fin 4, Proc.devRef .tc (Pipeline.arrRef spec0 w) ∉ op.writes := by
  simp only [hostOps1_3, List.Forall, StableHlo.nullary_writes, StableHlo.unary_writes, StableHlo.binary_writes, StableHlo.ternary_writes, StableHlo.quaternary_writes, Finset.mem_singleton]
  repeat' apply And.intro
  all_goals (intro w; fin_cases w <;> exact StableHlo.devRef_ne_of_ne (by decide))
theorem fresh_4 : (hostOps1_4 : List (HloOp τ sig (Elt F))).Forall fun op => op.fresh = ∅ := by
  simp only [List.Forall]; repeat' constructor
/-- No operation of this stretch writes one of the launch's arrays (X, the two bf16 parts of A, the partial sums). -/
theorem keeps_4 : (hostOps1_4 : List (HloOp τ sig (Elt F))).Forall fun op => ∀ w : Fin 4, Proc.devRef .tc (Pipeline.arrRef spec0 w) ∉ op.writes := by
  simp only [hostOps1_4, List.Forall, StableHlo.nullary_writes, StableHlo.unary_writes, StableHlo.binary_writes, StableHlo.ternary_writes, StableHlo.quaternary_writes, Finset.mem_singleton]
  repeat' apply And.intro
  all_goals (intro w; fin_cases w <;> exact StableHlo.devRef_ne_of_ne (by decide))
theorem fresh_5 : (hostOps1_5 : List (HloOp τ sig (Elt F))).Forall fun op => op.fresh = ∅ := by
  simp only [List.Forall]; repeat' constructor
/-- No operation of this stretch writes one of the launch's arrays (X, the two bf16 parts of A, the partial sums). -/
theorem keeps_5 : (hostOps1_5 : List (HloOp τ sig (Elt F))).Forall fun op => ∀ w : Fin 4, Proc.devRef .tc (Pipeline.arrRef spec0 w) ∉ op.writes := by
  simp only [hostOps1_5, List.Forall, StableHlo.nullary_writes, StableHlo.unary_writes, StableHlo.binary_writes, StableHlo.ternary_writes, StableHlo.quaternary_writes, Finset.mem_singleton]
  repeat' apply And.intro
  all_goals (intro w; fin_cases w <;> exact StableHlo.devRef_ne_of_ne (by decide))
theorem fresh_6 : (hostOps1_6 : List (HloOp τ sig (Elt F))).Forall fun op => op.fresh = ∅ := by
  simp only [List.Forall]; repeat' constructor
/-- No operation of this stretch writes one of the launch's arrays (X, the two bf16 parts of A, the partial sums). -/
theorem keeps_6 : (hostOps1_6 : List (HloOp τ sig (Elt F))).Forall fun op => ∀ w : Fin 4, Proc.devRef .tc (Pipeline.arrRef spec0 w) ∉ op.writes := by
  simp only [hostOps1_6, List.Forall, StableHlo.nullary_writes, StableHlo.unary_writes, StableHlo.binary_writes, StableHlo.ternary_writes, StableHlo.quaternary_writes, Finset.mem_singleton]
  repeat' apply And.intro
  all_goals (intro w; fin_cases w <;> exact StableHlo.devRef_ne_of_ne (by decide))
theorem fresh_7 : (hostOps1_7 : List (HloOp τ sig (Elt F))).Forall fun op => op.fresh = ∅ := by
  simp only [List.Forall]; repeat' constructor
/-- No operation of this stretch writes one of the launch's arrays (X, the two bf16 parts of A, the partial sums). -/
theorem keeps_7 : (hostOps1_7 : List (HloOp τ sig (Elt F))).Forall fun op => ∀ w : Fin 4, Proc.devRef .tc (Pipeline.arrRef spec0 w) ∉ op.writes := by
  simp only [hostOps1_7, List.Forall, StableHlo.nullary_writes, StableHlo.unary_writes, StableHlo.binary_writes, StableHlo.ternary_writes, StableHlo.quaternary_writes, Finset.mem_singleton]
  repeat' apply And.intro
  all_goals (intro w; fin_cases w <;> exact StableHlo.devRef_ne_of_ne (by decide))
theorem fresh_8 : (hostOps1_8 : List (HloOp τ sig (Elt F))).Forall fun op => op.fresh = ∅ := by
  simp only [List.Forall]; repeat' constructor
/-- No operation of this stretch writes one of the launch's arrays (X, the two bf16 parts of A, the partial sums). -/
theorem keeps_8 : (hostOps1_8 : List (HloOp τ sig (Elt F))).Forall fun op => ∀ w : Fin 4, Proc.devRef .tc (Pipeline.arrRef spec0 w) ∉ op.writes := by
  simp only [hostOps1_8, List.Forall, StableHlo.nullary_writes, StableHlo.unary_writes, StableHlo.binary_writes, StableHlo.ternary_writes, StableHlo.quaternary_writes, Finset.mem_singleton]
  repeat' apply And.intro
  all_goals (intro w; fin_cases w <;> exact StableHlo.devRef_ne_of_ne (by decide))
theorem fresh_9 : (hostOps1_9 : List (HloOp τ sig (Elt F))).Forall fun op => op.fresh = ∅ := by
  simp only [List.Forall]; repeat' constructor
/-- No operation of this stretch writes one of the launch's arrays (X, the two bf16 parts of A, the partial sums). -/
theorem keeps_9 : (hostOps1_9 : List (HloOp τ sig (Elt F))).Forall fun op => ∀ w : Fin 4, Proc.devRef .tc (Pipeline.arrRef spec0 w) ∉ op.writes := by
  simp only [hostOps1_9, List.Forall, StableHlo.nullary_writes, StableHlo.unary_writes, StableHlo.binary_writes, StableHlo.ternary_writes, StableHlo.quaternary_writes, Finset.mem_singleton]
  repeat' apply And.intro
  all_goals (intro w; fin_cases w <;> exact StableHlo.devRef_ne_of_ne (by decide))
theorem fresh_10 : (hostOps1_10 : List (HloOp τ sig (Elt F))).Forall fun op => op.fresh = ∅ := by
  simp only [List.Forall]; repeat' constructor
/-- No operation of this stretch writes one of the launch's arrays (X, the two bf16 parts of A, the partial sums). -/
theorem keeps_10 : (hostOps1_10 : List (HloOp τ sig (Elt F))).Forall fun op => ∀ w : Fin 4, Proc.devRef .tc (Pipeline.arrRef spec0 w) ∉ op.writes := by
  simp only [hostOps1_10, List.Forall, StableHlo.nullary_writes, StableHlo.unary_writes, StableHlo.binary_writes, StableHlo.ternary_writes, StableHlo.quaternary_writes, Finset.mem_singleton]
  repeat' apply And.intro
  all_goals (intro w; fin_cases w <;> exact StableHlo.devRef_ne_of_ne (by decide))
theorem fresh_11 : (hostOps1_11 : List (HloOp τ sig (Elt F))).Forall fun op => op.fresh = ∅ := by
  simp only [List.Forall]; repeat' constructor
/-- No operation of this stretch writes one of the launch's arrays (X, the two bf16 parts of A, the partial sums). -/
theorem keeps_11 : (hostOps1_11 : List (HloOp τ sig (Elt F))).Forall fun op => ∀ w : Fin 4, Proc.devRef .tc (Pipeline.arrRef spec0 w) ∉ op.writes := by
  simp only [hostOps1_11, List.Forall, StableHlo.nullary_writes, StableHlo.unary_writes, StableHlo.binary_writes, StableHlo.ternary_writes, StableHlo.quaternary_writes, Finset.mem_singleton]
  repeat' apply And.intro
  all_goals (intro w; fin_cases w <;> exact StableHlo.devRef_ne_of_ne (by decide))
theorem fresh_12 : (hostOps1_12 : List (HloOp τ sig (Elt F))).Forall fun op => op.fresh = ∅ := by
  simp only [List.Forall]; repeat' constructor
/-- No operation of this stretch writes one of the launch's arrays (X, the two bf16 parts of A, the partial sums). -/
theorem keeps_12 : (hostOps1_12 : List (HloOp τ sig (Elt F))).Forall fun op => ∀ w : Fin 4, Proc.devRef .tc (Pipeline.arrRef spec0 w) ∉ op.writes := by
  simp only [hostOps1_12, List.Forall, StableHlo.nullary_writes, StableHlo.unary_writes, StableHlo.binary_writes, StableHlo.ternary_writes, StableHlo.quaternary_writes, Finset.mem_singleton]
  repeat' apply And.intro
  all_goals (intro w; fin_cases w <;> exact StableHlo.devRef_ne_of_ne (by decide))
theorem fresh_13 : (hostOps1_13 : List (HloOp τ sig (Elt F))).Forall fun op => op.fresh = ∅ := by
  simp only [List.Forall]; repeat' constructor
/-- No operation of this stretch writes one of the launch's arrays (X, the two bf16 parts of A, the partial sums). -/
theorem keeps_13 : (hostOps1_13 : List (HloOp τ sig (Elt F))).Forall fun op => ∀ w : Fin 4, Proc.devRef .tc (Pipeline.arrRef spec0 w) ∉ op.writes := by
  simp only [hostOps1_13, List.Forall, StableHlo.nullary_writes, StableHlo.unary_writes, StableHlo.binary_writes, StableHlo.ternary_writes, StableHlo.quaternary_writes, Finset.mem_singleton]
  repeat' apply And.intro
  all_goals (intro w; fin_cases w <;> exact StableHlo.devRef_ne_of_ne (by decide))
theorem fresh_14 : (hostOps1_14 : List (HloOp τ sig (Elt F))).Forall fun op => op.fresh = ∅ := by
  simp only [List.Forall]; repeat' constructor
/-- No operation of this stretch writes one of the launch's arrays (X, the two bf16 parts of A, the partial sums). -/
theorem keeps_14 : (hostOps1_14 : List (HloOp τ sig (Elt F))).Forall fun op => ∀ w : Fin 4, Proc.devRef .tc (Pipeline.arrRef spec0 w) ∉ op.writes := by
  simp only [hostOps1_14, List.Forall, StableHlo.nullary_writes, StableHlo.unary_writes, StableHlo.binary_writes, StableHlo.ternary_writes, StableHlo.quaternary_writes, Finset.mem_singleton]
  repeat' apply And.intro
  all_goals (intro w; fin_cases w <;> exact StableHlo.devRef_ne_of_ne (by decide))
theorem fresh_15 : (hostOps1_15 : List (HloOp τ sig (Elt F))).Forall fun op => op.fresh = ∅ := by
  simp only [List.Forall]; repeat' constructor
/-- No operation of this stretch writes one of the launch's arrays (X, the two bf16 parts of A, the partial sums). -/
theorem keeps_15 : (hostOps1_15 : List (HloOp τ sig (Elt F))).Forall fun op => ∀ w : Fin 4, Proc.devRef .tc (Pipeline.arrRef spec0 w) ∉ op.writes := by
  simp only [hostOps1_15, List.Forall, StableHlo.nullary_writes, StableHlo.unary_writes, StableHlo.binary_writes, StableHlo.ternary_writes, StableHlo.quaternary_writes, Finset.mem_singleton]
  repeat' apply And.intro
  all_goals (intro w; fin_cases w <;> exact StableHlo.devRef_ne_of_ne (by decide))
theorem fresh_16 : (hostOps1_16 : List (HloOp τ sig (Elt F))).Forall fun op => op.fresh = ∅ := by
  simp only [List.Forall]; repeat' constructor
/-- No operation of this stretch writes one of the launch's arrays (X, the two bf16 parts of A, the partial sums). -/
theorem keeps_16 : (hostOps1_16 : List (HloOp τ sig (Elt F))).Forall fun op => ∀ w : Fin 4, Proc.devRef .tc (Pipeline.arrRef spec0 w) ∉ op.writes := by
  simp only [hostOps1_16, List.Forall, StableHlo.nullary_writes, StableHlo.unary_writes, StableHlo.binary_writes, StableHlo.ternary_writes, StableHlo.quaternary_writes, Finset.mem_singleton]
  repeat' apply And.intro
  all_goals (intro w; fin_cases w <;> exact StableHlo.devRef_ne_of_ne (by decide))
theorem fresh_17 : (hostOps1_17 : List (HloOp τ sig (Elt F))).Forall fun op => op.fresh = ∅ := by
  simp only [List.Forall]; repeat' constructor
/-- No operation of this stretch writes one of the launch's arrays (X, the two bf16 parts of A, the partial sums). -/
theorem keeps_17 : (hostOps1_17 : List (HloOp τ sig (Elt F))).Forall fun op => ∀ w : Fin 4, Proc.devRef .tc (Pipeline.arrRef spec0 w) ∉ op.writes := by
  simp only [hostOps1_17, List.Forall, StableHlo.nullary_writes, StableHlo.unary_writes, StableHlo.binary_writes, StableHlo.ternary_writes, StableHlo.quaternary_writes, Finset.mem_singleton]
  repeat' apply And.intro
  all_goals (intro w; fin_cases w <;> exact StableHlo.devRef_ne_of_ne (by decide))
theorem fresh_18 : (hostOps1_18 : List (HloOp τ sig (Elt F))).Forall fun op => op.fresh = ∅ := by
  simp only [List.Forall]; repeat' constructor
/-- No operation of this stretch writes one of the launch's arrays (X, the two bf16 parts of A, the partial sums). -/
theorem keeps_18 : (hostOps1_18 : List (HloOp τ sig (Elt F))).Forall fun op => ∀ w : Fin 4, Proc.devRef .tc (Pipeline.arrRef spec0 w) ∉ op.writes := by
  simp only [hostOps1_18, List.Forall, StableHlo.nullary_writes, StableHlo.unary_writes, StableHlo.binary_writes, StableHlo.ternary_writes, StableHlo.quaternary_writes, Finset.mem_singleton]
  repeat' apply And.intro
  all_goals (intro w; fin_cases w <;> exact StableHlo.devRef_ne_of_ne (by decide))

/-- Membership in the list of later stretches, as a disjunction over the nineteen. -/
theorem mem_tailOps {ops : List (HloOp τ sig (Elt F))} (h : ops ∈ (tailOps : List (List (HloOp τ sig (Elt F))))) :
    ops = hostOps1 ∨ ops = hostOps1_1 ∨ ops = hostOps1_2 ∨ ops = hostOps1_3 ∨ ops = hostOps1_4 ∨ ops = hostOps1_5 ∨ ops = hostOps1_6 ∨ ops = hostOps1_7 ∨ ops = hostOps1_8 ∨ ops = hostOps1_9 ∨ ops = hostOps1_10 ∨ ops = hostOps1_11 ∨ ops = hostOps1_12 ∨ ops = hostOps1_13 ∨ ops = hostOps1_14 ∨ ops = hostOps1_15 ∨ ops = hostOps1_16 ∨ ops = hostOps1_17 ∨ ops = hostOps1_18 := by
  simpa only [tailOps, List.mem_cons, List.mem_nil_iff, or_false] using h

theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  rcases mem_tailOps hops with rfl | rfl | rfl | rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)
  · exact Pipeline.sub_ucRefs op ((List.forall_iff_forall_mem.mp hostOps1_16_sub) op hop)
  · exact Pipeline.sub_ucRefs op ((List.forall_iff_forall_mem.mp hostOps1_17_sub) op hop)
  · exact Pipeline.sub_ucRefs op ((List.forall_iff_forall_mem.mp hostOps1_18_sub) op hop)

theorem tail_fresh : ∀ ops ∈ (tailOps : List (List (HloOp τ sig (Elt F)))), ∀ op ∈ ops, op.fresh = ∅ := by
  intro ops hops op hop
  rcases mem_tailOps hops with rfl | rfl | rfl | rfl | rfl | rfl | rfl | rfl | rfl | rfl | rfl | rfl | rfl | rfl | rfl | rfl | rfl | rfl | rfl
  · exact (List.forall_iff_forall_mem.mp fresh_0) op hop
  · exact (List.forall_iff_forall_mem.mp fresh_1) op hop
  · exact (List.forall_iff_forall_mem.mp fresh_2) op hop
  · exact (List.forall_iff_forall_mem.mp fresh_3) op hop
  · exact (List.forall_iff_forall_mem.mp fresh_4) op hop
  · exact (List.forall_iff_forall_mem.mp fresh_5) op hop
  · exact (List.forall_iff_forall_mem.mp fresh_6) op hop
  · exact (List.forall_iff_forall_mem.mp fresh_7) op hop
  · exact (List.forall_iff_forall_mem.mp fresh_8) op hop
  · exact (List.forall_iff_forall_mem.mp fresh_9) op hop
  · exact (List.forall_iff_forall_mem.mp fresh_10) op hop
  · exact (List.forall_iff_forall_mem.mp fresh_11) op hop
  · exact (List.forall_iff_forall_mem.mp fresh_12) op hop
  · exact (List.forall_iff_forall_mem.mp fresh_13) op hop
  · exact (List.forall_iff_forall_mem.mp fresh_14) op hop
  · exact (List.forall_iff_forall_mem.mp fresh_15) op hop
  · exact (List.forall_iff_forall_mem.mp fresh_16) op hop
  · exact (List.forall_iff_forall_mem.mp fresh_17) op hop
  · exact (List.forall_iff_forall_mem.mp fresh_18) op hop

theorem tail_keeps : ∀ ops ∈ (tailOps : List (List (HloOp τ sig (Elt F)))), ∀ op ∈ ops,
    ∀ w, Proc.devRef .tc (Pipeline.arrRef spec0 w) ∉ op.writes := by
  intro ops hops op hop
  rcases mem_tailOps hops with rfl | rfl | rfl | rfl | rfl | rfl | rfl | rfl | rfl | rfl | rfl | rfl | rfl | rfl | rfl | rfl | rfl | rfl | rfl
  · exact (List.forall_iff_forall_mem.mp keeps_0) op hop
  · exact (List.forall_iff_forall_mem.mp keeps_1) op hop
  · exact (List.forall_iff_forall_mem.mp keeps_2) op hop
  · exact (List.forall_iff_forall_mem.mp keeps_3) op hop
  · exact (List.forall_iff_forall_mem.mp keeps_4) op hop
  · exact (List.forall_iff_forall_mem.mp keeps_5) op hop
  · exact (List.forall_iff_forall_mem.mp keeps_6) op hop
  · exact (List.forall_iff_forall_mem.mp keeps_7) op hop
  · exact (List.forall_iff_forall_mem.mp keeps_8) op hop
  · exact (List.forall_iff_forall_mem.mp keeps_9) op hop
  · exact (List.forall_iff_forall_mem.mp keeps_10) op hop
  · exact (List.forall_iff_forall_mem.mp keeps_11) op hop
  · exact (List.forall_iff_forall_mem.mp keeps_12) op hop
  · exact (List.forall_iff_forall_mem.mp keeps_13) op hop
  · exact (List.forall_iff_forall_mem.mp keeps_14) op hop
  · exact (List.forall_iff_forall_mem.mp keeps_15) op hop
  · exact (List.forall_iff_forall_mem.mp keeps_16) op hop
  · exact (List.forall_iff_forall_mem.mp keeps_17) op hop
  · exact (List.forall_iff_forall_mem.mp keeps_18) op hop

/-- The program is: the operations before the launch, the launch, then the later stretches — so from the launch
    memory it reduces to the launch entered at `V` and continued by those stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps : List (List (HloOp τ sig (Elt F)))).map StableHlo.seq)) :=
  Pipeline.hmain_around cfgs 0 defs₀ 𝒱₀ m main [hostOps0] tailOps (by simp only [List.Forall]; exact hostOps0_sub)
    (by simp only [List.Forall]; exact head_fresh) main_chain

end Cert.KernelIdeal.Hand

end
-- ==== Proof.KI.Reset.lean ====
/-
  When the accumulator is reset.  The grid is 2 × 50: the first coordinate is the core's share, the second runs over
  that share's fifty row tiles.  The body zeroes its one-element output exactly when the second coordinate is 0,
  that is at the flattened points 0 and 50.  This module states that condition from the printed scalar chain and
  decides it over the grid, and names the staging buffers the body is called with at a point.
-/
import proofs.«177308_j21492016349912_2_alg».proof.Proof.KI.Entry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's reset condition, from the grid coordinates (the printed scalar chain). -/
abbrev rowStart (i : grid0.Coords) : Prop :=
  (Scalar.cmpi .ne (Scalar.extui (Scalar.cmpi .eq (BitVec.ofNat 32 (i 1).val) 0#32)) 0#32) = 1#1

/-- It holds exactly at the first tile of each core's share. -/
theorem rowStart_iff : ∀ t : Fin cfg0.N, rowStart (grid0.coords t) ↔ t.val % 50 = 0 :=
  (by decide +kernel : ∀ t : Fin grid0.N, rowStart (grid0.coords t) ↔ t.val % 50 = 0)

/-- One staging buffer of the output window, through which its contents are stated. -/
abbrev outView : View sig .tc .vmem S1x1x1 .f32 := (Memref.whole cc0_stg3_0 : Memref sig .tc .vmem S1x1x1 .f32).view

/-- Each window's current staging buffer at point `t`, as the pipeline passes it, and its wholeness. -/
abbrev sx (t : Fin cfg0.N) : Memref sig .tc .vmem S10000x128 .f32 := win0_0.stage (cfg0.slots t 0)
abbrev hsx (t : Fin cfg0.N) : (sx t).IsWhole := hstage0_0 ((cfg0.slots t 0).cast nbuf0_0)
abbrev sa (t : Fin cfg0.N) : Memref sig .tc .vmem S128x128 .bf16 := win0_1.stage (cfg0.slots t 1)
abbrev hsa (t : Fin cfg0.N) : (sa t).IsWhole := hstage0_1 ((cfg0.slots t 1).cast nbuf0_1)
abbrev sb (t : Fin cfg0.N) : Memref sig .tc .vmem S128x128 .bf16 := win0_2.stage (cfg0.slots t 2)
abbrev hsb (t : Fin cfg0.N) : (sb t).IsWhole := hstage0_2 ((cfg0.slots t 2).cast nbuf0_2)
abbrev so (t : Fin cfg0.N) : Memref sig .tc .vmem S1x1x1 .f32 := win0_3.stage (cfg0.slots t 3)
abbrev hso (t : Fin cfg0.N) : (so t).IsWhole := hstage0_3 ((cfg0.slots t 3).cast nbuf0_3)

end Cert.KernelIdeal.Hand

end
-- ==== Proof.KI.BodyFirst.lean ====
/-
  The body at the first tile of a core's share.  There the one-element output is first overwritten with zero and then
  with zero plus the tile's sum of squared residuals, so whatever the staging buffer held before is irrelevant.  The
  run is stated on arbitrary whole staging buffers: the three inputs are handed back unchanged and the output buffer
  ends as a list of stored pieces, found while the body is executed symbolically.
-/
import proofs.«177308_j21492016349912_2_alg».proof.Proof.KI.Reset

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output's staging buffer when the accumulator is reset, with the proof
    that the body runs to its continuation from whole buffers: the inputs at their contents, the output at anything. -/
noncomputable def runFirst (c : Dev nD) (i : grid0.Coords) (arg2 : Memref sig .tc .vmem S10000x128 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S1x1x1 .f32) (harg5 : arg5.IsWhole) (hc : rowStart i)
    (x0 : Vec F S10000x128 .f32) (x1 : Vec F S128x128 .bf16) (x2 : Vec F S128x128 .bf16) :
    { L : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L)) -∗ K ⟨⟩))
          ⊢ wp frame (wpE (defs₀ (F := F)) Variants.none c none) E (cc0__sqresid_kernel i arg2 harg2 arg3 harg3 arg4 harg4 arg5 harg5) K } := by
  refine ⟨?_, fun E K => ?run⟩
  case run =>
    simp only [cc0__sqresid_kernel_eq_skeleton]; unfold cc0__sqresid_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0
    obtain rfl := harg3.eq_unread hf1
    obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.KI.BodyLater.lean ====
/-
  The body at a later tile of a core's share.  The accumulator is not reset: the body reads the running sum the
  previous tile left in the output's staging buffer and stores it back increased by this tile's sum of squared
  residuals.  So here the output buffer's contents on entry matter, and the run is stated at given contents.
-/
import proofs.«177308_j21492016349912_2_alg».proof.Proof.KI.Reset

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output's staging buffer when the accumulator is carried, with the proof
    that the body runs to its continuation from whole buffers: the inputs and the running sum at their contents. -/
noncomputable def runLater (c : Dev nD) (i : grid0.Coords) (arg2 : Memref sig .tc .vmem S10000x128 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S1x1x1 .f32) (harg5 : arg5.IsWhole) (hc : ¬rowStart i)
    (x0 : Vec F S10000x128 .f32) (x1 : Vec F S128x128 .bf16) (x2 : Vec F S128x128 .bf16) (xo : Vec F S1x1x1 .f32) :
    { L : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L)) -∗ K ⟨⟩))
          ⊢ wp frame (wpE (defs₀ (F := F)) Variants.none c none) E (cc0__sqresid_kernel i arg2 harg2 arg3 harg3 arg4 harg4 arg5 harg5) K } := by
  refine ⟨?_, fun E K => ?run⟩
  case run =>
    simp only [cc0__sqresid_kernel_eq_skeleton]; unfold cc0__sqresid_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0
    obtain rfl := harg3.eq_unread hf1
    obtain rfl := harg4.eq_unread hf2
    obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.KI.Args.lean ====
/-
  The two argument arrays are never written.  X is the launch's first array; W is read by the host operations only.
  No host operation, before or after the launch, has either as its result buffer, so both hold their launch
  contents when the launch is entered and again when the program ends.
-/
import proofs.«177308_j21492016349912_2_alg».proof.Proof.KI.Entry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem nw_main_arg0_0 : (hostOps1 : List (HloOp τ sig (Elt F))).Forall fun op => Proc.devRef .tc main_arg0 ∉ op.writes := by
  simp only [hostOps1, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg0_1 : (hostOps1_1 : List (HloOp τ sig (Elt F))).Forall fun op => Proc.devRef .tc main_arg0 ∉ op.writes := by
  simp only [hostOps1_1, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg0_2 : (hostOps1_2 : List (HloOp τ sig (Elt F))).Forall fun op => Proc.devRef .tc main_arg0 ∉ op.writes := by
  simp only [hostOps1_2, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg0_3 : (hostOps1_3 : List (HloOp τ sig (Elt F))).Forall fun op => Proc.devRef .tc main_arg0 ∉ op.writes := by
  simp only [hostOps1_3, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg0_4 : (hostOps1_4 : List (HloOp τ sig (Elt F))).Forall fun op => Proc.devRef .tc main_arg0 ∉ op.writes := by
  simp only [hostOps1_4, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg0_5 : (hostOps1_5 : List (HloOp τ sig (Elt F))).Forall fun op => Proc.devRef .tc main_arg0 ∉ op.writes := by
  simp only [hostOps1_5, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg0_6 : (hostOps1_6 : List (HloOp τ sig (Elt F))).Forall fun op => Proc.devRef .tc main_arg0 ∉ op.writes := by
  simp only [hostOps1_6, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg0_7 : (hostOps1_7 : List (HloOp τ sig (Elt F))).Forall fun op => Proc.devRef .tc main_arg0 ∉ op.writes := by
  simp only [hostOps1_7, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg0_8 : (hostOps1_8 : List (HloOp τ sig (Elt F))).Forall fun op => Proc.devRef .tc main_arg0 ∉ op.writes := by
  simp only [hostOps1_8, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg0_9 : (hostOps1_9 : List (HloOp τ sig (Elt F))).Forall fun op => Proc.devRef .tc main_arg0 ∉ op.writes := by
  simp only [hostOps1_9, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg0_10 : (hostOps1_10 : List (HloOp τ sig (Elt F))).Forall fun op => Proc.devRef .tc main_arg0 ∉ op.writes := by
  simp only [hostOps1_10, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg0_11 : (hostOps1_11 : List (HloOp τ sig (Elt F))).Forall fun op => Proc.devRef .tc main_arg0 ∉ op.writes := by
  simp only [hostOps1_11, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg0_12 : (hostOps1_12 : List (HloOp τ sig (Elt F))).Forall fun op => Proc.devRef .tc main_arg0 ∉ op.writes := by
  simp only [hostOps1_12, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg0_13 : (hostOps1_13 : List (HloOp τ sig (Elt F))).Forall fun op => Proc.devRef .tc main_arg0 ∉ op.writes := by
  simp only [hostOps1_13, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg0_14 : (hostOps1_14 : List (HloOp τ sig (Elt F))).Forall fun op => Proc.devRef .tc main_arg0 ∉ op.writes := by
  simp only [hostOps1_14, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg0_15 : (hostOps1_15 : List (HloOp τ sig (Elt F))).Forall fun op => Proc.devRef .tc main_arg0 ∉ op.writes := by
  simp only [hostOps1_15, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg0_16 : (hostOps1_16 : List (HloOp τ sig (Elt F))).Forall fun op => Proc.devRef .tc main_arg0 ∉ op.writes := by
  simp only [hostOps1_16, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg0_17 : (hostOps1_17 : List (HloOp τ sig (Elt F))).Forall fun op => Proc.devRef .tc main_arg0 ∉ op.writes := by
  simp only [hostOps1_17, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg0_18 : (hostOps1_18 : List (HloOp τ sig (Elt F))).Forall fun op => Proc.devRef .tc main_arg0 ∉ op.writes := by
  simp only [hostOps1_18, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
/-- No operation after the launch writes `main_arg0`. -/
theorem tail_nw_main_arg0 : ∀ op ∈ (tailOps : List (List (HloOp τ sig (Elt F)))).flatten, Proc.devRef .tc main_arg0 ∉ op.writes := by
  intro op hop
  obtain ⟨ops, hops, hop⟩ := List.mem_flatten.mp hop
  rcases mem_tailOps hops with rfl | rfl | rfl | rfl | rfl | rfl | rfl | rfl | rfl | rfl | rfl | rfl | rfl | rfl | rfl | rfl | rfl | rfl | rfl
  · exact (List.forall_iff_forall_mem.mp nw_main_arg0_0) op hop
  · exact (List.forall_iff_forall_mem.mp nw_main_arg0_1) op hop
  · exact (List.forall_iff_forall_mem.mp nw_main_arg0_2) op hop
  · exact (List.forall_iff_forall_mem.mp nw_main_arg0_3) op hop
  · exact (List.forall_iff_forall_mem.mp nw_main_arg0_4) op hop
  · exact (List.forall_iff_forall_mem.mp nw_main_arg0_5) op hop
  · exact (List.forall_iff_forall_mem.mp nw_main_arg0_6) op hop
  · exact (List.forall_iff_forall_mem.mp nw_main_arg0_7) op hop
  · exact (List.forall_iff_forall_mem.mp nw_main_arg0_8) op hop
  · exact (List.forall_iff_forall_mem.mp nw_main_arg0_9) op hop
  · exact (List.forall_iff_forall_mem.mp nw_main_arg0_10) op hop
  · exact (List.forall_iff_forall_mem.mp nw_main_arg0_11) op hop
  · exact (List.forall_iff_forall_mem.mp nw_main_arg0_12) op hop
  · exact (List.forall_iff_forall_mem.mp nw_main_arg0_13) op hop
  · exact (List.forall_iff_forall_mem.mp nw_main_arg0_14) op hop
  · exact (List.forall_iff_forall_mem.mp nw_main_arg0_15) op hop
  · exact (List.forall_iff_forall_mem.mp nw_main_arg0_16) op hop
  · exact (List.forall_iff_forall_mem.mp nw_main_arg0_17) op hop
  · exact (List.forall_iff_forall_mem.mp nw_main_arg0_18) op hop
/-- No operation before the launch writes `main_arg0`: the launch finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, Finset.mem_singleton]
    repeat' apply And.intro
    all_goals exact StableHlo.devRef_ne_of_ne (by decide)))
theorem nw_main_arg1_0 : (hostOps1 : List (HloOp τ sig (Elt F))).Forall fun op => Proc.devRef .tc main_arg1 ∉ op.writes := by
  simp only [hostOps1, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg1_1 : (hostOps1_1 : List (HloOp τ sig (Elt F))).Forall fun op => Proc.devRef .tc main_arg1 ∉ op.writes := by
  simp only [hostOps1_1, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg1_2 : (hostOps1_2 : List (HloOp τ sig (Elt F))).Forall fun op => Proc.devRef .tc main_arg1 ∉ op.writes := by
  simp only [hostOps1_2, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg1_3 : (hostOps1_3 : List (HloOp τ sig (Elt F))).Forall fun op => Proc.devRef .tc main_arg1 ∉ op.writes := by
  simp only [hostOps1_3, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg1_4 : (hostOps1_4 : List (HloOp τ sig (Elt F))).Forall fun op => Proc.devRef .tc main_arg1 ∉ op.writes := by
  simp only [hostOps1_4, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg1_5 : (hostOps1_5 : List (HloOp τ sig (Elt F))).Forall fun op => Proc.devRef .tc main_arg1 ∉ op.writes := by
  simp only [hostOps1_5, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg1_6 : (hostOps1_6 : List (HloOp τ sig (Elt F))).Forall fun op => Proc.devRef .tc main_arg1 ∉ op.writes := by
  simp only [hostOps1_6, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg1_7 : (hostOps1_7 : List (HloOp τ sig (Elt F))).Forall fun op => Proc.devRef .tc main_arg1 ∉ op.writes := by
  simp only [hostOps1_7, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg1_8 : (hostOps1_8 : List (HloOp τ sig (Elt F))).Forall fun op => Proc.devRef .tc main_arg1 ∉ op.writes := by
  simp only [hostOps1_8, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg1_9 : (hostOps1_9 : List (HloOp τ sig (Elt F))).Forall fun op => Proc.devRef .tc main_arg1 ∉ op.writes := by
  simp only [hostOps1_9, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg1_10 : (hostOps1_10 : List (HloOp τ sig (Elt F))).Forall fun op => Proc.devRef .tc main_arg1 ∉ op.writes := by
  simp only [hostOps1_10, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg1_11 : (hostOps1_11 : List (HloOp τ sig (Elt F))).Forall fun op => Proc.devRef .tc main_arg1 ∉ op.writes := by
  simp only [hostOps1_11, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg1_12 : (hostOps1_12 : List (HloOp τ sig (Elt F))).Forall fun op => Proc.devRef .tc main_arg1 ∉ op.writes := by
  simp only [hostOps1_12, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg1_13 : (hostOps1_13 : List (HloOp τ sig (Elt F))).Forall fun op => Proc.devRef .tc main_arg1 ∉ op.writes := by
  simp only [hostOps1_13, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg1_14 : (hostOps1_14 : List (HloOp τ sig (Elt F))).Forall fun op => Proc.devRef .tc main_arg1 ∉ op.writes := by
  simp only [hostOps1_14, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg1_15 : (hostOps1_15 : List (HloOp τ sig (Elt F))).Forall fun op => Proc.devRef .tc main_arg1 ∉ op.writes := by
  simp only [hostOps1_15, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg1_16 : (hostOps1_16 : List (HloOp τ sig (Elt F))).Forall fun op => Proc.devRef .tc main_arg1 ∉ op.writes := by
  simp only [hostOps1_16, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg1_17 : (hostOps1_17 : List (HloOp τ sig (Elt F))).Forall fun op => Proc.devRef .tc main_arg1 ∉ op.writes := by
  simp only [hostOps1_17, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
theorem nw_main_arg1_18 : (hostOps1_18 : List (HloOp τ sig (Elt F))).Forall fun op => Proc.devRef .tc main_arg1 ∉ op.writes := by
  simp only [hostOps1_18, List.Forall, StableHlo.nullary_writes, StableHlo.unary_writes, StableHlo.binary_writes, StableHlo.ternary_writes, StableHlo.quaternary_writes, Finset.mem_singleton]
  repeat' apply And.intro
  all_goals exact StableHlo.devRef_ne_of_ne (by decide)
/-- No operation after the launch writes `main_arg1`. -/
theorem tail_nw_main_arg1 : ∀ op ∈ (tailOps : List (List (HloOp τ sig (Elt F)))).flatten, Proc.devRef .tc main_arg1 ∉ op.writes := by
  intro op hop
  obtain ⟨ops, hops, hop⟩ := List.mem_flatten.mp hop
  rcases mem_tailOps hops with rfl | rfl | rfl | rfl | rfl | rfl | rfl | rfl | rfl | rfl | rfl | rfl | rfl | rfl | rfl | rfl | rfl | rfl | rfl
  · exact (List.forall_iff_forall_mem.mp nw_main_arg1_0) op hop
  · exact (List.forall_iff_forall_mem.mp nw_main_arg1_1) op hop
  · exact (List.forall_iff_forall_mem.mp nw_main_arg1_2) op hop
  · exact (List.forall_iff_forall_mem.mp nw_main_arg1_3) op hop
  · exact (List.forall_iff_forall_mem.mp nw_main_arg1_4) op hop
  · exact (List.forall_iff_forall_mem.mp nw_main_arg1_5) op hop
  · exact (List.forall_iff_forall_mem.mp nw_main_arg1_6) op hop
  · exact (List.forall_iff_forall_mem.mp nw_main_arg1_7) op hop
  · exact (List.forall_iff_forall_mem.mp nw_main_arg1_8) op hop
  · exact (List.forall_iff_forall_mem.mp nw_main_arg1_9) op hop
  · exact (List.forall_iff_forall_mem.mp nw_main_arg1_10) op hop
  · exact (List.forall_iff_forall_mem.mp nw_main_arg1_11) op hop
  · exact (List.forall_iff_forall_mem.mp nw_main_arg1_12) op hop
  · exact (List.forall_iff_forall_mem.mp nw_main_arg1_13) op hop
  · exact (List.forall_iff_forall_mem.mp nw_main_arg1_14) op hop
  · exact (List.forall_iff_forall_mem.mp nw_main_arg1_15) op hop
  · exact (List.forall_iff_forall_mem.mp nw_main_arg1_16) op hop
  · exact (List.forall_iff_forall_mem.mp nw_main_arg1_17) op hop
  · exact (List.forall_iff_forall_mem.mp nw_main_arg1_18) op hop
/-- No operation before the launch writes `main_arg1`: the launch finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, Finset.mem_singleton]
    repeat' apply And.intro
    all_goals exact StableHlo.devRef_ne_of_ne (by decide)))

/-- After the later stretches `main_arg1` (which is none of the launch's arrays) still holds its launch contents. -/
theorem W_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (tail_nw_main_arg1),
    Pipeline.withArrays_of_ne _ c (V0 m c) _ main_arg1 (by exact (by decide : ∀ w, Pipeline.arrRef spec0 w ≠ main_arg1))]
  exact V_main_arg1 m c

end Cert.KernelIdeal.Hand

end
-- ==== Proof.KI.Frame.lean ====
/-
  The launch's proof data and the program's run.  At each grid point the three input windows hold their blocks of X
  and of the two bf16 parts of A.  The one-element output window holds, after the body at point t, the running sum of
  its core's share: reset at the share's first tile, and at every later tile the previous tile's value plus this
  tile's contribution — the buffer is written back only after the share's last tile, so between tiles it is kept.
  With that data the body's obligation holds at every point (by the two symbolic runs of the body), the launch
  theorem for a program with host operations on both sides applies, and the frame claim follows: X is a launch array
  that is only read, W a buffer no operation writes.
-/
import proofs.«177308_j21492016349912_2_alg».proof.Proof.KI.BodyFirst
import proofs.«177308_j21492016349912_2_alg».proof.Proof.KI.BodyLater
import proofs.«177308_j21492016349912_2_alg».proof.Proof.KI.Args

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not (where it is not fetched
    its block index has not moved), for any proof data whose body leaves the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the output's staging buffer holds after the body -/

/-- The stores at a share's first tile cover the one-element block. -/
theorem coverFirst (c : Dev nD) (i : grid0.Coords) (arg2 : Memref sig .tc .vmem S10000x128 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S1x1x1 .f32) (harg5 : arg5.IsWhole) (hc : rowStart i)
    (x0 : Vec F S10000x128 .f32) (x1 : Vec F S128x128 .bf16) (x2 : Vec F S128x128 .bf16) (y : S1x1x1.Idx) :
    ∃ pc ∈ (runFirst c i arg2 harg2 arg3 harg3 arg4 harg4 arg5 harg5 hc x0 x1 x2).1, y ∈ pc.1.set :=
  View.cover_of_tiledL (runFirst c i arg2 harg2 arg3 harg3 arg4 harg4 arg5 harg5 hc x0 x1 x2).1 S1x1x1.size (by sl_kernel_rfl) y

/-- What the body leaves there at a share's first tile: its stored pieces read back. -/
def outFirst (c : Dev nD) (i : grid0.Coords) (arg2 : Memref sig .tc .vmem S10000x128 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S1x1x1 .f32) (harg5 : arg5.IsWhole) (hc : rowStart i)
    (x0 : Vec F S10000x128 .f32) (x1 : Vec F S128x128 .bf16) (x2 : Vec F S128x128 .bf16) : Vec F S1x1x1 .f32 :=
  outView.read (Elt F) (outView.writes (Elt F) outView.junk (runFirst c i arg2 harg2 arg3 harg3 arg4 harg4 arg5 harg5 hc x0 x1 x2).1)

/-- The stores at a later tile cover the one-element block. -/
theorem coverLater (c : Dev nD) (i : grid0.Coords) (arg2 : Memref sig .tc .vmem S10000x128 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S1x1x1 .f32) (harg5 : arg5.IsWhole) (hc : ¬rowStart i)
    (x0 : Vec F S10000x128 .f32) (x1 : Vec F S128x128 .bf16) (x2 : Vec F S128x128 .bf16) (xo : Vec F S1x1x1 .f32) (y : S1x1x1.Idx) :
    ∃ pc ∈ (runLater c i arg2 harg2 arg3 harg3 arg4 harg4 arg5 harg5 hc x0 x1 x2 xo).1, y ∈ pc.1.set :=
  View.cover_of_tiledL (runLater c i arg2 harg2 arg3 harg3 arg4 harg4 arg5 harg5 hc x0 x1 x2 xo).1 S1x1x1.size (by sl_kernel_rfl) y

/-- What the body leaves there at a later tile, given the running sum it found. -/
def outLater (c : Dev nD) (i : grid0.Coords) (arg2 : Memref sig .tc .vmem S10000x128 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S1x1x1 .f32) (harg5 : arg5.IsWhole) (hc : ¬rowStart i)
    (x0 : Vec F S10000x128 .f32) (x1 : Vec F S128x128 .bf16) (x2 : Vec F S128x128 .bf16) (xo : Vec F S1x1x1 .f32) : Vec F S1x1x1 .f32 :=
  outView.read (Elt F) (outView.writes (Elt F) outView.junk (runLater c i arg2 harg2 arg3 harg3 arg4 harg4 arg5 harg5 hc x0 x1 x2 xo).1)

/-- THE RUNNING SUM: what the output's staging buffer holds after the body at flattened position `n`. -/
def acc (c : Dev nD) : (n : ℕ) → n < cfg0.N → Vec F S1x1x1 .f32
  | 0, hn => outFirst c (grid0.coords ⟨0, hn⟩) (sx ⟨0, hn⟩) (hsx ⟨0, hn⟩) (sa ⟨0, hn⟩) (hsa ⟨0, hn⟩) (sb ⟨0, hn⟩) (hsb ⟨0, hn⟩) (so ⟨0, hn⟩) (hso ⟨0, hn⟩) ((rowStart_iff ⟨0, hn⟩).mpr (Nat.zero_mod _)) (iblk m c 0 ⟨0, hn⟩) (iblk m c 1 ⟨0, hn⟩) (iblk m c 2 ⟨0, hn⟩)
  | n + 1, hn =>
    if h0 : (n + 1) % 50 = 0 then
      outFirst c (grid0.coords ⟨n + 1, hn⟩) (sx ⟨n + 1, hn⟩) (hsx ⟨n + 1, hn⟩) (sa ⟨n + 1, hn⟩) (hsa ⟨n + 1, hn⟩) (sb ⟨n + 1, hn⟩) (hsb ⟨n + 1, hn⟩) (so ⟨n + 1, hn⟩) (hso ⟨n + 1, hn⟩) ((rowStart_iff ⟨n + 1, hn⟩).mpr h0) (iblk m c 0 ⟨n + 1, hn⟩) (iblk m c 1 ⟨n + 1, hn⟩) (iblk m c 2 ⟨n + 1, hn⟩)
    else
      outLater c (grid0.coords ⟨n + 1, hn⟩) (sx ⟨n + 1, hn⟩) (hsx ⟨n + 1, hn⟩) (sa ⟨n + 1, hn⟩) (hsa ⟨n + 1, hn⟩) (sb ⟨n + 1, hn⟩) (hsb ⟨n + 1, hn⟩) (so ⟨n + 1, hn⟩) (hso ⟨n + 1, hn⟩) (fun h => h0 ((rowStart_iff ⟨n + 1, hn⟩).mp h)) (iblk m c 0 ⟨n + 1, hn⟩) (iblk m c 1 ⟨n + 1, hn⟩) (iblk m c 2 ⟨n + 1, hn⟩) (acc c n (Nat.lt_of_succ_lt hn))

/-- At a share's first tile the running sum is the reset value. -/
theorem acc_first (c : Dev nD) (t : Fin cfg0.N) (h0 : t.val % 50 = 0) :
    acc m c t.val t.isLt = outFirst c (grid0.coords t) (sx t) (hsx t) (sa t) (hsa t) (sb t) (hsb t) (so t) (hso t) ((rowStart_iff t).mpr h0) (iblk m c 0 t) (iblk m c 1 t) (iblk m c 2 t) := by
  obtain ⟨n, hn⟩ := t
  cases n with
  | zero => exact rfl
  | succ n => exact (dif_pos h0).trans rfl

/-- At a later tile it is the carried value over what the tile before left. -/
theorem acc_later (c : Dev nD) (t : Fin cfg0.N) (h0 : ¬t.val % 50 = 0) :
    acc m c t.val t.isLt = outLater c (grid0.coords t) (sx t) (hsx t) (sa t) (hsa t) (sb t) (hsb t) (so t) (hso t) (fun h => h0 ((rowStart_iff t).mp h)) (iblk m c 0 t) (iblk m c 1 t) (iblk m c 2 t) (acc m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The launch's proof data on core `c`: the arrays as the launch finds them; after the body each input buffer at its
    block and the output buffer at the running sum; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (acc m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = (acc m c t.val t.isLt) := by dsimp only [dats]

theorem before_0 (c : Dev nD) (t : Fin cfg0.N) (d) : (dats m 0 c).before 0 t d = iblk m c 0 t :=
  before_in0_of m (dats m 0 c) (A_eq m c 0) (after_0 m c) t d
theorem before_1 (c : Dev nD) (t : Fin cfg0.N) (d) : (dats m 0 c).before 1 t d = iblk m c 1 t :=
  before_in1_of m (dats m 0 c) (A_eq m c 1) (after_1 m c) t d
theorem before_2 (c : Dev nD) (t : Fin cfg0.N) (d) : (dats m 0 c).before 2 t d = iblk m c 2 t :=
  before_in2_of m (dats m 0 c) (A_eq m c 2) (after_2 m c) t d

/-- At a later tile the output's buffer holds what the body left at the tile before: the buffer is written back only
    after a share's last tile, so it was not written back in between. -/
theorem before_3_later (c : Dev nD) (t : Fin cfg0.N) (h0 : ¬t.val % 50 = 0) (d) :
    (dats m 0 c).before 3 t d = (acc m c (t.val - 1) (Nat.lt_of_le_of_lt (Nat.sub_le _ _) t.isLt)) := by
  have hN : t.val < 100 := lt_of_lt_of_eq t.isLt (show cfg0.N = 100 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (sx t) fullShare ((dats m 0 c).before 0 t d))
    ∗ (∃ d, owns (c : Thread nD τ) (sa t) fullShare ((dats m 0 c).before 1 t d))
    ∗ (∃ d, owns (c : Thread nD τ) (sb t) fullShare ((dats m 0 c).before 2 t d))
    ∗ (∃ d, owns (c : Thread nD τ) (so t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (sx t) fullShare ((dats m 0 c).after 0 t)
    ∗ owns (c : Thread nD τ) (sa t) fullShare ((dats m 0 c).after 1 t)
    ∗ owns (c : Thread nD τ) (sb t) fullShare ((dats m 0 c).after 2 t)
    ∗ owns (c : Thread nD τ) (so t) fullShare ((dats m 0 c).after 3 t))

set_option maxHeartbeats 1600000 in
/-- The body at any point: the inputs' buffers hold their blocks; at a share's first tile the reset run applies, at a
    later tile the carried run over what the tile before left; the invariant passes through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  have hN : t.val < 100 := lt_of_lt_of_eq t.isLt (show cfg0.N = 100 from N_0)
  by_cases h0 : t.val % 50 = 0
  · rw [acc_first m c t h0]
    unfold outFirst
    iintro ⟨HΦ, Ho, ⟨%d0, H0⟩, ⟨%d1, H1⟩, ⟨%d2, H2⟩, ⟨%d3, H3⟩⟩
    iapply ((runFirst c (grid0.coords t) _ _ _ _ _ _ _ _ ((rowStart_iff t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverFirst c _ _ _ _ _ _ _ _ _ _ _ _ _)
  · rw [acc_later m c t h0]
    simp only [before_3_later m c t h0]
    unfold outLater
    iintro ⟨HΦ, Ho, ⟨%d0, H0⟩, ⟨%d1, H1⟩, ⟨%d2, H2⟩, ⟨%d3, H3⟩⟩
    iapply ((runLater c (grid0.coords t) _ _ _ _ _ _ _ _ (fun h => h0 ((rowStart_iff t).mp h)) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverLater c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, each of the launch's
    arrays ends at what the proof data computes and every other unscoped buffer as the later stretches leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The frame: the program runs to the end without a fault and both argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩) (run_main m ρ)

end Cert.KernelIdeal.Hand

end
-- ==== Proof.KI.Fold.lean ====
/-
  The running sum as a fold.  Reading back the pieces the body's two symbolic runs found: at a share's first tile the
  output buffer ends at the body's accumulation term applied to the stored zero, at a later tile at the same term
  applied to the running sum it found.  So after the body at point t the buffer holds the fold, over the tiles of t's
  share up to t, of "add this tile's sum of squared residuals", started from zero.
-/
import proofs.«177308_j21492016349912_2_alg».proof.Proof.KI.Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- A later tile leaves the accumulation term of its three input blocks and of the running sum it found. -/
theorem out_later (c : Dev nD) (i : grid0.Coords) (arg2 : Memref sig .tc .vmem S10000x128 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S1x1x1 .f32) (harg5 : arg5.IsWhole) (hc : ¬rowStart i)
    (x0 : Vec F S10000x128 .f32) (x1 : Vec F S128x128 .bf16) (x2 : Vec F S128x128 .bf16) (xo : Vec F S1x1x1 .f32) :
    outLater c i arg2 harg2 arg3 harg3 arg4 harg4 arg5 harg5 hc x0 x1 x2 xo = k0_pay2 x0 x1 x2 xo := by
  unfold outLater
  rw [View.read_writes_eq_canon _ _ _ (coverLater c i arg2 harg2 arg3 harg3 arg4 harg4 arg5 harg5 hc x0 x1 x2 xo)]
  unfold runLater
  dsimp only
  rw [View.canon_unit_zero zeros3]
  simp only [View.readAt_eq_ld, harg2.read_unread, harg3.read_unread, harg4.read_unread, harg5.read_unread,
    View.ld_unit_zero (S := S10000x128) zeros2, View.ld_unit_zero (S := S128x128) zeros2, View.ld_unit_zero (S := S1x1x1) zeros3]

/-- A share's first tile leaves the same term applied to the zero it has just stored. -/
theorem out_first (c : Dev nD) (i : grid0.Coords) (arg2 : Memref sig .tc .vmem S10000x128 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S1x1x1 .f32) (harg5 : arg5.IsWhole) (hc : rowStart i)
    (x0 : Vec F S10000x128 .f32) (x1 : Vec F S128x128 .bf16) (x2 : Vec F S128x128 .bf16) :
    outFirst c i arg2 harg2 arg3 harg3 arg4 harg4 arg5 harg5 hc x0 x1 x2 = k0_pay2 x0 x1 x2 (k0_pay1 (F := F)) := by
  unfold outFirst
  rw [View.read_writes_eq_canon _ _ _ (coverFirst c i arg2 harg2 arg3 harg3 arg4 harg4 arg5 harg5 hc x0 x1 x2)]
  unfold runFirst
  dsimp only
  sl_unfold_words
  rw [View.canon_cons_unit_zero (S := S1x1x1) zeros3, View.readCov_unit_zero (S := S1x1x1) _ zeros3]
  simp only [View.readAt_eq_ld, harg2.read_unread, harg3.read_unread, harg4.read_unread,
    View.ld_unit_zero (S := S10000x128) zeros2, View.ld_unit_zero (S := S128x128) zeros2]

/-- The reset value at point `n`: the accumulation term of the point's blocks over the stored zero. -/
def resetAt (c : Dev nD) (n : ℕ) (h : n < cfg0.N) : Vec F S1x1x1 .f32 :=
  k0_pay2 (iblk m c 0 ⟨n, h⟩) (iblk m c 1 ⟨n, h⟩) (iblk m c 2 ⟨n, h⟩) (k0_pay1 (F := F))
/-- The step at point `n`: the accumulation term of the point's blocks over the previous value. -/
def stepAt (c : Dev nD) (n : ℕ) (h : n < cfg0.N) (prev : Vec F S1x1x1 .f32) : Vec F S1x1x1 .f32 :=
  k0_pay2 (iblk m c 0 ⟨n, h⟩) (iblk m c 1 ⟨n, h⟩) (iblk m c 2 ⟨n, h⟩) prev

/-- The running sum at point `t` is the fold over the tiles of its share from the share's first tile up to `t`. -/
theorem acc_eq_fold (c : Dev nD) (t : ℕ) (ht : t < cfg0.N) (h' : 50 * (t / 50) + t % 50 < cfg0.N) :
    acc m c t ht = Pipeline.accAt (resetAt m c) (stepAt m c) (50 * (t / 50)) (t % 50) h' := by
  refine Pipeline.eq_accAt_of_mod (acc m c) 50 (resetAt m c) (stepAt m c) ?_ ?_ (by decide) t ht h'
  · intro n h hn
    exact (acc_first m c ⟨n, h⟩ hn).trans (out_first ..)
  · intro n h hn
    exact (acc_later m c ⟨n + 1, h⟩ hn).trans (out_later ..)

end Cert.KernelIdeal.Hand

end
-- ==== Proof.KI.Blocks.lean ====
/-
  Where a window's block sits in its array.  The X window's block at flattened point t is rows t·10000 … t·10000+9999
  (all 128 columns); the two windows over the bf16 parts of A always show the whole 128 × 128 matrix; the one-element
  output block at point t is element t / 50 of the two per-core sums.
-/
import proofs.«177308_j21492016349912_2_alg».proof.Proof.KI.Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block indices, decided once over the grid. -/
theorem idx_x : ∀ t : Fin cfg0.N, win0_0.index t 0 = t.val ∧ win0_0.index t 1 = 0 :=
  (by decide +kernel : ∀ t : Fin grid0.N, win0_0.index t 0 = t.val ∧ win0_0.index t 1 = 0)
theorem idx_a : ∀ t : Fin cfg0.N, win0_1.index t 0 = 0 ∧ win0_1.index t 1 = 0 :=
  (by decide +kernel : ∀ t : Fin grid0.N, win0_1.index t 0 = 0 ∧ win0_1.index t 1 = 0)
theorem idx_b : ∀ t : Fin cfg0.N, win0_2.index t 0 = 0 ∧ win0_2.index t 1 = 0 :=
  (by decide +kernel : ∀ t : Fin grid0.N, win0_2.index t 0 = 0 ∧ win0_2.index t 1 = 0)
theorem idx_o : ∀ t : Fin cfg0.N, win0_3.index t 0 = t.val / 50 ∧ win0_3.index t 1 = 0 ∧ win0_3.index t 2 = 0 :=
  (by decide +kernel : ∀ t : Fin grid0.N, win0_3.index t 0 = t.val / 50 ∧ win0_3.index t 1 = 0 ∧ win0_3.index t 2 = 0)

/-- Row `r` of tile `t` is row `t · 10000 + r` of the whole matrix. -/
def tileRow (t : Fin cfg0.N) (r : Fin 10000) : Fin 1000000 :=
  ⟨t.val * 10000 + r.val, by have := r.isLt; have := lt_of_lt_of_eq t.isLt (show cfg0.N = 100 from N_0); omega⟩

/-- The X window's block at point `t`, entry (r, k), is X at (t·10000 + r, k). -/
theorem iblk_x (c : Dev nD) (t : Fin cfg0.N) (r : Fin 10000) (k : Fin 128) :
    (iblk m c 0 t : Vec F S10000x128 .f32) (ix2 r k) = V m c main_arg0 (ix2 (tileRow t r) k) := by
  unfold iblk
  rw [View.read_apply]
  show V m c main_arg0 _ = V m c main_arg0 _
  refine congrArg (V m c main_arg0) ?_
  funext a
  apply Fin.ext
  match a with
  | ⟨0, _⟩ => show win0_0.index t 0 * 10000 + 1 * r.val = t.val * 10000 + r.val; rw [(idx_x t).1]; omega
  | ⟨1, _⟩ => show win0_0.index t 1 * 128 + 1 * k.val = k.val; rw [(idx_x t).2]; omega

/-- The window over the first bf16 part of A shows the whole matrix. -/
theorem iblk_a (c : Dev nD) (t : Fin cfg0.N) (k q : Fin 128) :
    (iblk m c 1 t : Vec F S128x128 .bf16) (ix2 k q) = V m c main_v17 (ix2 k q) := by
  unfold iblk
  rw [View.read_apply]
  show V m c main_v17 _ = V m c main_v17 _
  refine congrArg (V m c main_v17) ?_
  funext a
  apply Fin.ext
  match a with
  | ⟨0, _⟩ => show win0_1.index t 0 * 128 + 1 * k.val = k.val; rw [(idx_a t).1]; omega
  | ⟨1, _⟩ => show win0_1.index t 1 * 128 + 1 * q.val = q.val; rw [(idx_a t).2]; omega

/-- So does the window over the second part. -/
theorem iblk_b (c : Dev nD) (t : Fin cfg0.N) (k q : Fin 128) :
    (iblk m c 2 t : Vec F S128x128 .bf16) (ix2 k q) = V m c main_v20 (ix2 k q) := by
  unfold iblk
  rw [View.read_apply]
  show V m c main_v20 _ = V m c main_v20 _
  refine congrArg (V m c main_v20) ?_
  funext a
  apply Fin.ext
  match a with
  | ⟨0, _⟩ => show win0_2.index t 0 * 128 + 1 * k.val = k.val; rw [(idx_b t).1]; omega
  | ⟨1, _⟩ => show win0_2.index t 1 * 128 + 1 * q.val = q.val; rw [(idx_b t).2]; omega

end Cert.KernelIdeal.Hand

end
-- ==== Proof.KI.Payload.lean ====
/-
  The body's arithmetic read at an index, at the ideal values.  The body stores two one-element values: the zero it
  resets the accumulator to, and the accumulator plus the tile's sum of squared residuals.  A residual at row r and
  column q is the sum of three matrix products' entries there: x·a, x·b and (x − x)·a, each the sum over the 128
  contracted coordinates of the products of the operands' entries.  The sum of squares runs over every entry of the
  10000 × 128 tile.
-/
import proofs.«177308_j21492016349912_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The value the accumulator is reset to is zero at its one index. -/
theorem pay1_apply (j : S1x1x1.Idx) : k0_pay1 (F := Ideal) j = 0 := by
  unfold k0_pay1
  show Ideal.ofBits .f32 0x00000000#32 = 0
  exact Ideal.ofBits_zero_f32

/-- A 10000 × 128 by 128 × 128 matrix product into a zero accumulator, read at row r and column q: the sum over the
    contracted coordinate of the products of the two operands' entries. -/
theorem matmul_zero_apply (x : FVec Ideal S10000x128 .bf16) (w : FVec Ideal S128x128 .bf16) (r : Fin 10000) (q : Fin 128) :
    matmul dot_S10000x128_S128x128_S10000x128_1_0_0_1_n_n none x w (constant (F := Ideal) S10000x128 .f32 0x00000000#32) (ix2 r q)
      = ∑ k : Fin 128, x (ix2 r k) * w (ix2 k q) := by
  show FloatOps.matmul dot_S10000x128_S128x128_S10000x128_1_0_0_1_n_n none x w _ (ix2 r q) = _
  rw [Ideal.matmul_constant_zero_apply,
    ← Equiv.sum_comp (contrEquiv1 dot_S10000x128_S128x128_S10000x128_1_0_0_1_n_n 128 rfl rfl).symm]
  refine Finset.sum_congr rfl fun c _ => ?_
  have c2 := contrEquiv1_symm_val dot_S10000x128_S128x128_S10000x128_1_0_0_1_n_n 128 rfl rfl c
  have l2 : dot_S10000x128_S128x128_S10000x128_1_0_0_1_n_n.lhsIdx (ix2 r q)
      ((contrEquiv1 dot_S10000x128_S128x128_S10000x128_1_0_0_1_n_n 128 rfl rfl).symm c) = ix2 r c := by
    funext ax; apply Fin.ext
    match ax with
    | ⟨0, _⟩ => simp [DotDims.lhsIdx, dot_S10000x128_S128x128_S10000x128_1_0_0_1_n_n]; rfl
    | ⟨1, _⟩ => simp [DotDims.lhsIdx, dot_S10000x128_S128x128_S10000x128_1_0_0_1_n_n]; exact c2
  have r2 : dot_S10000x128_S128x128_S10000x128_1_0_0_1_n_n.rhsIdx (ix2 r q)
      ((contrEquiv1 dot_S10000x128_S128x128_S10000x128_1_0_0_1_n_n 128 rfl rfl).symm c) = ix2 c q := by
    funext ax; apply Fin.ext
    match ax with
    | ⟨0, _⟩ => simp [DotDims.rhsIdx, dot_S10000x128_S128x128_S10000x128_1_0_0_1_n_n]; exact c2
    | ⟨1, _⟩ => simp [DotDims.rhsIdx, dot_S10000x128_S128x128_S10000x128_1_0_0_1_n_n]; rfl
  rw [l2, r2]

/-! ## The residual at an entry -/

/-- A tile's residual at row r and column q, in the body's three-product form. -/
def tres (x0 : FVec Ideal S10000x128 .f32) (a b : FVec Ideal S128x128 .bf16) (r : Fin 10000) (q : Fin 128) : EReal :=
  ((∑ k : Fin 128, x0 (ix2 r k) * a (ix2 k q)) + ∑ k : Fin 128, x0 (ix2 r k) * b (ix2 k q))
    + ∑ k : Fin 128, (x0 (ix2 r k) - x0 (ix2 r k)) * a (ix2 k q)

/-- The body's residual vector — x·a plus x·b plus (x − x)·a, the operands narrowed to bf16, which changes nothing at the
    ideal values — read at row r and column q. -/
theorem resid_apply (x0 : FVec Ideal S10000x128 .f32) (a b : FVec Ideal S128x128 .bf16)
    (h : FTy.bits .bf16 < FTy.bits .f32) (r : Fin 10000) (q : Fin 128) :
    addf
        (addf
          (matmul dot_S10000x128_S128x128_S10000x128_1_0_0_1_n_n none (truncf .bf16 x0 h) a
            (constant (F := Ideal) S10000x128 .f32 0x00000000#32))
          (matmul dot_S10000x128_S128x128_S10000x128_1_0_0_1_n_n none (truncf .bf16 x0 h) b
            (constant (F := Ideal) S10000x128 .f32 0x00000000#32)))
        (matmul dot_S10000x128_S128x128_S10000x128_1_0_0_1_n_n none (truncf .bf16 (subf x0 x0) h) a
          (constant (F := Ideal) S10000x128 .f32 0x00000000#32))
        (ix2 r q)
      = tres x0 a b r q := by
  rw [addf_apply, addf_apply, matmul_zero_apply, matmul_zero_apply, matmul_zero_apply]
  rfl

/-! ## The sum over the tile -/

/-- An index set with a leading unit axis is the product of the other two coordinate ranges … -/
def idxEquiv1ab {a b : ℕ} : (⟨3, ![1, a, b]⟩ : Shape).Idx ≃ Fin a × Fin b where
  toFun i := (i 1, i 2)
  invFun p := ix3 (0 : Fin 1) p.1 p.2
  left_inv i := by
    funext d
    match d with
    | ⟨0, _⟩ => exact (Fin.eq_zero (i 0)).symm
    | ⟨1, _⟩ => rfl
    | ⟨2, _⟩ => rfl
  right_inv _ := rfl

/-- … so a sum over it is the double sum over those two coordinates. -/
theorem sum_idx1ab {M : Type*} [AddCommMonoid M] {a b : ℕ} (f : (⟨3, ![1, a, b]⟩ : Shape).Idx → M) :
    ∑ i, f i = ∑ r : Fin a, ∑ q : Fin b, f (ix3 (0 : Fin 1) r q) := by
  rw [← Equiv.sum_comp (idxEquiv1ab (a := a) (b := b)).symm f, Fintype.sum_prod_type]
  rfl

/-- The sum over an [a, b] array viewed as [1, a, b] is the double sum over its rows and columns. -/
theorem sum_cast_1ab {a b : ℕ} (v : (⟨2, ![a, b]⟩ : Shape).Idx → EReal)
    (h : (⟨2, ![a, b]⟩ : Shape).ShapeCasts ⟨3, ![1, a, b]⟩) :
    ∑ i : (⟨3, ![1, a, b]⟩ : Shape).Idx, shapeCast ⟨3, ![1, a, b]⟩ v h i = ∑ r : Fin a, ∑ q : Fin b, v (ix2 r q) := by
  rw [sum_idx1ab]
  exact Finset.sum_congr rfl fun r _ => Finset.sum_congr rfl fun q _ => shapeCast_ab_1ab_apply v h 0 r q

/-- The reduction of the [1, 10000, 128] view over its two tile axes, at its one index, is the sum over every entry. -/
theorem reduce_total (src : FVec Ideal S1x10000x128 .f32) (hφ : FKind.Formats .f32)
    (hacc : (0x00000000#32 : BitVec 32) = FKind.add.neutral .f32 hφ) (j : S1.Idx) :
    multiReduction (F := Ideal) .add [1, 2] S1 src 0x00000000#32 reduces_S1x10000x128_S1 hφ hacc j
      = ∑ i : S1x10000x128.Idx, src i :=
  Ideal.multiReduction_add_total src _ reduces_S1x10000x128_S1
    (fun b => match b with | ⟨0, _⟩ => rfl) hφ hacc j

/-! ## The stored value -/

/-- A shape cast reads the operand at the index with the same row-major position. -/
theorem shapeCast_eq {s t : Shape} {α : Type} (x : s.Idx → α) (h : s.ShapeCasts t) (j : t.Idx) :
    shapeCast t x h j = x (Shape.reshapeEquiv h j) := rfl

/-- The value the body stores in the accumulator: what it held, plus the sum over the whole tile of the squared residuals. -/
theorem pay2_apply (x0 : FVec Ideal S10000x128 .f32) (a b : FVec Ideal S128x128 .bf16) (xo : FVec Ideal S1x1x1 .f32)
    (j : S1x1x1.Idx) :
    k0_pay2 (F := Ideal) x0 a b xo j
      = xo j + ∑ r : Fin 10000, ∑ q : Fin 128, tres x0 a b r q * tres x0 a b r q := by
  unfold k0_pay2
  simp only [shapeCast_self]
  rw [addf_apply, broadcast_apply]
  refine congrArg (xo j + ·) ?_
  unfold extractAt
  refine (shapeCast_eq _ _ _).trans ?_
  refine (reduce_total _ _ _ _).trans ?_
  refine (sum_cast_1ab _ _).trans ?_
  refine Finset.sum_congr rfl fun r _ => Finset.sum_congr rfl fun q _ => ?_
  rw [mulf_apply, resid_apply]

end Cert.KernelIdeal.Payload

end
-- ==== Proof.KI.Sum.lean ====
/-
  The per-core partial sums over the extended reals.  At the ideal instance the body's accumulation term is "what it
  found, plus the tile's sum over rows r and columns q of the squared residual"; so the fold over a share's tiles is
  zero plus the sum of the tiles' contributions, and the element the launch writes back for core share k — after the
  share's last tile — is 0 + Σ_{s<50} (contribution of tile 50k + s).  The two elements cover the output array.
-/
import proofs.«177308_j21492016349912_2_alg».proof.Proof.KI.Fold
import proofs.«177308_j21492016349912_2_alg».proof.Proof.KI.Blocks
import proofs.«177308_j21492016349912_2_alg».proof.Proof.KI.Payload

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg)

/-- Tile `n`'s contribution: the sum over its rows and columns of the squared residual (zero past the grid). -/
def tileSum (c : Dev nD) (n : ℕ) : EReal :=
  if h : n < cfg0.N then
    ∑ r : Fin 10000, ∑ q : Fin 128,
      Payload.tres (iblk m c 0 ⟨n, h⟩) (iblk m c 1 ⟨n, h⟩) (iblk m c 2 ⟨n, h⟩) r q
        * Payload.tres (iblk m c 0 ⟨n, h⟩) (iblk m c 1 ⟨n, h⟩) (iblk m c 2 ⟨n, h⟩) r q
  else 0

/-- The running sum after point `t`: zero plus the contributions of the tiles of its share up to `t`. -/
theorem acc_apply (c : Dev nD) (t : ℕ) (ht : t < cfg0.N) (j : S1x1x1.Idx) :
    acc m c t ht j = 0 + ∑ s ∈ Finset.range (t % 50 + 1), tileSum m c (50 * (t / 50) + s) := by
  have h' : 50 * (t / 50) + t % 50 < cfg0.N := by rw [Nat.div_add_mod]; exact ht
  rw [acc_eq_fold m c t ht h']
  have hm : t % 50 < 50 := Nat.mod_lt _ (by decide)
  exact Pipeline.accAt_add_apply (ι := S1x1x1.Idx) (β := EReal) (resetAt m c) (stepAt m c) (fun _ => 0) (fun n _ => tileSum m c n) (50 * (t / 50)) 49
    (fun h i => by
      show k0_pay2 _ _ _ _ i = _
      rw [Payload.pay2_apply, Payload.pay1_apply]; unfold tileSum; rw [dif_pos h])
    (fun n h prev i _ _ => by
      show k0_pay2 _ _ _ _ i = _
      rw [Payload.pay2_apply]; unfold tileSum; rw [dif_pos h])
    (t % 50) (by omega) h' j

/-- The two per-core partial sums, as contents of the launch's output array. -/
def coreSums (c : Dev nD) : Buf (Elt Ideal) ((c : Thread nD τ).loc main_v21) :=
  fun (i : S2x1x1.Idx) => 0 + ∑ s ∈ Finset.range 50, tileSum m c (50 * (i 0).val + s)

/-- What a share's last tile writes back is its element of the partial sums. -/
theorem flushed_eq (c : Dev nD) (t : Fin cfg0.N) (hf : (cfg0.win 3).flush t = true) :
    (dats m 0 c).flushed 3 t = ((cfg0.win 3).blk t).view.read (Elt Ideal) (coreSums m c) := by
  have h49 : t.val % 50 = 49 := (flush0_3 t).mp hf
  show (cfg0.win 3).cut (grid0.coords t) ((dats m 0 c).after 3 t) = _
  rw [after_3]
  funext y
  rw [View.read_apply]
  show acc m c t.val t.isLt y = coreSums m c (((cfg0.win 3).blk t).view.emb y)
  rw [acc_apply, h49]
  unfold coreSums
  have hy : (y 0).val < 1 := (y 0).isLt
  have he : ((((cfg0.win 3).blk t).view.emb y) 0).val = t.val / 50 := by
    show win0_3.index t 0 * 1 + 1 * (y 0).val = _
    rw [(idx_o t).1]; omega
  rw [he]

end Cert.KernelIdeal.Hand

end
-- ==== Proof.KI.Final.lean ====
/-
  The launch's output array after the run.  Each of its two elements is covered by the block written back after the
  corresponding share's last tile (points 49 and 99), and what is written there is that share's partial sum; so the
  array ends holding the two partial sums.
-/
import proofs.«177308_j21492016349912_2_alg».proof.Proof.KI.Sum

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg)

/-- The output window's blocks are single elements, at every point. -/
theorem xs_o : ∀ t : Fin cfg0.N, win0_3.xsize (grid0.coords t) 0 = 1 ∧ win0_3.xsize (grid0.coords t) 1 = 1 ∧ win0_3.xsize (grid0.coords t) 2 = 1 :=
  (by decide +kernel : ∀ t : Fin grid0.N, win0_3.xsize (grid0.coords t) 0 = 1 ∧ win0_3.xsize (grid0.coords t) 1 = 1 ∧ win0_3.xsize (grid0.coords t) 2 = 1)

/-- The output array ends holding the two per-core partial sums. -/
theorem final_out (c : Dev nD) : (dats m 0 c).arrAt 3 cfg0.N = coreSums m c :=
  (dats m 0 c).arrAt_eq_of_cover 3 (coreSums m c) (flushed_eq m c) fun i => by
    have h0 : (i 0).val < 2 := (i 0).isLt
    have h1 : (i 1).val < 1 := (i 1).isLt
    have h2 : (i 2).val < 1 := (i 2).isLt
    obtain ⟨T, hT⟩ : ∃ T : Fin cfg0.N, T.val = 50 * (i 0).val + 49 :=
      ⟨⟨50 * (i 0).val + 49, by rw [show cfg0.N = 100 from N_0]; omega⟩, rfl⟩
    refine ⟨T, (flush0_3 T).mpr (by omega), ?_⟩
    show i ∈ ((View.whole main_v21).slice (win0_3.rect T)).set
    rw [View.set_slice_whole, Rect.mem_set_unit]
    intro a
    have hx := xs_o T
    have ho := idx_o T
    match a with
    | ⟨0, _⟩ =>
      show win0_3.index T 0 * win0_3.size 0 ≤ (i 0 : Nat) ∧ (i 0 : Nat) < win0_3.index T 0 * win0_3.size 0 + win0_3.xsize (grid0.coords T) 0
      rw [ho.1, hx.1, show win0_3.size 0 = 1 from rfl]; omega
    | ⟨1, _⟩ =>
      show win0_3.index T 1 * win0_3.size 1 ≤ (i 1 : Nat) ∧ (i 1 : Nat) < win0_3.index T 1 * win0_3.size 1 + win0_3.xsize (grid0.coords T) 1
      rw [ho.2.1, hx.2.1, show win0_3.size 1 = 1 from rfl]; omega
    | ⟨2, _⟩ =>
      show win0_3.index T 2 * win0_3.size 2 ≤ (i 2 : Nat) ∧ (i 2 : Nat) < win0_3.index T 2 * win0_3.size 2 + win0_3.xsize (grid0.coords T) 2
      rw [ho.2.2, hx.2.2, show win0_3.size 2 = 1 from rfl]; omega

end Cert.KernelIdeal.Hand

end
-- ==== Proof.RefRun.lean ====
import proofs.«177308_j21492016349912_2_alg».proof.Proof.Gen.ReferenceIdeal
import Idealize.ShloMosaic.Lib.StableHlo.Run

/-!
# The reference program's run

The reference computes, from a data matrix `X` (1000000 × 128) and a weight matrix `W` (128 × 128),

  loss = ½ · Σ (X − X · Wmᵀ)² / n + ½ · h + ½ · h · h + 0.01 · Σ |Wm|,

where `Wm = W ∘ (1 − I)` is `W` with its diagonal zeroed and `h = Σ_{k=1}^{9} tr((Wm ∘ Wm)^k) / k!` is the truncated
power series of the trace of the matrix exponential. Its `@main` is a straight line of tensor operations; the nine traces
are calls of one outlined function (the diagonal selected by comparing a row iota with a column iota, the rest replaced
by zero, then summed), whose body runs on the buffers the call names. This file lists the operations in the order they
run, with every call's body written out at its call site, and reads the run back: every execution terminates with the
result buffer at the composed term below and the two arguments unchanged.
-/

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- `@main`'s 171 operations in order: its own 72, and at each of the nine calls of the trace function that function's
    eleven (two iotas, the zero offset and its broadcast, their sum, the comparison with the column iota, the float zero
    and its broadcast, the select of the diagonal, the zero the sum starts from, the sum over both axes). -/
abbrev ops : List (HloOp τ sig (Elt F)) :=
  [ nullary main_v0 (iotaInDim S128x128 32 0),
    nullary main_v1 (iotaInDim S128x128 32 1),
    nullary main_c (constantI S_ 32 0#32),
    unary main_c main_v2 (broadcastInDim S128x128 ![] bcast_S_S128x128 : (⟨S_, .i32⟩ : BufTy).Contents (Elt F) → (⟨S128x128, .i32⟩ : BufTy).Contents (Elt F)),
    binary main_v0 main_v2 main_v3 (addi : (⟨S128x128, .i32⟩ : BufTy).Contents (Elt F) → (⟨S128x128, .i32⟩ : BufTy).Contents (Elt F) → (⟨S128x128, .i32⟩ : BufTy).Contents (Elt F)),
    binary main_v3 main_v1 main_v4 (cmpi .eq : (⟨S128x128, .i32⟩ : BufTy).Contents (Elt F) → (⟨S128x128, .i32⟩ : BufTy).Contents (Elt F) → (⟨S128x128, .i1⟩ : BufTy).Contents (Elt F)),
    unary main_v4 main_v5 (uitofp .f32 : (⟨S128x128, .i1⟩ : BufTy).Contents (Elt F) → (⟨S128x128, .f32⟩ : BufTy).Contents (Elt F)),
    nullary main_cst (constant S_ .f32 0x3F800000#32),
    unary main_cst main_v6 (broadcastInDim S128x128 ![] bcast_S_S128x128 : (⟨S_, .f32⟩ : BufTy).Contents (Elt F) → (⟨S128x128, .f32⟩ : BufTy).Contents (Elt F)),
    binary main_v6 main_v5 main_v7 (subf : (⟨S128x128, .f32⟩ : BufTy).Contents (Elt F) → (⟨S128x128, .f32⟩ : BufTy).Contents (Elt F) → (⟨S128x128, .f32⟩ : BufTy).Contents (Elt F)),
    binary main_arg1 main_v7 main_v8 (mulf : (⟨S128x128, .f32⟩ : BufTy).Contents (Elt F) → (⟨S128x128, .f32⟩ : BufTy).Contents (Elt F) → (⟨S128x128, .f32⟩ : BufTy).Contents (Elt F)),
    unary main_v8 main_v9 ((transpose S128x128 [1, 0] · transposes_S128x128_S128x128_1_0) : (⟨S128x128, .f32⟩ : BufTy).Contents (Elt F) → (⟨S128x128, .f32⟩ : BufTy).Contents (Elt F)),
    binary main_arg0 main_v9 main_v10 ((fun l r => Host.dotGeneral dot_S1000000x128_S128x128_S1000000x128_1_0_0_1_n_n none l r) : (⟨S1000000x128, .f32⟩ : BufTy).Contents (Elt F) → (⟨S128x128, .f32⟩ : BufTy).Contents (Elt F) → (⟨S1000000x128, .f32⟩ : BufTy).Contents (Elt F)),
    binary main_arg0 main_v10 main_v11 (subf : (⟨S1000000x128, .f32⟩ : BufTy).Contents (Elt F) → (⟨S1000000x128, .f32⟩ : BufTy).Contents (Elt F) → (⟨S1000000x128, .f32⟩ : BufTy).Contents (Elt F)),
    binary main_v11 main_v11 main_v12 (mulf : (⟨S1000000x128, .f32⟩ : BufTy).Contents (Elt F) → (⟨S1000000x128, .f32⟩ : BufTy).Contents (Elt F) → (⟨S1000000x128, .f32⟩ : BufTy).Contents (Elt F)),
    nullary main_cst_0 (constant S_ .f32 0x00000000#32),
    binary main_v12 main_cst_0 main_v13 ((fun x v => Host.reduceAdd x v reducesTo_S1000000x128_S_d0_1 h_S_) : (⟨S1000000x128, .f32⟩ : BufTy).Contents (Elt F) → (⟨S_, .f32⟩ : BufTy).Contents (Elt F) → (⟨S_, .f32⟩ : BufTy).Contents (Elt F)),
    nullary main_cst_1 (constant S_ .f32 0x3F000000#32),
    binary main_cst_1 main_v13 main_v14 (mulf : (⟨S_, .f32⟩ : BufTy).Contents (Elt F) → (⟨S_, .f32⟩ : BufTy).Contents (Elt F) → (⟨S_, .f32⟩ : BufTy).Contents (Elt F)),
    nullary main_cst_2 (constant S_ .f32 0x49742400#32),
    binary main_v14 main_cst_2 main_v15 (Host.divf : (⟨S_, .f32⟩ : BufTy).Contents (Elt F) → (⟨S_, .f32⟩ : BufTy).Contents (Elt F) → (⟨S_, .f32⟩ : BufTy).Contents (Elt F)),
    binary main_v8 main_v8 main_v16 (mulf : (⟨S128x128, .f32⟩ : BufTy).Contents (Elt F) → (⟨S128x128, .f32⟩ : BufTy).Contents (Elt F) → (⟨S128x128, .f32⟩ : BufTy).Contents (Elt F)),
    TRef.nullary main_call0.v0 (iotaInDim S128x128 32 0),
    TRef.nullary main_call0.v1 (iotaInDim S128x128 32 1),
    TRef.nullary main_call0.c (constantI S_ 32 0#32),
    TRef.unary main_call0.c main_call0.v2 (broadcastInDim S128x128 ![] bcast_S_S128x128),
    TRef.binary main_call0.v0 main_call0.v2 main_call0.v3 addi,
    TRef.binary main_call0.v3 main_call0.v1 main_call0.v4 (cmpi .eq),
    TRef.nullary main_call0.cst (constant S_ .f32 0x00000000#32),
    TRef.unary main_call0.cst main_call0.v5 (broadcastInDim S128x128 ![] bcast_S_S128x128),
    TRef.ternary main_call0.v4 (.of main_v16) main_call0.v5 main_call0.call0.v0 select,
    TRef.nullary main_call0.cst_0 (constant S_ .f32 0x00000000#32),
    TRef.binary main_call0.call0.v0 main_call0.cst_0 main_call0.v7 (fun x v => Host.reduceAdd x v reducesTo_S128x128_S_d0_1 h_S_),
    nullary main_cst_3 (constant S_ .f32 0x3F800000#32),
    binary main_v17 main_cst_3 main_v18 (Host.divf : (⟨S_, .f32⟩ : BufTy).Contents (Elt F) → (⟨S_, .f32⟩ : BufTy).Contents (Elt F) → (⟨S_, .f32⟩ : BufTy).Contents (Elt F)),
    nullary main_cst_4 (constant S_ .f32 0x00000000#32),
    binary main_cst_4 main_v18 main_v19 (addf : (⟨S_, .f32⟩ : BufTy).Contents (Elt F) → (⟨S_, .f32⟩ : BufTy).Contents (Elt F) → (⟨S_, .f32⟩ : BufTy).Contents (Elt F)),
    binary main_v16 main_v16 main_v20 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    TRef.nullary main_call1.v0 (iotaInDim S128x128 32 0),
    TRef.nullary main_call1.v1 (iotaInDim S128x128 32 1),
    TRef.nullary main_call1.c (constantI S_ 32 0#32),
    TRef.unary main_call1.c main_call1.v2 (broadcastInDim S128x128 ![] bcast_S_S128x128),
    TRef.binary main_call1.v0 main_call1.v2 main_call1.v3 addi,
    TRef.binary main_call1.v3 main_call1.v1 main_call1.v4 (cmpi .eq),
    TRef.nullary main_call1.cst (constant S_ .f32 0x00000000#32),
    TRef.unary main_call1.cst main_call1.v5 (broadcastInDim S128x128 ![] bcast_S_S128x128),
    TRef.ternary main_call1.v4 (.of main_v20) main_call1.v5 main_call1.call0.v0 select,
    TRef.nullary main_call1.cst_0 (constant S_ .f32 0x00000000#32),
    TRef.binary main_call1.call0.v0 main_call1.cst_0 main_call1.v7 (fun x v => Host.reduceAdd x v reducesTo_S128x128_S_d0_1 h_S_),
    nullary main_cst_5 (constant S_ .f32 0x40000000#32),
    binary main_v21 main_cst_5 main_v22 (Host.divf : (⟨S_, .f32⟩ : BufTy).Contents (Elt F) → (⟨S_, .f32⟩ : BufTy).Contents (Elt F) → (⟨S_, .f32⟩ : BufTy).Contents (Elt F)),
    binary main_v19 main_v22 main_v23 (addf : (⟨S_, .f32⟩ : BufTy).Contents (Elt F) → (⟨S_, .f32⟩ : BufTy).Contents (Elt F) → (⟨S_, .f32⟩ : BufTy).Contents (Elt F)),
    binary main_v20 main_v16 main_v24 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    TRef.nullary main_call2.v0 (iotaInDim S128x128 32 0),
    TRef.nullary main_call2.v1 (iotaInDim S128x128 32 1),
    TRef.nullary main_call2.c (constantI S_ 32 0#32),
    TRef.unary main_call2.c main_call2.v2 (broadcastInDim S128x128 ![] bcast_S_S128x128),
    TRef.binary main_call2.v0 main_call2.v2 main_call2.v3 addi,
    TRef.binary main_call2.v3 main_call2.v1 main_call2.v4 (cmpi .eq),
    TRef.nullary main_call2.cst (constant S_ .f32 0x00000000#32),
    TRef.unary main_call2.cst main_call2.v5 (broadcastInDim S128x128 ![] bcast_S_S128x128),
    TRef.ternary main_call2.v4 (.of main_v24) main_call2.v5 main_call2.call0.v0 select,
    TRef.nullary main_call2.cst_0 (constant S_ .f32 0x00000000#32),
    TRef.binary main_call2.call0.v0 main_call2.cst_0 main_call2.v7 (fun x v => Host.reduceAdd x v reducesTo_S128x128_S_d0_1 h_S_),
    nullary main_cst_6 (constant S_ .f32 0x40C00000#32),
    binary main_v25 main_cst_6 main_v26 (Host.divf : (⟨S_, .f32⟩ : BufTy).Contents (Elt F) → (⟨S_, .f32⟩ : BufTy).Contents (Elt F) → (⟨S_, .f32⟩ : BufTy).Contents (Elt F)),
    binary main_v23 main_v26 main_v27 (addf : (⟨S_, .f32⟩ : BufTy).Contents (Elt F) → (⟨S_, .f32⟩ : BufTy).Contents (Elt F) → (⟨S_, .f32⟩ : BufTy).Contents (Elt F)),
    binary main_v24 main_v16 main_v28 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    TRef.nullary main_call3.v0 (iotaInDim S128x128 32 0),
    TRef.nullary main_call3.v1 (iotaInDim S128x128 32 1),
    TRef.nullary main_call3.c (constantI S_ 32 0#32),
    TRef.unary main_call3.c main_call3.v2 (broadcastInDim S128x128 ![] bcast_S_S128x128),
    TRef.binary main_call3.v0 main_call3.v2 main_call3.v3 addi,
    TRef.binary main_call3.v3 main_call3.v1 main_call3.v4 (cmpi .eq),
    TRef.nullary main_call3.cst (constant S_ .f32 0x00000000#32),
    TRef.unary main_call3.cst main_call3.v5 (broadcastInDim S128x128 ![] bcast_S_S128x128),
    TRef.ternary main_call3.v4 (.of main_v28) main_call3.v5 main_call3.call0.v0 select,
    TRef.nullary main_call3.cst_0 (constant S_ .f32 0x00000000#32),
    TRef.binary main_call3.call0.v0 main_call3.cst_0 main_call3.v7 (fun x v => Host.reduceAdd x v reducesTo_S128x128_S_d0_1 h_S_),
    nullary main_cst_7 (constant S_ .f32 0x41C00000#32),
    binary main_v29 main_cst_7 main_v30 (Host.divf : (⟨S_, .f32⟩ : BufTy).Contents (Elt F) → (⟨S_, .f32⟩ : BufTy).Contents (Elt F) → (⟨S_, .f32⟩ : BufTy).Contents (Elt F)),
    binary main_v27 main_v30 main_v31 (addf : (⟨S_, .f32⟩ : BufTy).Contents (Elt F) → (⟨S_, .f32⟩ : BufTy).Contents (Elt F) → (⟨S_, .f32⟩ : BufTy).Contents (Elt F)),
    binary main_v28 main_v16 main_v32 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    TRef.nullary main_call4.v0 (iotaInDim S128x128 32 0),
    TRef.nullary main_call4.v1 (iotaInDim S128x128 32 1),
    TRef.nullary main_call4.c (constantI S_ 32 0#32),
    TRef.unary main_call4.c main_call4.v2 (broadcastInDim S128x128 ![] bcast_S_S128x128),
    TRef.binary main_call4.v0 main_call4.v2 main_call4.v3 addi,
    TRef.binary main_call4.v3 main_call4.v1 main_call4.v4 (cmpi .eq),
    TRef.nullary main_call4.cst (constant S_ .f32 0x00000000#32),
    TRef.unary main_call4.cst main_call4.v5 (broadcastInDim S128x128 ![] bcast_S_S128x128),
    TRef.ternary main_call4.v4 (.of main_v32) main_call4.v5 main_call4.call0.v0 select,
    TRef.nullary main_call4.cst_0 (constant S_ .f32 0x00000000#32),
    TRef.binary main_call4.call0.v0 main_call4.cst_0 main_call4.v7 (fun x v => Host.reduceAdd x v reducesTo_S128x128_S_d0_1 h_S_),
    nullary main_cst_8 (constant S_ .f32 0x42F00000#32),
    binary main_v33 main_cst_8 main_v34 (Host.divf : (⟨S_, .f32⟩ : BufTy).Contents (Elt F) → (⟨S_, .f32⟩ : BufTy).Contents (Elt F) → (⟨S_, .f32⟩ : BufTy).Contents (Elt F)),
    binary main_v31 main_v34 main_v35 (addf : (⟨S_, .f32⟩ : BufTy).Contents (Elt F) → (⟨S_, .f32⟩ : BufTy).Contents (Elt F) → (⟨S_, .f32⟩ : BufTy).Contents (Elt F)),
    binary main_v32 main_v16 main_v36 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    TRef.nullary main_call5.v0 (iotaInDim S128x128 32 0),
    TRef.nullary main_call5.v1 (iotaInDim S128x128 32 1),
    TRef.nullary main_call5.c (constantI S_ 32 0#32),
    TRef.unary main_call5.c main_call5.v2 (broadcastInDim S128x128 ![] bcast_S_S128x128),
    TRef.binary main_call5.v0 main_call5.v2 main_call5.v3 addi,
    TRef.binary main_call5.v3 main_call5.v1 main_call5.v4 (cmpi .eq),
    TRef.nullary main_call5.cst (constant S_ .f32 0x00000000#32),
    TRef.unary main_call5.cst main_call5.v5 (broadcastInDim S128x128 ![] bcast_S_S128x128),
    TRef.ternary main_call5.v4 (.of main_v36) main_call5.v5 main_call5.call0.v0 select,
    TRef.nullary main_call5.cst_0 (constant S_ .f32 0x00000000#32),
    TRef.binary main_call5.call0.v0 main_call5.cst_0 main_call5.v7 (fun x v => Host.reduceAdd x v reducesTo_S128x128_S_d0_1 h_S_),
    nullary main_cst_9 (constant S_ .f32 0x44340000#32),
    binary main_v37 main_cst_9 main_v38 (Host.divf : (⟨S_, .f32⟩ : BufTy).Contents (Elt F) → (⟨S_, .f32⟩ : BufTy).Contents (Elt F) → (⟨S_, .f32⟩ : BufTy).Contents (Elt F)),
    binary main_v35 main_v38 main_v39 (addf : (⟨S_, .f32⟩ : BufTy).Contents (Elt F) → (⟨S_, .f32⟩ : BufTy).Contents (Elt F) → (⟨S_, .f32⟩ : BufTy).Contents (Elt F)),
    binary main_v36 main_v16 main_v40 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    TRef.nullary main_call6.v0 (iotaInDim S128x128 32 0),
    TRef.nullary main_call6.v1 (iotaInDim S128x128 32 1),
    TRef.nullary main_call6.c (constantI S_ 32 0#32),
    TRef.unary main_call6.c main_call6.v2 (broadcastInDim S128x128 ![] bcast_S_S128x128),
    TRef.binary main_call6.v0 main_call6.v2 main_call6.v3 addi,
    TRef.binary main_call6.v3 main_call6.v1 main_call6.v4 (cmpi .eq),
    TRef.nullary main_call6.cst (constant S_ .f32 0x00000000#32),
    TRef.unary main_call6.cst main_call6.v5 (broadcastInDim S128x128 ![] bcast_S_S128x128),
    TRef.ternary main_call6.v4 (.of main_v40) main_call6.v5 main_call6.call0.v0 select,
    TRef.nullary main_call6.cst_0 (constant S_ .f32 0x00000000#32),
    TRef.binary main_call6.call0.v0 main_call6.cst_0 main_call6.v7 (fun x v => Host.reduceAdd x v reducesTo_S128x128_S_d0_1 h_S_),
    nullary main_cst_10 (constant S_ .f32 0x459D8000#32),
    binary main_v41 main_cst_10 main_v42 (Host.divf : (⟨S_, .f32⟩ : BufTy).Contents (Elt F) → (⟨S_, .f32⟩ : BufTy).Contents (Elt F) → (⟨S_, .f32⟩ : BufTy).Contents (Elt F)),
    binary main_v39 main_v42 main_v43 (addf : (⟨S_, .f32⟩ : BufTy).Contents (Elt F) → (⟨S_, .f32⟩ : BufTy).Contents (Elt F) → (⟨S_, .f32⟩ : BufTy).Contents (Elt F)),
    binary main_v40 main_v16 main_v44 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    TRef.nullary main_call7.v0 (iotaInDim S128x128 32 0),
    TRef.nullary main_call7.v1 (iotaInDim S128x128 32 1),
    TRef.nullary main_call7.c (constantI S_ 32 0#32),
    TRef.unary main_call7.c main_call7.v2 (broadcastInDim S128x128 ![] bcast_S_S128x128),
    TRef.binary main_call7.v0 main_call7.v2 main_call7.v3 addi,
    TRef.binary main_call7.v3 main_call7.v1 main_call7.v4 (cmpi .eq),
    TRef.nullary main_call7.cst (constant S_ .f32 0x00000000#32),
    TRef.unary main_call7.cst main_call7.v5 (broadcastInDim S128x128 ![] bcast_S_S128x128),
    TRef.ternary main_call7.v4 (.of main_v44) main_call7.v5 main_call7.call0.v0 select,
    TRef.nullary main_call7.cst_0 (constant S_ .f32 0x00000000#32),
    TRef.binary main_call7.call0.v0 main_call7.cst_0 main_call7.v7 (fun x v => Host.reduceAdd x v reducesTo_S128x128_S_d0_1 h_S_),
    nullary main_cst_11 (constant S_ .f32 0x471D8000#32),
    binary main_v45 main_cst_11 main_v46 (Host.divf : (⟨S_, .f32⟩ : BufTy).Contents (Elt F) → (⟨S_, .f32⟩ : BufTy).Contents (Elt F) → (⟨S_, .f32⟩ : BufTy).Contents (Elt F)),
    binary main_v43 main_v46 main_v47 (addf : (⟨S_, .f32⟩ : BufTy).Contents (Elt F) → (⟨S_, .f32⟩ : BufTy).Contents (Elt F) → (⟨S_, .f32⟩ : BufTy).Contents (Elt F)),
    binary main_v44 main_v16 main_v48 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    TRef.nullary main_call8.v0 (iotaInDim S128x128 32 0),
    TRef.nullary main_call8.v1 (iotaInDim S128x128 32 1),
    TRef.nullary main_call8.c (constantI S_ 32 0#32),
    TRef.unary main_call8.c main_call8.v2 (broadcastInDim S128x128 ![] bcast_S_S128x128),
    TRef.binary main_call8.v0 main_call8.v2 main_call8.v3 addi,
    TRef.binary main_call8.v3 main_call8.v1 main_call8.v4 (cmpi .eq),
    TRef.nullary main_call8.cst (constant S_ .f32 0x00000000#32),
    TRef.unary main_call8.cst main_call8.v5 (broadcastInDim S128x128 ![] bcast_S_S128x128),
    TRef.ternary main_call8.v4 (.of main_v48) main_call8.v5 main_call8.call0.v0 select,
    TRef.nullary main_call8.cst_0 (constant S_ .f32 0x00000000#32),
    TRef.binary main_call8.call0.v0 main_call8.cst_0 main_call8.v7 (fun x v => Host.reduceAdd x v reducesTo_S128x128_S_d0_1 h_S_),
    nullary main_cst_12 (constant S_ .f32 0x48B13000#32),
    binary main_v49 main_cst_12 main_v50 (Host.divf : (⟨S_, .f32⟩ : BufTy).Contents (Elt F) → (⟨S_, .f32⟩ : BufTy).Contents (Elt F) → (⟨S_, .f32⟩ : BufTy).Contents (Elt F)),
    binary main_v47 main_v50 main_v51 (addf : (⟨S_, .f32⟩ : BufTy).Contents (Elt F) → (⟨S_, .f32⟩ : BufTy).Contents (Elt F) → (⟨S_, .f32⟩ : BufTy).Contents (Elt F)),
    binary main_v48 main_v16 main_v52 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    unary main_v8 main_v53 (Host.absf : (⟨S128x128, .f32⟩ : BufTy).Contents (Elt F) → (⟨S128x128, .f32⟩ : BufTy).Contents (Elt F)),
    nullary main_cst_13 (constant S_ .f32 0x00000000#32),
    binary main_v53 main_cst_13 main_v54 ((fun x v => Host.reduceAdd x v reducesTo_S128x128_S_d0_1 h_S_) : (⟨S128x128, .f32⟩ : BufTy).Contents (Elt F) → (⟨S_, .f32⟩ : BufTy).Contents (Elt F) → (⟨S_, .f32⟩ : BufTy).Contents (Elt F)),
    nullary main_cst_14 (constant S_ .f32 0x3C23D70A#32),
    binary main_cst_14 main_v54 main_v55 (mulf : (⟨S_, .f32⟩ : BufTy).Contents (Elt F) → (⟨S_, .f32⟩ : BufTy).Contents (Elt F) → (⟨S_, .f32⟩ : BufTy).Contents (Elt F)),
    nullary main_cst_15 (constant S_ .f32 0x3F000000#32),
    binary main_cst_15 main_v51 main_v56 (mulf : (⟨S_, .f32⟩ : BufTy).Contents (Elt F) → (⟨S_, .f32⟩ : BufTy).Contents (Elt F) → (⟨S_, .f32⟩ : BufTy).Contents (Elt F)),
    nullary main_cst_16 (constant S_ .f32 0x3F000000#32),
    binary main_cst_16 main_v51 main_v57 (mulf : (⟨S_, .f32⟩ : BufTy).Contents (Elt F) → (⟨S_, .f32⟩ : BufTy).Contents (Elt F) → (⟨S_, .f32⟩ : BufTy).Contents (Elt F)),
    binary main_v57 main_v51 main_v58 (mulf : (⟨S_, .f32⟩ : BufTy).Contents (Elt F) → (⟨S_, .f32⟩ : BufTy).Contents (Elt F) → (⟨S_, .f32⟩ : BufTy).Contents (Elt F)),
    binary main_v56 main_v58 main_v59 (addf : (⟨S_, .f32⟩ : BufTy).Contents (Elt F) → (⟨S_, .f32⟩ : BufTy).Contents (Elt F) → (⟨S_, .f32⟩ : BufTy).Contents (Elt F)),
    binary main_v15 main_v59 main_v60 (addf : (⟨S_, .f32⟩ : BufTy).Contents (Elt F) → (⟨S_, .f32⟩ : BufTy).Contents (Elt F) → (⟨S_, .f32⟩ : BufTy).Contents (Elt F)),
    binary main_v60 main_v55 main_v61 (addf : (⟨S_, .f32⟩ : BufTy).Contents (Elt F) → (⟨S_, .f32⟩ : BufTy).Contents (Elt F) → (⟨S_, .f32⟩ : BufTy).Contents (Elt F)) ]

set_option maxRecDepth 16384 in
set_option maxHeartbeats 4000000 in
/-- `@main` is that straight line: its two windows in order, the trace function's body unfolded at each call and each
    call's record at its fields; both sides are one chain of steps once sequencing is reassociated. -/
theorem main_eq (c : Dev nD) : main (F := F) c = seq ops := by
  simp only [main, main_part0, main_part1, fn_trace.body, fn_where.body, seq, bind_assoc, pure_bind]

/-- The signature scopes no buffer and no semaphore: the program is tensor values only. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., nullary_bufs_sub .., nullary_bufs_sub .., unary_bufs_sub .., binary_bufs_sub .., binary_bufs_sub ..,
    unary_bufs_sub .., nullary_bufs_sub .., unary_bufs_sub .., binary_bufs_sub .., binary_bufs_sub .., unary_bufs_sub ..,
    binary_bufs_sub .., binary_bufs_sub .., binary_bufs_sub .., nullary_bufs_sub .., binary_bufs_sub .., nullary_bufs_sub ..,
    binary_bufs_sub .., nullary_bufs_sub .., binary_bufs_sub .., binary_bufs_sub .., nullary_bufs_sub .., nullary_bufs_sub ..,
    nullary_bufs_sub .., unary_bufs_sub .., binary_bufs_sub .., binary_bufs_sub .., nullary_bufs_sub .., unary_bufs_sub ..,
    ternary_bufs_sub .., nullary_bufs_sub .., binary_bufs_sub .., nullary_bufs_sub .., binary_bufs_sub .., nullary_bufs_sub ..,
    binary_bufs_sub .., binary_bufs_sub .., nullary_bufs_sub .., nullary_bufs_sub .., nullary_bufs_sub .., unary_bufs_sub ..,
    binary_bufs_sub .., binary_bufs_sub .., nullary_bufs_sub .., unary_bufs_sub .., ternary_bufs_sub .., nullary_bufs_sub ..,
    binary_bufs_sub .., nullary_bufs_sub .., binary_bufs_sub .., binary_bufs_sub .., binary_bufs_sub .., nullary_bufs_sub ..,
    nullary_bufs_sub .., nullary_bufs_sub .., unary_bufs_sub .., binary_bufs_sub .., binary_bufs_sub .., nullary_bufs_sub ..,
    unary_bufs_sub .., ternary_bufs_sub .., nullary_bufs_sub .., binary_bufs_sub .., nullary_bufs_sub .., binary_bufs_sub ..,
    binary_bufs_sub .., binary_bufs_sub .., nullary_bufs_sub .., nullary_bufs_sub .., nullary_bufs_sub .., unary_bufs_sub ..,
    binary_bufs_sub .., binary_bufs_sub .., nullary_bufs_sub .., unary_bufs_sub .., ternary_bufs_sub .., nullary_bufs_sub ..,
    binary_bufs_sub .., nullary_bufs_sub .., binary_bufs_sub .., binary_bufs_sub .., binary_bufs_sub .., nullary_bufs_sub ..,
    nullary_bufs_sub .., nullary_bufs_sub .., unary_bufs_sub .., binary_bufs_sub .., binary_bufs_sub .., nullary_bufs_sub ..,
    unary_bufs_sub .., ternary_bufs_sub .., nullary_bufs_sub .., binary_bufs_sub .., nullary_bufs_sub .., binary_bufs_sub ..,
    binary_bufs_sub .., binary_bufs_sub .., nullary_bufs_sub .., nullary_bufs_sub .., nullary_bufs_sub .., unary_bufs_sub ..,
    binary_bufs_sub .., binary_bufs_sub .., nullary_bufs_sub .., unary_bufs_sub .., ternary_bufs_sub .., nullary_bufs_sub ..,
    binary_bufs_sub .., nullary_bufs_sub .., binary_bufs_sub .., binary_bufs_sub .., binary_bufs_sub .., nullary_bufs_sub ..,
    nullary_bufs_sub .., nullary_bufs_sub .., unary_bufs_sub .., binary_bufs_sub .., binary_bufs_sub .., nullary_bufs_sub ..,
    unary_bufs_sub .., ternary_bufs_sub .., nullary_bufs_sub .., binary_bufs_sub .., nullary_bufs_sub .., binary_bufs_sub ..,
    binary_bufs_sub .., binary_bufs_sub .., nullary_bufs_sub .., nullary_bufs_sub .., nullary_bufs_sub .., unary_bufs_sub ..,
    binary_bufs_sub .., binary_bufs_sub .., nullary_bufs_sub .., unary_bufs_sub .., ternary_bufs_sub .., nullary_bufs_sub ..,
    binary_bufs_sub .., nullary_bufs_sub .., binary_bufs_sub .., binary_bufs_sub .., binary_bufs_sub .., nullary_bufs_sub ..,
    nullary_bufs_sub .., nullary_bufs_sub .., unary_bufs_sub .., binary_bufs_sub .., binary_bufs_sub .., nullary_bufs_sub ..,
    unary_bufs_sub .., ternary_bufs_sub .., nullary_bufs_sub .., binary_bufs_sub .., nullary_bufs_sub .., binary_bufs_sub ..,
    binary_bufs_sub .., binary_bufs_sub .., unary_bufs_sub .., nullary_bufs_sub .., binary_bufs_sub .., nullary_bufs_sub ..,
    binary_bufs_sub .., nullary_bufs_sub .., binary_bufs_sub .., nullary_bufs_sub .., binary_bufs_sub .., binary_bufs_sub ..,
    binary_bufs_sub .., binary_bufs_sub .., binary_bufs_sub ..⟩

/-- Every operation determines its results: none allocates a buffer at contents not chosen. -/
theorem ops_fresh : (ops : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl⟩

/-- At the compiled mesh, for any float values, from any memory with zero counters: every weakly fair execution of
    `@main` terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.1 ops_fresh)

/-! ## What the operations compute -/

/-- The weight matrix with its diagonal zeroed: `W` times `1 −` the identity mask (the mask is the comparison of the
    row iota, plus a zero offset, with the column iota, read as a float). -/
def maskedW (W : FVec F S128x128 .f32) : FVec F S128x128 .f32 :=
  mulf W (subf (broadcastInDim S128x128 ![] bcast_S_S128x128 (constant S_ .f32 0x3F800000#32))
    (uitofp .f32 (cmpi .eq (addi (iotaInDim S128x128 32 0) (broadcastInDim S128x128 ![] bcast_S_S128x128 (constantI S_ 32 0#32)))
      (iotaInDim S128x128 32 1))))

/-- The residual `X − X · Wmᵀ`. -/
def resid (X : FVec F S1000000x128 .f32) (Wm : FVec F S128x128 .f32) : FVec F S1000000x128 .f32 :=
  subf X (Host.dotGeneral dot_S1000000x128_S128x128_S1000000x128_1_0_0_1_n_n none X
    (transpose S128x128 [1, 0] Wm transposes_S128x128_S128x128_1_0))

/-- The sum of the squared residual over both axes, from zero. -/
def sqSum (X : FVec F S1000000x128 .f32) (Wm : FVec F S128x128 .f32) : FVec F S_ .f32 :=
  Host.reduceAdd (mulf (resid X Wm) (resid X Wm)) (constant S_ .f32 0x00000000#32) reducesTo_S1000000x128_S_d0_1 h_S_

/-- The trace of a 128 × 128 matrix as the reference computes it: the diagonal selected (row iota plus a zero offset equal to
    the column iota), every other element replaced by zero, the whole summed over both axes from zero. -/
def tr (P : FVec F S128x128 .f32) : FVec F S_ .f32 :=
  Host.reduceAdd
    (select (cmpi .eq (addi (iotaInDim S128x128 32 0) (broadcastInDim S128x128 ![] bcast_S_S128x128 (constantI S_ 32 0#32)))
        (iotaInDim S128x128 32 1))
      P (broadcastInDim S128x128 ![] bcast_S_S128x128 (constant S_ .f32 0x00000000#32)))
    (constant S_ .f32 0x00000000#32) reducesTo_S128x128_S_d0_1 h_S_

/-- The product of two 128 × 128 matrices. -/
def mm (A B : FVec F S128x128 .f32) : FVec F S128x128 .f32 :=
  Host.dotGeneral dot_S128x128_S128x128_S128x128_1_0_0_1_n_n none A B

/-- The square of a 128 × 128 matrix, and its higher powers up to the ninth: each the previous one times the matrix. -/
def pow2 (A : FVec F S128x128 .f32) : FVec F S128x128 .f32 := mm A A
def pow3 (A : FVec F S128x128 .f32) : FVec F S128x128 .f32 := mm (pow2 A) A
def pow4 (A : FVec F S128x128 .f32) : FVec F S128x128 .f32 := mm (pow3 A) A
def pow5 (A : FVec F S128x128 .f32) : FVec F S128x128 .f32 := mm (pow4 A) A
def pow6 (A : FVec F S128x128 .f32) : FVec F S128x128 .f32 := mm (pow5 A) A
def pow7 (A : FVec F S128x128 .f32) : FVec F S128x128 .f32 := mm (pow6 A) A
def pow8 (A : FVec F S128x128 .f32) : FVec F S128x128 .f32 := mm (pow7 A) A
def pow9 (A : FVec F S128x128 .f32) : FVec F S128x128 .f32 := mm (pow8 A) A

/-- The partial sums of the power series `Σ tr(A^k) / k!`, from zero: the factorials are the printed constants
    1, 2, 6, 24, 120, 720, 5040, 40320, 362880. -/
def ser1 (A : FVec F S128x128 .f32) : FVec F S_ .f32 :=
  addf (constant S_ .f32 0x00000000#32) (Host.divf (tr A) (constant S_ .f32 0x3F800000#32))
def ser2 (A : FVec F S128x128 .f32) : FVec F S_ .f32 :=
  addf (ser1 A) (Host.divf (tr (pow2 A)) (constant S_ .f32 0x40000000#32))
def ser3 (A : FVec F S128x128 .f32) : FVec F S_ .f32 :=
  addf (ser2 A) (Host.divf (tr (pow3 A)) (constant S_ .f32 0x40C00000#32))
def ser4 (A : FVec F S128x128 .f32) : FVec F S_ .f32 :=
  addf (ser3 A) (Host.divf (tr (pow4 A)) (constant S_ .f32 0x41C00000#32))
def ser5 (A : FVec F S128x128 .f32) : FVec F S_ .f32 :=
  addf (ser4 A) (Host.divf (tr (pow5 A)) (constant S_ .f32 0x42F00000#32))
def ser6 (A : FVec F S128x128 .f32) : FVec F S_ .f32 :=
  addf (ser5 A) (Host.divf (tr (pow6 A)) (constant S_ .f32 0x44340000#32))
def ser7 (A : FVec F S128x128 .f32) : FVec F S_ .f32 :=
  addf (ser6 A) (Host.divf (tr (pow7 A)) (constant S_ .f32 0x459D8000#32))
def ser8 (A : FVec F S128x128 .f32) : FVec F S_ .f32 :=
  addf (ser7 A) (Host.divf (tr (pow8 A)) (constant S_ .f32 0x471D8000#32))
def ser9 (A : FVec F S128x128 .f32) : FVec F S_ .f32 :=
  addf (ser8 A) (Host.divf (tr (pow9 A)) (constant S_ .f32 0x48B13000#32))

/-- The loss from the masked weights `Wm` and the squared-residual sum `S`:
    `(½ · S) / 10⁶ + (½ · h + (½ · h) · h) + 0.01 · Σ |Wm|` with `h` the nine-term series of `Wm ∘ Wm`. -/
def tail (Wm : FVec F S128x128 .f32) (S : FVec F S_ .f32) : FVec F S_ .f32 :=
  addf
    (addf (Host.divf (mulf (constant S_ .f32 0x3F000000#32) S) (constant S_ .f32 0x49742400#32))
      (addf (mulf (constant S_ .f32 0x3F000000#32) (ser9 (mulf Wm Wm)))
        (mulf (mulf (constant S_ .f32 0x3F000000#32) (ser9 (mulf Wm Wm))) (ser9 (mulf Wm Wm)))))
    (mulf (constant S_ .f32 0x3C23D70A#32)
      (Host.reduceAdd (Host.absf Wm) (constant S_ .f32 0x00000000#32) reducesTo_S128x128_S_d0_1 h_S_))

attribute [local irreducible] Host.reduceAdd in
set_option maxRecDepth 65536 in
set_option maxHeartbeats 4000000 in
/-- The fold at the result buffer is `tail` of the masked weights and the squared-residual sum, by computation: each
    operation's result at its own buffer is its function of its operands' contents, at any other buffer what was there. -/
theorem out_eq (V : Valuation τ sig (Elt F)) :
    after ops V (main_v61 : DevRef τ sig)
      = tail (maskedW (V (main_arg1 : DevRef τ sig))) (sqSum (V (main_arg0 : DevRef τ sig)) (maskedW (V (main_arg1 : DevRef τ sig)))) := by
  after_results_simp
  rfl

set_option maxRecDepth 65536 in
set_option maxHeartbeats 4000000 in
/-- No operation writes the data matrix: it ends as it began. -/
theorem arg0_eq (V : Valuation τ sig (Elt F)) :
    after ops V (main_arg0 : DevRef τ sig) = V (main_arg0 : DevRef τ sig) := by
  after_results_simp

set_option maxRecDepth 65536 in
set_option maxHeartbeats 4000000 in
/-- No operation writes the weight matrix: it ends as it began. -/
theorem arg1_eq (V : Valuation τ sig (Elt F)) :
    after ops V (main_arg1 : DevRef τ sig) = V (main_arg1 : DevRef τ sig) := by
  after_results_simp

/-- On every device, for any float values, from any memory with zero counters: every weakly fair execution of `@main`
    terminates with the result at `tail` of the masked weights and the squared-residual sum of the arguments' launch
    contents, and the two arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v61)
          = tail (maskedW (m ((c.tc : Thread nD τ).loc main_arg1)))
              (sqSum (m ((c.tc : Thread nD τ).loc main_arg0)) (maskedW (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v61).trans (out_eq (launchContents m c)),
      (h c main_arg0).trans (arg0_eq (launchContents m c)),
      (h c main_arg1).trans (arg1_eq (launchContents m c))⟩)
    (run_main m ρ)

end Cert.ReferenceIdeal.HandRun

end
-- ==== Proof.KI.Tail.lean ====
/-
  What the operations after the launch compute.  They read two things only: the masked weight matrix Wm (computed
  before the launch) and the two per-core partial sums the launch wrote.  From these they form
  ½ · (sum of the partial sums) / n + ½ · h + ½ · h · h + 0.01 · Σ |Wm| with h the nine-term trace series of Wm ∘ Wm —
  operation for operation the closing part of the reference program, so the result is stated with the reference's
  own closing term.  Before the launch the host operations compute Wm and the two bf16 parts of A = I − Wmᵀ.
-/
import proofs.«177308_j21492016349912_2_alg».proof.Proof.KI.Frame
import proofs.«177308_j21492016349912_2_alg».proof.Proof.RefRun
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.StableHlo in
attribute [local irreducible] Host.reduceAdd in
set_option maxRecDepth 65536 in
set_option maxHeartbeats 8000000 in
/-- Folding the later stretches over any buffer contents leaves, in the result buffer, the reference's closing term
    of the contents of Wm's buffer and of the sum of the launch's output array from zero. -/
theorem tail_value (Vw : Valuation τ sig (Elt F)) :
    StableHlo.after (tailOps : List (List (HloOp τ sig (Elt F)))).flatten Vw (main_v70 : DevRef τ sig)
      = Cert.ReferenceIdeal.HandRun.tail (Vw (main_v8 : DevRef τ sig))
          (Host.reduceAdd (Vw (main_v21 : DevRef τ sig)) (constant S_ .f32 0x00000000#32) reducesTo_S2x1x1_S_d0_1_2 h_S_) := by
  simp only [tailOps, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, List.flatten_cons, List.flatten_nil, List.append_nil, List.cons_append, List.nil_append]
  after_results_simp
  rfl

/-- The masked weight matrix as the launch finds it: W times (1 − identity mask). -/
theorem V_Wm (c : Dev nD) :
    (V m c main_v8 : FVec F S128x128 .f32) = Cert.ReferenceIdeal.HandRun.maskedW (m ((c : Thread nD τ).loc main_arg1)) := by
  show StableHlo.after hostOps0 (fun b => m (c, b)) (Proc.devRef .tc main_v8) = _
  after_results
  rfl

/-- A = I − Wmᵀ, from the masked weights. -/
def matA (Wm : FVec F S128x128 .f32) : FVec F S128x128 .f32 :=
  subf (uitofp .f32 (cmpi .eq (addi (iotaInDim S128x128 32 0) (broadcastInDim S128x128 ![] bcast_S_S128x128 (constantI S_ 32 0#32))) (iotaInDim S128x128 32 1)))
    (transpose S128x128 [1, 0] Wm transposes_S128x128_S128x128_1_0)

/-- The first bf16 part of A as the launch finds it. -/
theorem V_Ahi (c : Dev nD) :
    (V m c main_v17 : FVec F S128x128 .bf16) = truncf .bf16 (matA (Cert.ReferenceIdeal.HandRun.maskedW (m ((c : Thread nD τ).loc main_arg1)))) bitsLt_bf16_f32 := by
  show StableHlo.after hostOps0 (fun b => m (c, b)) (Proc.devRef .tc main_v17) = _
  after_results
  rfl

/-- The second: A minus its first part, rounded again. -/
theorem V_Alo (c : Dev nD) :
    (V m c main_v20 : FVec F S128x128 .bf16) = truncf .bf16 (subf (matA (Cert.ReferenceIdeal.HandRun.maskedW (m ((c : Thread nD τ).loc main_arg1))))
      (extf .f32 (truncf .bf16 (matA (Cert.ReferenceIdeal.HandRun.maskedW (m ((c : Thread nD τ).loc main_arg1)))) bitsLt_bf16_f32) bitsLt_bf16_f32)) bitsLt_bf16_f32 := by
  show StableHlo.after hostOps0 (fun b => m (c, b)) (Proc.devRef .tc main_v20) = _
  after_results
  rfl

/-- The program's result, from the launch's proof data: the closing term of Wm and of the sum of the output array the
    proof data computes. -/
theorem result_value (c : Dev nD) :
    Pipeline.afterTail₀ cfgs (dats m) 0 (V0 m) tailOps c main_v70
      = Cert.ReferenceIdeal.HandRun.tail (Cert.ReferenceIdeal.HandRun.maskedW (m ((c : Thread nD τ).loc main_arg1)))
          (Host.reduceAdd ((dats m 0 c).arrAt 3 cfg0.N) (constant S_ .f32 0x00000000#32) reducesTo_S2x1x1_S_d0_1_2 h_S_) := by
  unfold Pipeline.afterTail₀
  rw [tail_value]
  have h8 : Pipeline.withArrays spec0 c (V0 m c) (fun w => (dats m 0 c).arrAt w cfg0.N) (Proc.devRef .tc main_v8) = V m c main_v8 :=
    Pipeline.withArrays_of_ne _ c (V0 m c) _ main_v8 (by exact (by decide : ∀ w, Pipeline.arrRef spec0 w ≠ main_v8))
  have h21 : Pipeline.withArrays spec0 c (V0 m c) (fun w => (dats m 0 c).arrAt w cfg0.N) (Proc.devRef .tc main_v21) = (dats m 0 c).arrAt 3 cfg0.N :=
    Pipeline.withArrays_arr spec0 launch0.win.arr_inj c _ _ 3
  rw [h8, h21, V_Wm]

end Cert.KernelIdeal.Hand

end
-- ==== Proof.KI.MatA.lean ====
/-
  The matrix A = I − Wmᵀ read entry by entry, at the ideal values.  The host operations before the launch build the
  identity mask by comparing the row number (plus a zero offset) with the column number, read the comparison as a
  float, and subtract the transpose of the masked weights; they then split A into two bf16 parts, A rounded and the
  rounded remainder.  At the ideal values rounding changes nothing, so the first part is A itself and the second is
  the first minus itself.
-/
import proofs.«177308_j21492016349912_2_alg».proof.Proof.KI.Tail
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem Idealize.ShloMosaic.ValueIdx

/-- Two numbers below 128 give the same 32-bit word only when they are equal. -/
theorem ofNat32_inj {k q : ℕ} (hk : k < 128) (hq : q < 128) (h : BitVec.ofNat 32 k = BitVec.ofNat 32 q) : k = q := by
  have e := congrArg BitVec.toNat h
  simp only [BitVec.toNat_ofNat] at e
  omega

/-- The comparison word of row number k (plus a zero offset) with column number q: one exactly on the diagonal. -/
theorem diag_word (k q : Fin 128) :
    IntOp.cmpi .eq (IntOp.addi (BitVec.ofNat 32 k.val) 0#32) (BitVec.ofNat 32 q.val) = if k = q then 1#1 else 0#1 := by
  unfold IntOp.addi
  rw [BitVec.add_zero]
  by_cases h : k = q
  · subst h
    rw [if_pos rfl]
    simp [IntOp.cmpi]
  · rw [if_neg h]
    have hne : BitVec.ofNat 32 k.val ≠ BitVec.ofNat 32 q.val := fun e => h (Fin.ext (ofNat32_inj k.isLt q.isLt e))
    have hb : (BitVec.ofNat 32 k.val == BitVec.ofNat 32 q.val) = false := beq_eq_false_iff_ne.mpr hne
    simp [IntOp.cmpi, hb]

/-- The identity mask read as a float at row k and column q: one on the diagonal, zero off it. -/
theorem mask_apply (k q : Fin 128) :
    uitofp (F := Ideal) .f32
        (cmpi .eq (addi (iotaInDim S128x128 32 0) (broadcastInDim S128x128 ![] bcast_S_S128x128 (constantI S_ 32 0#32)))
          (iotaInDim S128x128 32 1)) (ix2 k q)
      = if k = q then (1 : EReal) else 0 := by
  show (((IntOp.cmpi .eq (IntOp.addi (BitVec.ofNat 32 k.val) 0#32) (BitVec.ofNat 32 q.val)).toNat : ℝ) : EReal) = _
  rw [diag_word]
  by_cases h : k = q
  · rw [if_pos h, if_pos h]; simp
  · rw [if_neg h, if_neg h]; simp

/-- A = I − Wmᵀ at row k and column q: the identity's entry minus Wm's entry at (q, k). -/
theorem matA_apply (Wm : FVec Ideal S128x128 .f32) (k q : Fin 128) :
    matA (F := Ideal) Wm (ix2 k q) = (if k = q then (1 : EReal) else 0) - Wm (ix2 q k) := by
  unfold matA
  rw [subf_apply, mask_apply, transpose_ix2_apply]

variable (m : (ℓ : Loc nD τ sig) → Buf (Elt Ideal) ℓ)

/-- The first bf16 part of A, as the launch finds it, at row k and column q: A's entry there. -/
theorem Ahi_apply (c : Dev nD) (k q : Fin 128) :
    (V m c main_v17 : FVec Ideal S128x128 .bf16) (ix2 k q)
      = (if k = q then (1 : EReal) else 0)
          - Cert.ReferenceIdeal.HandRun.maskedW (F := Ideal) (m ((c : Thread nD τ).loc main_arg1)) (ix2 q k) :=
  (congrFun (V_Ahi m c) (ix2 k q)).trans (matA_apply _ k q)

/-- The second bf16 part of A, as the launch finds it, at row k and column q: the first part's entry minus itself. -/
theorem Alo_apply (c : Dev nD) (k q : Fin 128) :
    (V m c main_v20 : FVec Ideal S128x128 .bf16) (ix2 k q)
      = HSub.hSub (α := EReal) (β := EReal) ((V m c main_v17 : FVec Ideal S128x128 .bf16) (ix2 k q))
          ((V m c main_v17 : FVec Ideal S128x128 .bf16) (ix2 k q)) := by
  have h17 := congrFun (V_Ahi m c) (ix2 k q)
  have h20 := congrFun (V_Alo m c) (ix2 k q)
  rw [h20, h17]
  rfl

end Cert.KernelIdeal.Hand

end
-- ==== Proof.ResidualAlgebra.lean ====
/- Extended-real algebra over an abstract finite index type.

   Every quantity here is an extended real that is in fact a real number. On such values the
   extended-real sum, difference and product are the coercions of the real ones, so an identity between
   them is proved in the reals and carried back along the coercion. The identity of interest: a row
   `x` multiplied by the matrix `identity - w` is the row's own entry minus the row's product with `w`,
   and the two "remainder" sums that arise when each factor is split into itself plus a zero remainder
   vanish. -/
import Mathlib
import Idealize.ShloMosaic.PureOps.Ideal

open scoped BigOperators

namespace Cert.ResidualAlgebra

/-- The coercion of the reals into the extended reals commutes with a finite sum. -/
theorem EReal_coe_sum {ι : Type*} (s : Finset ι) (f : ι → ℝ) :
    ((∑ i ∈ s, f i : ℝ) : EReal) = ∑ i ∈ s, (f i : EReal) := by
  classical
  induction s using Finset.induction_on with
  | empty => simp
  | insert a s ha ih =>
    rw [Finset.sum_insert ha, Finset.sum_insert ha, EReal.coe_add, ih]

/-- A real number minus itself is zero in the extended reals (false at the infinities). -/
theorem sub_self_of_real (a : EReal) (h : ∃ r : ℝ, a = r) : a - a = 0 := by
  obtain ⟨r, rfl⟩ := h
  rw [← EReal.coe_sub, sub_self, EReal.coe_zero]

/-- With real entries, splitting each factor into itself plus a zero remainder changes nothing, and
    multiplying a row by (identity − w) is the row entry minus the row's product with w. -/
theorem split_residual {K : Type*} [Fintype K] [DecidableEq K] (x w : K → ℝ) (q : K) :
    ((∑ k, (x k : EReal) * (((if k = q then (1:ℝ) else 0 : ℝ) : EReal) - (w k : EReal)))
      + ∑ k, (x k : EReal) * (((((if k = q then (1:ℝ) else 0 : ℝ) : EReal) - (w k : EReal)))
          - ((((if k = q then (1:ℝ) else 0 : ℝ) : EReal) - (w k : EReal)))))
      + ∑ k, ((x k : EReal) - (x k : EReal)) * (((if k = q then (1:ℝ) else 0 : ℝ) : EReal) - (w k : EReal))
    = (x q : EReal) - ∑ k, (x k : EReal) * (w k : EReal) := by
  -- every term is the coercion of the corresponding real term
  simp only [← EReal.coe_sub, ← EReal.coe_mul, ← EReal_coe_sum, ← EReal.coe_add]
  -- the identity in the reals
  congr 1
  simp only [sub_self, mul_zero, zero_mul, Finset.sum_const_zero, add_zero, mul_sub,
    Finset.sum_sub_distrib, mul_ite, mul_one, Finset.sum_ite_eq', Finset.mem_univ, if_true]

/-- The same identity for extended reals that are reals: `e` is the `q`-th row of the identity. -/
theorem split_residual' {K : Type*} [Fintype K] [DecidableEq K] (x e w : K → EReal) (q : K)
    (hx : ∀ k, ∃ r : ℝ, x k = r) (hw : ∀ k, ∃ r : ℝ, w k = r)
    (he : ∀ k, e k = if k = q then 1 else 0) :
    ((∑ k, x k * (e k - w k)) + ∑ k, x k * ((e k - w k) - (e k - w k)))
      + ∑ k, (x k - x k) * (e k - w k) = x q - ∑ k, x k * w k := by
  choose xr hxr using hx
  choose wr hwr using hw
  have he' : ∀ k, e k = ((if k = q then (1:ℝ) else 0 : ℝ) : EReal) := by
    intro k
    rw [he k]
    split_ifs <;> simp
  simp only [hxr, hwr, he']
  exact split_residual xr wr q

end Cert.ResidualAlgebra
-- ==== Proof.Regroup.lean ====
/- Summing squared residuals tile by tile is the one sum over all rows.

   A matrix of 1000000 rows is cut into 100 tiles of 10000 consecutive rows, and the tiles are shared
   between two accumulators, 50 consecutive tiles each; an accumulator starts from 0 and adds, tile after
   tile, the sum over the tile's rows and the 128 columns of the squared residual. A finite sum in an
   additive commutative monoid does not depend on how its index set is cut up: row `i` is row
   `i % 10000` of tile `i / 10000`, so the sum over all tiles and all rows of a tile is the sum over
   all rows, and no finiteness is needed for that. Finiteness is needed only termwise, to read the residual in its
   three-product split form as `x q - ∑ k, x k * w k q`. -/
import Mathlib
import proofs.«177308_j21492016349912_2_alg».proof.Proof.ResidualAlgebra

open scoped BigOperators

noncomputable section

namespace Cert.Regroup

/-- A tile's residual in split form, from the tile's rows `xb` and the matrix `A`. -/
def tres (xb : Fin 10000 → Fin 128 → EReal) (A B : Fin 128 → Fin 128 → EReal) (r : Fin 10000) (q : Fin 128) : EReal :=
  ((∑ k : Fin 128, xb r k * A k q) + ∑ k : Fin 128, xb r k * B k q) + ∑ k : Fin 128, (xb r k - xb r k) * A k q

/-- Row `r` of tile `t` is row `t * 10000 + r` of the whole matrix. -/
def tileRow (t : ℕ) (ht : t < 100) (r : Fin 10000) : Fin 1000000 := ⟨t * 10000 + r.val, by have := r.isLt; omega⟩

/-- Position `r` of block `t`, among `a` blocks of `b` positions each, is below `a * b`. -/
theorem tile_lt {a b n : ℕ} (hn : a * b = n) (t : Fin a) (r : Fin b) : t.val * b + r.val < n := by
  have ht := t.isLt
  have hr := r.isLt
  calc t.val * b + r.val < t.val * b + b := by omega
    _ = (t.val + 1) * b := by ring
    _ ≤ a * b := Nat.mul_le_mul_right b (by omega)
    _ = n := hn

/-- A sum over `a * b` positions is the sum over `a` blocks of the sums over the `b` positions of a block. -/
theorem sum_fin_mul {M : Type*} [AddCommMonoid M] (a b n : ℕ) (hn : a * b = n) (f : Fin n → M) :
    ∑ i, f i = ∑ t : Fin a, ∑ r : Fin b, f ⟨t.val * b + r.val, tile_lt hn t r⟩ := by
  subst hn
  rw [← (finProdFinEquiv (m := a) (n := b)).sum_comp f, Fintype.sum_prod_type]
  refine Finset.sum_congr rfl fun t _ => Finset.sum_congr rfl fun r _ => ?_
  congr 1
  apply Fin.ext
  simp only [finProdFinEquiv_apply_val]
  ring

/-- The sum over the rows of tile `t`; zero past the last tile. -/
def tileSum {M : Type*} [AddCommMonoid M] (f : Fin 1000000 → M) (t : ℕ) : M :=
  if h : t < 100 then ∑ r : Fin 10000, f (tileRow t h r) else 0

/-- Two accumulators, each started from 0 and adding 50 consecutive tiles, together add every row once. -/
theorem tile_sum {M : Type*} [AddCommMonoid M] (f : Fin 1000000 → M) :
    (∑ c : Fin 2, ((0 : M) + ∑ s ∈ Finset.range 50,
        (if h : 50 * c.val + s < 100 then ∑ r : Fin 10000, f (tileRow (50 * c.val + s) h r) else 0)))
      = ∑ i, f i := by
  show (∑ c : Fin 2, ((0 : M) + ∑ s ∈ Finset.range 50, tileSum f (50 * c.val + s))) = ∑ i, f i
  -- the two accumulators: tiles 0..49 and tiles 50..99
  rw [Fin.sum_univ_two]
  simp only [Fin.val_zero, Fin.val_one, Nat.mul_zero, Nat.mul_one, zero_add]
  rw [← Finset.sum_range_add (tileSum f) 50 50]
  -- all 100 tiles, each the sum over its rows
  rw [sum_fin_mul 100 10000 1000000 (by norm_num) f, show (50 + 50 : ℕ) = 100 from rfl,
    ← Fin.sum_univ_eq_sum_range]
  refine Finset.sum_congr rfl fun t _ => ?_
  rw [tileSum, dif_pos t.isLt]
  rfl

/-- With real entries the split form of a tile's residual is the row entry minus the row's product with `Wt`. -/
theorem tres_eq (xb : Fin 10000 → Fin 128 → EReal) (Wt E A B : Fin 128 → Fin 128 → EReal)
    (hx : ∀ r k, ∃ v : ℝ, xb r k = v) (hW : ∀ k q, ∃ v : ℝ, Wt k q = v)
    (hE : ∀ k q, E k q = if k = q then 1 else 0) (hA : ∀ k q, A k q = E k q - Wt k q)
    (hB : ∀ k q, B k q = A k q - A k q) (r : Fin 10000) (q : Fin 128) :
    tres xb A B r q = xb r q - ∑ k : Fin 128, xb r k * Wt k q := by
  unfold tres
  simp only [hB, hA]
  exact Cert.ResidualAlgebra.split_residual' (fun k => xb r k) (fun k => E k q) (fun k => Wt k q) q
    (fun k => hx r k) (fun k => hW k q) (fun k => hE k q)

/-- Summing the squared split-form residuals tile by tile is the one sum of squared residuals over all rows. -/
theorem regroup (X : Fin 1000000 → Fin 128 → EReal) (Wt E A B : Fin 128 → Fin 128 → EReal)
    (hX : ∀ i k, ∃ r : ℝ, X i k = r) (hW : ∀ k q, ∃ r : ℝ, Wt k q = r)
    (hE : ∀ k q, E k q = if k = q then 1 else 0) (hA : ∀ k q, A k q = E k q - Wt k q) (hB : ∀ k q, B k q = A k q - A k q) :
    (∑ c : Fin 2, ((0 : EReal) + ∑ s ∈ Finset.range 50,
        (if h : 50 * c.val + s < 100 then ∑ r : Fin 10000, ∑ q : Fin 128,
            tres (fun r k => X (tileRow (50 * c.val + s) h r) k) A B r q * tres (fun r k => X (tileRow (50 * c.val + s) h r) k) A B r q
          else 0)))
      = ∑ i : Fin 1000000, ∑ q : Fin 128, (X i q - ∑ k : Fin 128, X i k * Wt k q) * (X i q - ∑ k : Fin 128, X i k * Wt k q) := by
  refine Eq.trans ?_ (tile_sum (fun i => ∑ q : Fin 128,
    (X i q - ∑ k : Fin 128, X i k * Wt k q) * (X i q - ∑ k : Fin 128, X i k * Wt k q)))
  refine Finset.sum_congr rfl fun c _ => ?_
  congr 1
  refine Finset.sum_congr rfl fun s _ => ?_
  by_cases h : 50 * c.val + s < 100
  · rw [dif_pos h, dif_pos h]
    refine Finset.sum_congr rfl fun r _ => Finset.sum_congr rfl fun q _ => ?_
    rw [tres_eq (fun r k => X (tileRow (50 * c.val + s) h r) k) Wt E A B (fun r k => hX _ k) hW hE hA hB r q]
  · rw [dif_neg h, dif_neg h]

end Cert.Regroup

end
-- ==== Proof.RefValue.lean ====
/- The reference's squared-residual sum, its masked weights, and the kernel's final sum of two partial sums, read as
   extended-real expressions.

   A host sum over every axis into a scalar is the initial value plus the sum over the whole index set; a rank-2 index
   set is the product of its coordinate ranges, and a rank-3 index set with two unit axes is the range of its first
   coordinate. A `dot_general` that contracts the left operand's second axis with the right operand's first is the sum
   over that one axis of the products, and a transposed matrix at (k, q) is the matrix at (q, k). -/
import proofs.«177308_j21492016349912_2_alg».proof.Proof.RefRun
import proofs.«177308_j21492016349912_2_alg».proof.Proof.Gen.KernelIdeal
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.HandRun Idealize.ShloMosaic Idealize.ShloMosaic.ValueIdx
open scoped BigOperators

/-! ## The sum of the two partial sums -/

/-- A [2, 1, 1] index set is the range of its first coordinate: the other two coordinates can only be 0. -/
def idxEquiv211 : (⟨3, ![2, 1, 1]⟩ : Shape).Idx ≃ Fin 2 where
  toFun i := i 0
  invFun c := ix3 c 0 0
  left_inv i := by
    funext a
    match a with
    | ⟨0, _⟩ => rfl
    | ⟨1, _⟩ =>
      apply Fin.ext
      have h := (i ⟨1, by decide⟩).isLt
      have hs : (⟨3, ![2, 1, 1]⟩ : Shape).size ⟨1, by decide⟩ = 1 := rfl
      show (0 : ℕ) = (i ⟨1, _⟩).val
      omega
    | ⟨2, _⟩ =>
      apply Fin.ext
      have h := (i ⟨2, by decide⟩).isLt
      have hs : (⟨3, ![2, 1, 1]⟩ : Shape).size ⟨2, by decide⟩ = 1 := rfl
      show (0 : ℕ) = (i ⟨2, _⟩).val
      omega
  right_inv _ := rfl

/-- The host sum of a [2, 1, 1] array over all three axes, from zero, is zero plus its two entries. -/
theorem pairSum_apply' (v : FVec Ideal Cert.KernelIdeal.S2x1x1 .f32)
    (h : Cert.KernelIdeal.S2x1x1.ReducesTo [0, 1, 2] Cert.KernelIdeal.S_) (hS : 0 < Cert.KernelIdeal.S_.numel)
    (j : Cert.KernelIdeal.S_.Idx) :
    Host.reduceAdd (F := Ideal) v (constant (F := Ideal) Cert.KernelIdeal.S_ .f32 0x00000000#32) h hS j
      = 0 + ∑ c : Fin 2, v (ix3 c 0 0) := by
  rw [hostReduceAdd_apply, Ideal.hostReduceAdd_total h (fun b => b.elim0), constant_apply, Ideal.ofBits_zero_f32,
    ← Equiv.sum_comp idxEquiv211.symm v]
  rfl

/-- The same at the facts the kernel's program states. -/
theorem pairSum_apply [Cert.KernelIdeal.Facts] (v : FVec Ideal Cert.KernelIdeal.S2x1x1 .f32) (j : Cert.KernelIdeal.S_.Idx) :
    Host.reduceAdd (F := Ideal) v (constant (F := Ideal) Cert.KernelIdeal.S_ .f32 0x00000000#32)
        Cert.KernelIdeal.Facts₀.reducesTo_S2x1x1_S_d0_1_2 Cert.KernelIdeal.Facts₀.h_S_ j
      = 0 + ∑ c : Fin 2, v (ix3 c 0 0) :=
  pairSum_apply' v _ _ j

/-! ## The squared-residual sum -/

/-- The reference's `dot_general` at row `i`, column `q`: the sum over the contracted axis of the left operand's row
    `i` times the right operand's column `q`. -/
theorem dot_apply (X : FVec Ideal S1000000x128 .f32) (Y : FVec Ideal S128x128 .f32) (i : Fin 1000000) (q : Fin 128) :
    Host.dotGeneral (F := Ideal) dot_S1000000x128_S128x128_S1000000x128_1_0_0_1_n_n none X Y (ix2 i q)
      = ∑ k : Fin 128, X (ix2 i k) * Y (ix2 k q) := by
  simp only [Host.dotGeneral]
  rw [Ideal.dotGeneral_apply,
    ← Equiv.sum_comp (contrEquiv1 dot_S1000000x128_S128x128_S1000000x128_1_0_0_1_n_n 128 rfl rfl).symm]
  refine Finset.sum_congr rfl fun k _ => ?_
  -- the left operand is read at (i, k): axis 0 is kept from the result index, axis 1 is the contracted one
  have hl : dot_S1000000x128_S128x128_S1000000x128_1_0_0_1_n_n.lhsIdx (ix2 i q)
      ((contrEquiv1 dot_S1000000x128_S128x128_S1000000x128_1_0_0_1_n_n 128 rfl rfl).symm k) = ix2 i k := by
    funext a
    apply Fin.ext
    match a with
    | ⟨0, _⟩ => rfl
    | ⟨1, _⟩ =>
      exact (DotDims.lhsIdx_val_of_single dot_S1000000x128_S128x128_S1000000x128_1_0_0_1_n_n rfl _ _).trans
        (contrEquiv1_symm_val dot_S1000000x128_S128x128_S1000000x128_1_0_0_1_n_n 128 rfl rfl k)
  -- the right operand is read at (k, q): axis 0 is the contracted one, axis 1 is kept from the result index
  have hr : dot_S1000000x128_S128x128_S1000000x128_1_0_0_1_n_n.rhsIdx (ix2 i q)
      ((contrEquiv1 dot_S1000000x128_S128x128_S1000000x128_1_0_0_1_n_n 128 rfl rfl).symm k) = ix2 k q := by
    funext a
    apply Fin.ext
    match a with
    | ⟨0, _⟩ =>
      exact (DotDims.rhsIdx_val_of_single dot_S1000000x128_S128x128_S1000000x128_1_0_0_1_n_n rfl _ _).trans
        (contrEquiv1_symm_val dot_S1000000x128_S128x128_S1000000x128_1_0_0_1_n_n 128 rfl rfl k)
    | ⟨1, _⟩ => rfl
  rw [hl, hr]

/-- The transposed weights at (k, q) are the weights at (q, k). -/
theorem transpose_apply_ix2 (Wm : FVec Ideal S128x128 .f32) (k q : Fin 128) :
    transpose S128x128 [1, 0] Wm transposes_S128x128_S128x128_1_0 (ix2 k q) = Wm (ix2 q k) := by
  refine transpose_apply [1, 0] Wm _ (ix2 k q) (ix2 q k) fun b => ?_
  match b with
  | ⟨0, _⟩ => rfl
  | ⟨1, _⟩ => rfl

/-- The residual at row `i`, column `q`: the entry minus the product of row `i` with row `q` of the weights. -/
theorem resid_apply (X : FVec Ideal S1000000x128 .f32) (Wm : FVec Ideal S128x128 .f32) (i : Fin 1000000) (q : Fin 128) :
    resid (F := Ideal) X Wm (ix2 i q) = X (ix2 i q) - ∑ k : Fin 128, X (ix2 i k) * Wm (ix2 q k) := by
  unfold resid
  rw [subf_apply, dot_apply]
  refine congrArg (fun s => X (ix2 i q) - s) ?_
  refine Finset.sum_congr rfl fun k _ => ?_
  rw [transpose_apply_ix2]

/-- The reference's squared-residual sum: zero plus the sum over all rows and columns of the squared residual. -/
theorem sqSum_apply (X : FVec Ideal S1000000x128 .f32) (Wm : FVec Ideal S128x128 .f32) (j : S_.Idx) :
    sqSum (F := Ideal) X Wm j = 0 + ∑ i : Fin 1000000, ∑ q : Fin 128,
      (X (ix2 i q) - ∑ k : Fin 128, X (ix2 i k) * Wm (ix2 q k)) * (X (ix2 i q) - ∑ k : Fin 128, X (ix2 i k) * Wm (ix2 q k)) := by
  unfold sqSum
  rw [hostReduceAdd_apply, Ideal.hostReduceAdd_total reducesTo_S1000000x128_S_d0_1 (fun b => b.elim0), constant_apply,
    Ideal.ofBits_zero_f32, sum_idx2]
  refine congrArg (fun s => (0 : EReal) + s) ?_
  refine Finset.sum_congr rfl fun i _ => Finset.sum_congr rfl fun q _ => ?_
  rw [mulf_apply, resid_apply]

/-! ## The masked weights -/

/-- With a real entry `W i = r`, the entry of `W` times `1 −` a mask read as a float is the real `r * (1 - n)`, `n` the
    mask word's value as a natural number. -/
theorem masked_apply (W : FVec Ideal S128x128 .f32) (m : IVec S128x128 1) (i : S128x128.Idx) (r : ℝ) (hr : W i = (r : EReal)) :
    mulf W (subf (broadcastInDim S128x128 ![] bcast_S_S128x128 (constant (F := Ideal) S_ .f32 0x3F800000#32))
      (uitofp .f32 m)) i = ((r * (1 - ((m i).toNat : ℝ)) : ℝ) : EReal) := by
  rw [mulf_apply, subf_apply, broadcastInDim_scalar_apply, constant_apply, Ideal.ofBits_one_f32, hr]
  show (r : EReal) * ((1 : EReal) - (((m i).toNat : ℝ) : EReal)) = _
  rw [← EReal.coe_one, ← EReal.coe_sub, ← EReal.coe_mul]

/-- The weights with the diagonal zeroed have real entries when the weights do. -/
theorem maskedW_real (W : FVec Ideal S128x128 .f32) (hW : ∀ i, ∃ r : ℝ, W i = (r : EReal)) :
    ∀ i, ∃ r : ℝ, maskedW (F := Ideal) W i = (r : EReal) := by
  intro i
  obtain ⟨r, hr⟩ := hW i
  unfold maskedW
  exact ⟨_, masked_apply W _ i r hr⟩

end Cert.ReferenceIdeal.RefValue

end
-- ==== Proof.KI.Total.lean ====
/-
  The kernel's sum of squares is the reference's.  The host adds the two per-core partial sums from zero; each partial
  sum is zero plus its share's fifty tile contributions; a tile contribution is the sum over the tile's rows and the
  128 columns of the squared residual in the body's three-product form, with the first bf16 part of A equal to
  A = I − Wmᵀ and the second equal to A − A.  For real (finite) X and W the three-product form collapses to
  X[i, q] − Σ_k X[i, k] · Wm[q, k], and the tiles' rows are exactly the rows of X, each once: the total is the
  reference's Σ_{i, q} (X − X · Wmᵀ)².
-/
import proofs.«177308_j21492016349912_2_alg».proof.Proof.KI.Final
import proofs.«177308_j21492016349912_2_alg».proof.Proof.KI.MatA
import proofs.«177308_j21492016349912_2_alg».proof.Proof.Regroup
import proofs.«177308_j21492016349912_2_alg».proof.Proof.RefValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg)

/-- The body's residual form is the abstract three-product form of the tile's rows and the two parts of A. -/
theorem tres_eq (x0 : FVec Ideal S10000x128 .f32) (a b : FVec Ideal S128x128 .bf16) (r : Fin 10000) (q : Fin 128) :
    Payload.tres x0 a b r q
      = Cert.Regroup.tres (fun r k => x0 (ix2 r k)) (fun k q => a (ix2 k q)) (fun k q => b (ix2 k q)) r q := rfl

/-- The sum of the two partial sums from zero is zero plus the sum, over all rows i and columns q, of the squared
    residual X[i, q] − Σ_k X[i, k] · Wm[q, k], when X and W (the launch contents of the two arguments) hold reals. -/
theorem kernel_sum (c : Dev nD) (X : FVec Ideal S1000000x128 .f32) (W : FVec Ideal S128x128 .f32)
    (eX : m ((c : Thread nD τ).loc main_arg0) = X) (eW : m ((c : Thread nD τ).loc main_arg1) = W)
    (hX : ∀ i, ∃ r : ℝ, X i = (r : EReal)) (hW : ∀ i, ∃ r : ℝ, W i = (r : EReal)) (j : S_.Idx) :
    Host.reduceAdd (F := Ideal) (coreSums m c) (constant (F := Ideal) S_ .f32 0x00000000#32) reducesTo_S2x1x1_S_d0_1_2 h_S_ j
      = 0 + ∑ i : Fin 1000000, ∑ q : Fin 128,
          (X (ix2 i q) - ∑ k : Fin 128, X (ix2 i k) * Cert.ReferenceIdeal.HandRun.maskedW (F := Ideal) W (ix2 q k))
            * (X (ix2 i q) - ∑ k : Fin 128, X (ix2 i k) * Cert.ReferenceIdeal.HandRun.maskedW (F := Ideal) W (ix2 q k)) := by
  rw [Cert.ReferenceIdeal.RefValue.pairSum_apply']
  refine congrArg (fun z : EReal => 0 + z) ?_
  have hWm := Cert.ReferenceIdeal.RefValue.maskedW_real W hW
  rw [← Cert.Regroup.regroup
    (fun i k => X (ix2 i k))
    (fun k q => Cert.ReferenceIdeal.HandRun.maskedW (F := Ideal) W (ix2 q k))
    (fun k q => if k = q then 1 else 0)
    (fun k q => (V m c main_v17 : FVec Ideal S128x128 .bf16) (ix2 k q))
    (fun k q => (V m c main_v20 : FVec Ideal S128x128 .bf16) (ix2 k q))
    (fun i k => hX (ix2 i k)) (fun k q => hWm (ix2 q k)) (fun _ _ => rfl)
    (fun k q => eW ▸ Ahi_apply m c k q) (fun k q => Alo_apply m c k q)]
  refine Finset.sum_congr rfl fun c' _ => ?_
  show 0 + ∑ s ∈ Finset.range 50, tileSum m c (50 * c'.val + s) = _
  refine congrArg (fun z : EReal => 0 + z) (Finset.sum_congr rfl fun s hs => ?_)
  have hs' : s < 50 := Finset.mem_range.mp hs
  have hlt : 50 * c'.val + s < 100 := by have := c'.isLt; omega
  have hlt' : 50 * c'.val + s < cfg0.N := by rw [show cfg0.N = 100 from N_0]; exact hlt
  unfold tileSum
  rw [dif_pos hlt', dif_pos hlt]
  refine Finset.sum_congr rfl fun r _ => Finset.sum_congr rfl fun q _ => ?_
  have e : Payload.tres (iblk m c 0 ⟨50 * c'.val + s, hlt'⟩) (iblk m c 1 ⟨50 * c'.val + s, hlt'⟩) (iblk m c 2 ⟨50 * c'.val + s, hlt'⟩) r q
      = Cert.Regroup.tres (fun r k => X (ix2 (Cert.Regroup.tileRow (50 * c'.val + s) hlt r) k))
          (fun k q => (V m c main_v17 : FVec Ideal S128x128 .bf16) (ix2 k q))
          (fun k q => (V m c main_v20 : FVec Ideal S128x128 .bf16) (ix2 k q)) r q := by
    rw [tres_eq]
    have e0 : (fun (r : Fin 10000) (k : Fin 128) => (iblk m c 0 ⟨50 * c'.val + s, hlt'⟩ : FVec Ideal S10000x128 .f32) (ix2 r k))
        = fun r k => X (ix2 (Cert.Regroup.tileRow (50 * c'.val + s) hlt r) k) := by
      funext r k
      rw [iblk_x, V_main_arg0]
      exact congrFun eX _
    have e1 : (fun (k q : Fin 128) => (iblk m c 1 ⟨50 * c'.val + s, hlt'⟩ : FVec Ideal S128x128 .bf16) (ix2 k q))
        = fun k q => (V m c main_v17 : FVec Ideal S128x128 .bf16) (ix2 k q) := by
      funext k q; rw [iblk_a]
    have e2 : (fun (k q : Fin 128) => (iblk m c 2 ⟨50 * c'.val + s, hlt'⟩ : FVec Ideal S128x128 .bf16) (ix2 k q))
        = fun k q => (V m c main_v20 : FVec Ideal S128x128 .bf16) (ix2 k q) := by
      funext k q; rw [iblk_b]
    rw [e0, e1, e2]
  rw [e]

end Cert.KernelIdeal.Hand

end
-- ==== Proof.FiniteInputs.lean ====
/- The precondition "every input is finite", decoded.

   The printed predicate computes, for each of the two float inputs, the conjunction over all entries of
   `|x| < +∞`, and then the conjunction of the two results, as a single one-bit scalar. When that scalar
   is 1 every entry of each input has absolute value strictly below `+∞` in the extended reals, and an
   extended real with that property is a real number: at `+∞` and at `-∞` the absolute value
   `max x (-x)` is `+∞` itself. -/
import proofs.«177308_j21492016349912_2_alg».proof.Proof.Gen.Pre_finite_inputs
import Idealize.ShloMosaic.Lib.ReduceAll
import Idealize.ShloMosaic.Lib.IdealHost
import Idealize.ShloMosaic.PureOps.Ideal

noncomputable section

namespace Cert.FiniteInputs

open Idealize.ShloMosaic
open Cert.Pre_finite_inputs

/-- The scalar shape has exactly one index. -/
instance : Subsingleton S_.Idx := ⟨fun a b => funext fun d => d.elim0⟩

/-- An extended real whose absolute value `max x (-x)` is below `+∞` is a real number. -/
theorem real_of_abs_lt_top (x : EReal) (hx : max x (-x) < ⊤) : ∃ r : ℝ, x = (r : EReal) := by
  induction x using EReal.rec with
  | bot => simp at hx
  | coe r => exact ⟨r, rfl⟩
  | top => simp at hx

/-- The single-precision pattern with all exponent bits set and a zero significand denotes `+∞`. -/
theorem ofBits_inf : Ideal.ofBits .f32 0x7F800000#32 = (⊤ : EReal) := by
  simp [Ideal.ofBits, Ideal.ieee]

/-- A one-bit word made from a Boolean is 1 exactly when the Boolean is true. -/
theorem ofBool_eq_one (b : Bool) : BitVec.ofBool b = 1#1 ↔ b = true := by cases b <;> decide

/-- One entry of the comparison `|x| < +∞` being 1 makes that entry of `x` a real number. -/
theorem real_of_cmp {s : Shape} (x : FVec Ideal s .f32) (hb : S_.BroadcastsInDim s ![]) (i : s.Idx)
    (hi : cmpf .olt (Host.absf x) (broadcastInDim s ![] hb (constant (F := Ideal) S_ .f32 0x7F800000#32)) i = 1#1) :
    ∃ r : ℝ, x i = (r : EReal) := by
  apply real_of_abs_lt_top
  -- the entry of the comparison is the comparison of the entries; the broadcast scalar reads +∞ everywhere
  have h1 : cmpf .olt (Host.absf x) (broadcastInDim s ![] hb (constant (F := Ideal) S_ .f32 0x7F800000#32)) i
      = Ideal.cmp .olt (max (x i) (-(x i))) (Ideal.ofBits .f32 0x7F800000#32) := by
    show Ideal.cmp .olt (max (x i) (-(x i))) (broadcastInDim s ![] hb (constant (F := Ideal) S_ .f32 0x7F800000#32) i) = _
    rw [ValueIdx.broadcastInDim_scalar_apply]
    rfl
  rw [h1, ofBits_inf] at hi
  unfold Ideal.cmp at hi
  rw [ofBool_eq_one] at hi
  simpa using hi

/-- THE PRECONDITION DECODED: when the printed predicate is 1, every entry of both inputs is a real. -/
theorem real_of_pre (X : FVec Ideal S1000000x128 .f32) (W : FVec Ideal S128x128 .f32)
    (h : Cert.Pre_finite_inputs.fn (F := Ideal) X W = fun _ => 1#1) :
    (∀ i, ∃ r : ℝ, X i = (r : EReal)) ∧ (∀ i, ∃ r : ℝ, W i = (r : EReal)) := by
  have e := congrFun h ValueIdx.ix0
  dsimp only [Cert.Pre_finite_inputs.fn] at e
  -- the last operation is the conjunction of the two reductions
  obtain ⟨e1, e2⟩ := IntOp.andi_eq_one.1 e
  exact ⟨fun i => real_of_cmp X _ i (Host.reduce_andi_all _ _ _ _ _ e1 i),
         fun i => real_of_cmp W _ i (Host.reduce_andi_all _ _ _ _ _ e2 i)⟩

end Cert.FiniteInputs

end
-- ==== Proof.lean ====
/-
  The certificate.  The kernel computes the structural-equation loss

      ½ · Σ (X − X · Wmᵀ)² / n + ½ · h + ½ · h² + 0.01 · Σ |Wm|,   Wm = W ∘ (1 − I),   h = Σ_{k=1}^{9} tr((Wm ∘ Wm)^k) / k!,

  with the sum of squared residuals streamed through one launch: X is cut into 100 tiles of 10000 rows, two shares of
  fifty tiles, each share accumulating into its own one-element output; per tile the residual is formed as one matrix
  product X · A with A = I − Wmᵀ, emulated by three bf16 products (X · A_hi + X · A_lo + X_lo · A_hi).  Over the
  extended reals a change of float format is the identity, so for real inputs A_lo = A − A = 0 and X_lo = X − X = 0,
  the three products collapse to X · A = X − X · Wmᵀ (distributivity, which is where finiteness of the inputs is used),
  and the two shares' partial sums add up to the reference's single sum over all rows.  Everything after the sum —
  the scaling, the trace series and the L1 term — is the same function of Wm in both programs.

  Frames: each of the three programs runs to the end from any launch memory and leaves X and W as launched — for the
  two kernel programs through the launch theorem with host operations on both sides of the launch (the body run
  symbolically in its two control cases), for the reference as a straight line of host operations.  The ideal pass
  rewrote one bf16 round trip of the X tile, which is its rule's statement.
-/
import proofs.«177308_j21492016349912_2_alg».proof.Defs
import proofs.«177308_j21492016349912_2_alg».proof.Proof.Gen.Kernel
import proofs.«177308_j21492016349912_2_alg».proof.Proof.Gen.KernelIdeal
import proofs.«177308_j21492016349912_2_alg».proof.Proof.Gen.ReferenceIdeal
import proofs.«177308_j21492016349912_2_alg».proof.Proof.Gen.Pre_finite_inputs
import proofs.«177308_j21492016349912_2_alg».proof.Proof.K.Frame
import proofs.«177308_j21492016349912_2_alg».proof.Proof.KI.Total
import proofs.«177308_j21492016349912_2_alg».proof.Proof.RefRun
import proofs.«177308_j21492016349912_2_alg».proof.Proof.RefValue
import proofs.«177308_j21492016349912_2_alg».proof.Proof.FiniteInputs
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- And the reference: its run with the result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- The one rewrite of the ideal pass: rounding the X tile to bf16 and widening it back is the identity at the ideal
    instance. -/
theorem preserves : Cert.preserves_Kernel_KernelIdeal :=
  IdealRules.truncf_extf.statement _ .f32 .bf16

/-- The idealized kernel's run, read: for real inputs the result is the reference's closing term of the masked
    weights and of the reference's own sum of squared residuals; the arguments are unchanged. -/
theorem kernel_run (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v70)
          = Cert.ReferenceIdeal.HandRun.tail (Cert.ReferenceIdeal.HandRun.maskedW (F := Ideal) (m ((c.tc : Thread Cert.KernelIdeal.nD Cert.KernelIdeal.τ).loc Cert.KernelIdeal.main_arg1)))
              (Cert.ReferenceIdeal.HandRun.sqSum (F := Ideal) (m ((c.tc : Thread Cert.KernelIdeal.nD Cert.KernelIdeal.τ).loc Cert.KernelIdeal.main_arg0)) (Cert.ReferenceIdeal.HandRun.maskedW (F := Ideal) (m ((c.tc : Thread Cert.KernelIdeal.nD Cert.KernelIdeal.τ).loc Cert.KernelIdeal.main_arg1))))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) := by
  refine (θ_run Cert.KernelIdeal.defs _ _).mono (fun r h c => ?_) (Cert.KernelIdeal.Hand.run_main (F := Ideal) m ρ)
  obtain ⟨hX, hW⟩ := Cert.FiniteInputs.real_of_pre _ _ (hpre c)
  refine ⟨?_, ?_, ?_⟩
  · rw [(h c).2 Cert.KernelIdeal.main_v70 (Pipeline.mem_restRefs_of Cert.KernelIdeal.main_v70 (by decide) (by decide)),
      Cert.KernelIdeal.Hand.result_value, Cert.KernelIdeal.Hand.final_out]
    refine congrArg (Cert.ReferenceIdeal.HandRun.tail _) ?_
    funext j
    exact (Cert.KernelIdeal.Hand.kernel_sum m c _ _ rfl rfl hX hW j).trans (Cert.ReferenceIdeal.RefValue.sqSum_apply _ _ j).symm
  · exact ((h c).1 0).trans (((Cert.KernelIdeal.Hand.dats m 0 c).arrAt_in 0 rfl _).trans
      ((Cert.KernelIdeal.Hand.A_eq m c 0).trans (Cert.KernelIdeal.Hand.V_main_arg0 m c)))
  · exact ((h c).2 Cert.KernelIdeal.main_arg1 (Pipeline.mem_restRefs_of Cert.KernelIdeal.main_arg1 (by decide) (by decide))).trans
      (Cert.KernelIdeal.Hand.W_main_arg1 m (Cert.KernelIdeal.Hand.dats m) c)

/-- From memories agreeing on X and W both idealized programs end with the same result. -/
theorem algebraic : Cert.algebraic_KernelIdeal_ReferenceIdeal := by
  intro m ρ m' ρ' hpre hagree
  refine ⟨_, kernel_run m ρ hpre, ?_⟩
  refine (θ_run Cert.ReferenceIdeal.defs _ _).mono (fun r h c => ⟨?_, (h c).2.1, (h c).2.2⟩) (Cert.ReferenceIdeal.HandRun.run (F := Ideal) m' ρ')
  rw [(h c).1, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
